-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v100)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v100) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg5 : FVec F S64 .f32) (main_arg6 : FVec F S64x64 .f32) (main_arg7 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x64 .f32) (main_arg3 : FVec F S64 .f32) (main_arg4 : FVec F S64 .f32) (main_arg5 : FVec F S64 .f32) (main_arg6 : FVec F S64x64 .f32) (main_arg7 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x64 : Shape := ⟨2, ![100000, 64]⟩
abbrev S10000x128 : Shape := ⟨2, ![10000, 128]⟩
abbrev S10000x64 : Shape := ⟨2, ![10000, 64]⟩
abbrev S1600000x64 : Shape := ⟨2, ![1600000, 64]⟩
abbrev S100000x1 : Shape := ⟨2, ![100000, 1]⟩
abbrev S1x64 : Shape := ⟨2, ![1, 64]⟩

abbrev nBuf : Space → Nat
  | .hbm => 130
  | .vmem => 24
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64, .f32⟩
  | 5 => ⟨S64, .f32⟩
  | 6 => ⟨S64x64, .f32⟩
  | 7 => ⟨S64, .f32⟩
  | 8 => ⟨S1x1600000, .i32⟩
  | 9 => ⟨S1600000, .i32⟩
  | 10 => ⟨S1x1600000, .i32⟩
  | 11 => ⟨S1600000, .i32⟩
  | 12 => ⟨S_, .f32⟩
  | 13 => ⟨S1600000, .f32⟩
  | 14 => ⟨S_, .f32⟩
  | 15 => ⟨S100000, .f32⟩
  | 16 => ⟨S1600000x1, .i32⟩
  | 17 => ⟨S100000, .f32⟩
  | 18 => ⟨S_, .f32⟩
  | 19 => ⟨S100000, .f32⟩
  | 20 => ⟨S100000, .f32⟩
  | 21 => ⟨S100000, .f32⟩
  | 22 => ⟨S100000x64, .f32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000, .f32⟩
  | 41 => ⟨S1600000, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000x64, .f32⟩
  | 51 => ⟨S1600000x1, .f32⟩
  | 52 => ⟨S1600000x64, .f32⟩
  | 53 => ⟨S1600000x64, .f32⟩
  | 54 => ⟨S_, .f32⟩
  | 55 => ⟨S100000x64, .f32⟩
  | 56 => ⟨S1600000x1, .i32⟩
  | 57 => ⟨S100000x64, .f32⟩
  | 58 => ⟨S100000, .f32⟩
  | 59 => ⟨S100000x1, .f32⟩
  | 60 => ⟨S100000x64, .f32⟩
  | 61 => ⟨S100000x64, .f32⟩
  | 62 => ⟨S100000x64, .f32⟩
  | 63 => ⟨S1x64, .f32⟩
  | 64 => ⟨S100000x64, .f32⟩
  | 65 => ⟨S100000x64, .f32⟩
  | 66 => ⟨S1x64, .f32⟩
  | 67 => ⟨S1x64, .f32⟩
  | 68 => ⟨S64, .f32⟩
  | 69 => ⟨S64, .f32⟩
  | 70 => ⟨S_, .f32⟩
  | 71 => ⟨S64, .f32⟩
  | 72 => ⟨S64, .f32⟩
  | 73 => ⟨S_, .f32⟩
  | 74 => ⟨S64, .f32⟩
  | 75 => ⟨S64, .f32⟩
  | 76 => ⟨S64, .f32⟩
  | 77 => ⟨S64, .f32⟩
  | 78 => ⟨S_, .f32⟩
  | 79 => ⟨S64, .f32⟩
  | 80 => ⟨S64, .f32⟩
  | 81 => ⟨S1x64, .f32⟩
  | 82 => ⟨S1x64, .f32⟩
  | 83 => ⟨S1x64, .f32⟩
  | 84 => ⟨S1x64, .f32⟩
  | 85 => ⟨S100000x64, .f32⟩
  | 86 => ⟨S100000x64, .f32⟩
  | 87 => ⟨S_, .i32⟩
  | 88 => ⟨S1600000, .i32⟩
  | 89 => ⟨S1600000, .i1⟩
  | 90 => ⟨S_, .i32⟩
  | 91 => ⟨S1600000, .i32⟩
  | 92 => ⟨S1600000, .i32⟩
  | 93 => ⟨S1600000, .i32⟩
  | 94 => ⟨S1600000x1, .i32⟩
  | 95 => ⟨S1600000, .f32⟩
  | 96 => ⟨S_, .i32⟩
  | 97 => ⟨S1600000, .i32⟩
  | 98 => ⟨S1600000, .i1⟩
  | 99 => ⟨S_, .i32⟩
  | 100 => ⟨S1600000, .i32⟩
  | 101 => ⟨S1600000, .i32⟩
  | 102 => ⟨S1600000, .i32⟩
  | 103 => ⟨S1600000x1, .i32⟩
  | 104 => ⟨S1600000, .f32⟩
  | 105 => ⟨S1600000, .f32⟩
  | 106 => ⟨S_, .i32⟩
  | 107 => ⟨S1600000, .i32⟩
  | 108 => ⟨S1600000, .i1⟩
  | 109 => ⟨S_, .i32⟩
  | 110 => ⟨S1600000, .i32⟩
  | 111 => ⟨S1600000, .i32⟩
  | 112 => ⟨S1600000, .i32⟩
  | 113 => ⟨S1600000x1, .i32⟩
  | 114 => ⟨S1600000x64, .f32⟩
  | 115 => ⟨S1600000x1, .f32⟩
  | 116 => ⟨S1600000x64, .f32⟩
  | 117 => ⟨S1600000x64, .f32⟩
  | 118 => ⟨S_, .f32⟩
  | 119 => ⟨S100000x64, .f32⟩
  | 120 => ⟨S1600000x1, .i32⟩
  | 121 => ⟨S100000x64, .f32⟩
  | 122 => ⟨S100000, .f32⟩
  | 123 => ⟨S100000x1, .f32⟩
  | 124 => ⟨S100000x64, .f32⟩
  | 125 => ⟨S100000x64, .f32⟩
  | 126 => ⟨S100000x64, .f32⟩
  | 127 => ⟨S1x64, .f32⟩
  | _ => ⟨S100000x128, .f32⟩

abbrev hbmTy0_1 (i : Nat) : BufTy := match i % 128 with
  | 0 => ⟨S100000x64, .f32⟩
  | 1 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S10000x64, .f32⟩
  | .local _ .vmem, ⟨12, _⟩ => ⟨S10000x64, .f32⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S1x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S64x64, .f32⟩
  | .local _ .vmem, ⟨22, _⟩ => ⟨S10000x64, .f32⟩
  | .local _ .vmem, ⟨23, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48_0 : Ref sig .tc := ⟨.hbm, 66, rfl⟩
abbrev main_v48_1 : Ref sig .tc := ⟨.hbm, 67, rfl⟩
abbrev main_v49 : Ref sig .tc := ⟨.hbm, 68, rfl⟩
abbrev main_v50 : Ref sig .tc := ⟨.hbm, 69, rfl⟩
abbrev main_cst_8 : Ref sig .tc := ⟨.hbm, 70, rfl⟩
abbrev main_v51 : Ref sig .tc := ⟨.hbm, 71, rfl⟩
abbrev main_v52 : Ref sig .tc := ⟨.hbm, 72, rfl⟩
abbrev main_cst_9 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_10 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_c_11 : Ref sig .tc := ⟨.hbm, 87, rfl⟩
abbrev main_v65 : Ref sig .tc := ⟨.hbm, 88, rfl⟩
abbrev main_v66 : Ref sig .tc := ⟨.hbm, 89, rfl⟩
abbrev main_c_12 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_c_13 : Ref sig .tc := ⟨.hbm, 96, rfl⟩
abbrev main_v72 : Ref sig .tc := ⟨.hbm, 97, rfl⟩
abbrev main_v73 : Ref sig .tc := ⟨.hbm, 98, rfl⟩
abbrev main_c_14 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_c_15 : Ref sig .tc := ⟨.hbm, 106, rfl⟩
abbrev main_v80 : Ref sig .tc := ⟨.hbm, 107, rfl⟩
abbrev main_v81 : Ref sig .tc := ⟨.hbm, 108, rfl⟩
abbrev main_c_16 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_cst_17 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_scratch0 : Ref sig .tc := ⟨.vmem, 9, rfl⟩
abbrev cc1_scratch1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg5_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem3_0 : DmaSem sig := 13
abbrev cc2_sem4_0 : DmaSem sig := 14
abbrev cc2_sem5_0 : DmaSem sig := 15
abbrev cc2_sem5_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def k1_cond2 (i : grid1.Coords) : BitVec 1 :=
  let arg0 : BitVec 32 := BitVec.ofNat 32 (i 0).val
  let c9_i32 : BitVec 32 := 9#32
  let v20 : BitVec 1 := Scalar.cmpi .eq arg0 c9_i32
  let v21 : BitVec 32 := Scalar.extui v20
  let c0_i32_11 : BitVec 32 := 0#32
  let v22 : BitVec 1 := Scalar.cmpi .ne v21 c0_i32_11
  v22

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S10000x64_S10000x64 : S10000x64.ShapeCasts S10000x64
  reduces_S10000x64_S64 : S10000x64.Reduces [0] S64
  shapeCasts_S64_S1x64 : S64.ShapeCasts S1x64
  shapeCasts_S1x64_S64 : S1x64.ShapeCasts S64
  bcast_S_S64 : S_.BroadcastsInDim S64 (![] : Fin 0 → Fin S64.rank)
  broadcasts_S1x64_S10000x64 : S1x64.Broadcasts S10000x64
  inb_S64x64_S64x64_0_0 : ∀ a, (![0, 0] : Fin 2 → Nat) a + S64x64.size a ≤ S64x64.size a
  h_S64x64 : 0 < S64x64.numel
  scatter_S100000_S1600000x1_S1600000_n_0_0_1_wf : ScatterDims.WF S100000 S1600000x1 S1600000 [] [0] [0] 1
  dot_S10000x128_S128x64_S10000x64_1_0_0_1_n_n_wf : DotDims.WF S10000x128 S128x64 S10000x64 [1] [0] [0] [1] [] []
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S100000x64.size a
  hwx2_5 : ∀ i : grid2.Coords, EltTy.bits .f32 = 32 ∨ (Rect.block (s := S100000x64) S10000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48_0) S1x64.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48_1) S1x64.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun i => !(k1_cond2 i == 1#1) | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v47) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v60) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v61) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v62) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v63) S10000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v63) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v64) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x64 : Shape := ⟨2, ![100000, 64]⟩
abbrev S1600000x64 : Shape := ⟨2, ![1600000, 64]⟩
abbrev S100000x1 : Shape := ⟨2, ![100000, 1]⟩
abbrev S1x64 : Shape := ⟨2, ![1, 64]⟩

abbrev nBuf : Space → Nat
  | .hbm => 157
  | .vmem => 0
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64, .f32⟩
  | 5 => ⟨S64, .f32⟩
  | 6 => ⟨S64x64, .f32⟩
  | 7 => ⟨S64, .f32⟩
  | 8 => ⟨S1x1600000, .i32⟩
  | 9 => ⟨S1600000, .i32⟩
  | 10 => ⟨S1x1600000, .i32⟩
  | 11 => ⟨S1600000, .i32⟩
  | 12 => ⟨S_, .f32⟩
  | 13 => ⟨S1600000, .f32⟩
  | 14 => ⟨S_, .f32⟩
  | 15 => ⟨S100000, .f32⟩
  | 16 => ⟨S1600000x1, .i32⟩
  | 17 => ⟨S100000, .f32⟩
  | 18 => ⟨S_, .f32⟩
  | 19 => ⟨S100000, .f32⟩
  | 20 => ⟨S100000, .f32⟩
  | 21 => ⟨S100000, .f32⟩
  | 22 => ⟨S100000x64, .f32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000, .f32⟩
  | 41 => ⟨S1600000, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000x64, .f32⟩
  | 51 => ⟨S1600000x1, .f32⟩
  | 52 => ⟨S1600000x64, .f32⟩
  | 53 => ⟨S1600000x64, .f32⟩
  | 54 => ⟨S_, .f32⟩
  | 55 => ⟨S100000x64, .f32⟩
  | 56 => ⟨S1600000x1, .i32⟩
  | 57 => ⟨S100000x64, .f32⟩
  | 58 => ⟨S100000, .f32⟩
  | 59 => ⟨S100000x1, .f32⟩
  | 60 => ⟨S100000x64, .f32⟩
  | 61 => ⟨S100000x64, .f32⟩
  | 62 => ⟨S100000x64, .f32⟩
  | 63 => ⟨S1x64, .f32⟩
  | 64 => ⟨S100000x64, .f32⟩
  | 65 => ⟨S100000x64, .f32⟩
  | 66 => ⟨S_, .f32⟩
  | 67 => ⟨S64, .f32⟩
  | 68 => ⟨S_, .f32⟩
  | 69 => ⟨S64, .f32⟩
  | 70 => ⟨S64, .f32⟩
  | 71 => ⟨S_, .i32⟩
  | 72 => ⟨S_, .f32⟩
  | 73 => ⟨S64, .f32⟩
  | 74 => ⟨S1x64, .f32⟩
  | 75 => ⟨S_, .f32⟩
  | 76 => ⟨S1x64, .f32⟩
  | 77 => ⟨S1x64, .f32⟩
  | 78 => ⟨S100000x64, .f32⟩
  | 79 => ⟨S100000x64, .f32⟩
  | 80 => ⟨S100000x64, .f32⟩
  | 81 => ⟨S_, .f32⟩
  | 82 => ⟨S_, .f32⟩
  | 83 => ⟨S_, .f32⟩
  | 84 => ⟨S_, .f32⟩
  | 85 => ⟨S64, .f32⟩
  | 86 => ⟨S64, .f32⟩
  | 87 => ⟨S64, .f32⟩
  | 88 => ⟨S_, .f32⟩
  | 89 => ⟨S_, .i1⟩
  | 90 => ⟨S_, .f32⟩
  | 91 => ⟨S_, .f32⟩
  | 92 => ⟨S64, .f32⟩
  | 93 => ⟨S64, .f32⟩
  | 94 => ⟨S1x64, .f32⟩
  | 95 => ⟨S100000x64, .f32⟩
  | 96 => ⟨S100000x64, .f32⟩
  | 97 => ⟨S_, .f32⟩
  | 98 => ⟨S64, .f32⟩
  | 99 => ⟨S64, .f32⟩
  | 100 => ⟨S64, .f32⟩
  | 101 => ⟨S1x64, .f32⟩
  | 102 => ⟨S100000x64, .f32⟩
  | 103 => ⟨S100000x64, .f32⟩
  | 104 => ⟨S1x64, .f32⟩
  | 105 => ⟨S100000x64, .f32⟩
  | 106 => ⟨S100000x64, .f32⟩
  | 107 => ⟨S1x64, .f32⟩
  | 108 => ⟨S100000x64, .f32⟩
  | 109 => ⟨S100000x64, .f32⟩
  | 110 => ⟨S_, .f32⟩
  | 111 => ⟨S100000x64, .f32⟩
  | 112 => ⟨S100000x64, .f32⟩
  | 113 => ⟨S100000x64, .f32⟩
  | 114 => ⟨S_, .i32⟩
  | 115 => ⟨S1600000, .i32⟩
  | 116 => ⟨S1600000, .i1⟩
  | 117 => ⟨S_, .i32⟩
  | 118 => ⟨S1600000, .i32⟩
  | 119 => ⟨S1600000, .i32⟩
  | 120 => ⟨S1600000, .i32⟩
  | 121 => ⟨S1600000x1, .i32⟩
  | 122 => ⟨S1600000, .f32⟩
  | 123 => ⟨S_, .i32⟩
  | 124 => ⟨S1600000, .i32⟩
  | 125 => ⟨S1600000, .i1⟩
  | 126 => ⟨S_, .i32⟩
  | 127 => ⟨S1600000, .i32⟩
  | _ => ⟨S100000x128, .f32⟩

abbrev hbmTy0_1 (i : Nat) : BufTy := match i % 128 with
  | 0 => ⟨S1600000, .i32⟩
  | 1 => ⟨S1600000, .i32⟩
  | 2 => ⟨S1600000x1, .i32⟩
  | 3 => ⟨S1600000, .f32⟩
  | 4 => ⟨S1600000, .f32⟩
  | 5 => ⟨S_, .i32⟩
  | 6 => ⟨S1600000, .i32⟩
  | 7 => ⟨S1600000, .i1⟩
  | 8 => ⟨S_, .i32⟩
  | 9 => ⟨S1600000, .i32⟩
  | 10 => ⟨S1600000, .i32⟩
  | 11 => ⟨S1600000, .i32⟩
  | 12 => ⟨S1600000x1, .i32⟩
  | 13 => ⟨S1600000x64, .f32⟩
  | 14 => ⟨S1600000x1, .f32⟩
  | 15 => ⟨S1600000x64, .f32⟩
  | 16 => ⟨S1600000x64, .f32⟩
  | 17 => ⟨S_, .f32⟩
  | 18 => ⟨S100000x64, .f32⟩
  | 19 => ⟨S1600000x1, .i32⟩
  | 20 => ⟨S100000x64, .f32⟩
  | 21 => ⟨S100000, .f32⟩
  | 22 => ⟨S100000x1, .f32⟩
  | 23 => ⟨S100000x64, .f32⟩
  | 24 => ⟨S100000x64, .f32⟩
  | 25 => ⟨S100000x64, .f32⟩
  | 26 => ⟨S1x64, .f32⟩
  | 27 => ⟨S100000x64, .f32⟩
  | 28 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_8 : Ref sig .tc := ⟨.hbm, 66, rfl⟩
abbrev main_v48 : Ref sig .tc := ⟨.hbm, 67, rfl⟩
abbrev main_cst_9 : Ref sig .tc := ⟨.hbm, 68, rfl⟩
abbrev main_v49 : Ref sig .tc := ⟨.hbm, 69, rfl⟩
abbrev main_v50 : Ref sig .tc := ⟨.hbm, 70, rfl⟩
abbrev main_c_10 : Ref sig .tc := ⟨.hbm, 71, rfl⟩
abbrev main_call0_cst : Ref sig .tc := ⟨.hbm, 72, rfl⟩
abbrev main_call0_v0 : Ref sig .tc := ⟨.hbm, 73, rfl⟩
abbrev main_call0_v1 : Ref sig .tc := ⟨.hbm, 74, rfl⟩
abbrev main_call0_cst_0 : Ref sig .tc := ⟨.hbm, 75, rfl⟩
abbrev main_call0_v2 : Ref sig .tc := ⟨.hbm, 76, rfl⟩
abbrev main_call0_v3 : Ref sig .tc := ⟨.hbm, 77, rfl⟩
abbrev main_call0_v4 : Ref sig .tc := ⟨.hbm, 78, rfl⟩
abbrev main_call0_v5 : Ref sig .tc := ⟨.hbm, 79, rfl⟩
abbrev main_call0_v6 : Ref sig .tc := ⟨.hbm, 80, rfl⟩
abbrev main_call0_v7 : Ref sig .tc := ⟨.hbm, 81, rfl⟩
abbrev main_call0_cst_1 : Ref sig .tc := ⟨.hbm, 82, rfl⟩
abbrev main_call0_v8 : Ref sig .tc := ⟨.hbm, 83, rfl⟩
abbrev main_call0_cst_2 : Ref sig .tc := ⟨.hbm, 84, rfl⟩
abbrev main_call0_v9 : Ref sig .tc := ⟨.hbm, 85, rfl⟩
abbrev main_call0_v10 : Ref sig .tc := ⟨.hbm, 86, rfl⟩
abbrev main_call0_v11 : Ref sig .tc := ⟨.hbm, 87, rfl⟩
abbrev main_call0_cst_3 : Ref sig .tc := ⟨.hbm, 88, rfl⟩
abbrev main_call0_v12 : Ref sig .tc := ⟨.hbm, 89, rfl⟩
abbrev main_call0_cst_4 : Ref sig .tc := ⟨.hbm, 90, rfl⟩
abbrev main_call0_call0_v0 : Ref sig .tc := ⟨.hbm, 91, rfl⟩
abbrev main_call0_call0_v1 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_cst_11 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_call1_cst : Ref sig .tc := ⟨.hbm, 110, rfl⟩
abbrev main_call1_v0 : Ref sig .tc := ⟨.hbm, 111, rfl⟩
abbrev main_v67 : Ref sig .tc := ⟨.hbm, 112, rfl⟩
abbrev main_v68 : Ref sig .tc := ⟨.hbm, 113, rfl⟩
abbrev main_c_12 : Ref sig .tc := ⟨.hbm, 114, rfl⟩
abbrev main_v69 : Ref sig .tc := ⟨.hbm, 115, rfl⟩
abbrev main_v70 : Ref sig .tc := ⟨.hbm, 116, rfl⟩
abbrev main_c_13 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_c_14 : Ref sig .tc := ⟨.hbm, 123, rfl⟩
abbrev main_v76 : Ref sig .tc := ⟨.hbm, 124, rfl⟩
abbrev main_v77 : Ref sig .tc := ⟨.hbm, 125, rfl⟩
abbrev main_c_15 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_c_16 : Ref sig .tc := ⟨.hbm, 133, rfl⟩
abbrev main_v84 : Ref sig .tc := ⟨.hbm, 134, rfl⟩
abbrev main_v85 : Ref sig .tc := ⟨.hbm, 135, rfl⟩
abbrev main_c_17 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_cst_18 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Linear1Region.lean ====
/-
  Pipeline 0 of the program (the first linear layer: a row tile of the features times the whole weight matrix), at the buffer contents `V` the region is entered with:
  each window's block at a grid point, what the body leaves in the output window's buffer as a
  pure function of the input blocks, the body's triple, and the proof data with its body obligation.
-/
import proofs.«135803_j78812649882125_2_alg».proof.Proof.Gen.KernelIdeal.Launch
import proofs.«135803_j78812649882125_2_alg».proof.Proof.Gen.KernelIdeal.Skeleton
import proofs.«135803_j78812649882125_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_S10000x128 : Rect S10000x128 := Rect.unit (s := S10000x128) ![0, 0] S10000x128.size inb_S10000x128_S10000x128_0_0
abbrev r0_S128x64 : Rect S128x64 := Rect.unit (s := S128x64) ![0, 0] S128x64.size inb_S128x64_S128x64_0_0
abbrev r0_S10000x64 : Rect S10000x64 := Rect.unit (s := S10000x64) ![0, 0] S10000x64.size inb_S10000x64_S10000x64_0_0

/-- The output window's staging buffer after the body, from the input windows' blocks: its one store over the whole buffer. -/
def out0_2 (x0 : Vec F S10000x128 .f32) (x1 : Vec F S128x64 .f32) : Vec F S10000x64 .f32 :=
  View.canon [⟨r0_S10000x64, k0_pay1 (View.ld x0 r0_S10000x128) (View.ld x1 r0_S128x64)⟩]

/-- The store covers the buffer. -/
theorem cover0_2 (p0 : Vec F S10000x64 .f32) (y : S10000x64.Idx) :
    ∃ pc ∈ ([⟨r0_S10000x64, p0⟩] : List (View.Piece (Elt F) S10000x64 .f32)), y ∈ pc.1.set :=
  View.cover_of_tiled [⟨r0_S10000x64, p0⟩] S10000x64.size (by rfl) y

set_option maxHeartbeats 1000000 in
/-- The body on whole staging memrefs, the inputs' at known contents and the output's at anything, runs to the
    continuation holding the inputs' as they were and the output's at `out0_2` of the inputs'. -/
theorem sound_kernel0 (c : Dev nD) (E : Set ℕ) (i : grid0.Coords) (arg1 : Memref sig .tc .vmem S10000x128 .f32) (harg1 : arg1.IsWhole) (arg2 : Memref sig .tc .vmem S128x64 .f32) (harg2 : arg2.IsWhole) (arg3 : Memref sig .tc .vmem S10000x64 .f32) (harg3 : arg3.IsWhole)
    (x0 : Vec F S10000x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core `c`: the arrays as the region finds them; after the body at point `t`
    each input's buffer at its block and the output's at `out0_2` of the input blocks; the invariant is the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.StatsRegion.lean ====
import proofs.«135803_j78812649882125_2_alg».proof.Proof.Gen.KernelIdeal.Launch
import proofs.«135803_j78812649882125_2_alg».proof.Proof.Gen.KernelIdeal.Skeleton
import proofs.«135803_j78812649882125_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The statistics region (custom_call 1): column sums and column sums of squares of a [100000,64] array,
    accumulated over 10 row tiles in two [1,64] scratch buffers and copied to the two outputs at the last tile -/

/-! ## The body's accesses, and what a covering store leaves -/

/-- The rectangles of the body's loads and stores: each the whole buffer. -/
abbrev rIn1 : Rect S10000x64 := Rect.unit (s := S10000x64) ![0, 0] S10000x64.size inb_S10000x64_S10000x64_0_0
abbrev rS1 : Rect S1x64 := Rect.unit (s := S1x64) ![0, 0] S1x64.size inb_S1x64_S1x64_0_0

/-- The two scratch buffers as memrefs. -/
abbrev scM1_0 : Memref sig .tc .vmem S1x64 .f32 := Memref.whole cc1_scratch0
abbrev scM1_1 : Memref sig .tc .vmem S1x64 .f32 := Memref.whole cc1_scratch1

/-- Every index of the [1,64] buffer lies in the whole-buffer rectangle. -/
theorem cover_rS1 (y : S1x64.Idx) : y ∈ rS1.set := by
  obtain ⟨p, hm, hy⟩ := View.cover_of_tiled (Val := fun _ => Unit) (e := .f32) [⟨rS1, fun _ => ()⟩] S1x64.size (by rfl) y
  rw [List.mem_singleton] at hm; subst hm; exact hy

/-- After a last write through a rectangle that covers the shape, a view reads that write's payload alone. -/
theorem read_writes_cons_of_cover {κ : Kind} {sp : Space} {s : Shape} {e : EltTy} {Val : EltTy → Type} [∀ e, Nonempty (Val e)]
    (v : View sig κ sp s e) (f : v.ty.Contents Val) (r : Rect s) (hr : ∀ y, y ∈ r.set) (w : r.shape.Idx → Val e)
    (L : List (View.Piece Val s e)) :
    v.read Val (v.writes Val f (⟨r, w⟩ :: L)) = View.canon [⟨r, w⟩] := by
  funext y
  obtain ⟨x, rfl⟩ : ∃ x, r.emb x = y := r.exists_idx_of_mem (hr y)
  rw [View.read_writes_cons_emb, View.canon_cons_emb]

/-- Contents loaded through a covering rectangle and stored back through it are the contents. -/
theorem canon_ld_of_cover {s : Shape} {e : EltTy} {Val : EltTy → Type} [∀ e, Nonempty (Val e)]
    (r : Rect s) (hr : ∀ y, y ∈ r.set) (X : s.Idx → Val e) : View.canon [⟨r, View.ld X r⟩] = X := by
  funext y
  obtain ⟨x, rfl⟩ : ∃ x, r.emb x = y := r.exists_idx_of_mem (hr y)
  rw [View.canon_cons_emb]
  rfl

theorem cover1_S1 {Val : EltTy → Type} (p : View.Piece Val S1x64 .f32) (hp : p.1 = rS1) (y : S1x64.Idx) :
    ∃ q ∈ [p], y ∈ q.1.set := ⟨p, List.mem_singleton_self _, hp ▸ cover_rS1 y⟩

/-! ## The accumulation -/

/-- The pair (column sums, column sums of squares) after the zeroing stores of the first point. -/
def accZero1 : Vec F S1x64 .f32 × Vec F S1x64 .f32 :=
  (View.canon [⟨rS1, k1_pay1 (F := F)⟩], View.canon [⟨rS1, k1_pay2 (F := F)⟩])

/-- One point's accumulation: the block's column sums added to the first component, the column sums of its
    squares to the second. -/
def accStep1 (x : Vec F S10000x64 .f32) (s : Vec F S1x64 .f32 × Vec F S1x64 .f32) : Vec F S1x64 .f32 × Vec F S1x64 .f32 :=
  (View.canon [⟨rS1, k1_pay4 (View.ld x rIn1) (View.ld s.1 rS1)⟩], View.canon [⟨rS1, k1_pay5 (View.ld x rIn1) (View.ld s.2 rS1)⟩])

/-! ## The body's two conditions, from the grid coordinate -/

/-- The first conditional's condition: the point is the first. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)
/-- The second conditional's condition: the point is the last. -/
abbrev cond1_1 (i : grid1.Coords) : Prop := k1_cond2 i = 1#1
theorem hcond1_1 : ∀ t : Fin cfg1.N, cond1_1 (grid1.coords t) ↔ t.val = 9 :=
  (by decide +kernel : ∀ t : Fin grid1.N, cond1_1 (grid1.coords t) ↔ t.val = 9)

/-! ## The body's triple, in each of the three cases the conditions meet -/

set_option maxHeartbeats 1000000 in
theorem sound_kernel1_A (c : Dev nD) (E : Set ℕ) (i : grid1.Coords)
    (arg1 : Memref sig .tc .vmem S10000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole)
    (hc0 : cond1_0 i) (hc1 : ¬cond1_1 i)
    (x0 : Vec F S10000x64 .f32) (y1 y2 s1 s2 : Vec F S1x64 .f32) (K : PUnit → sProp 𝕄) :
    iprop(owns (c : Thread nD τ) arg1 fullShare x0 ∗ owns (c : Thread nD τ) arg2 fullShare y1 ∗ owns (c : Thread nD τ) arg3 fullShare y2
        ∗ owns (c : Thread nD τ) arg4 fullShare s1 ∗ owns (c : Thread nD τ) arg5 fullShare s2
        ∗ (iprop(owns (c : Thread nD τ) arg1 fullShare x0 ∗ owns (c : Thread nD τ) arg2 fullShare y1 ∗ owns (c : Thread nD τ) arg3 fullShare y2
            ∗ owns (c : Thread nD τ) arg4 fullShare (accStep1 x0 accZero1).1 ∗ owns (c : Thread nD τ) arg5 fullShare (accStep1 x0 accZero1).2) -∗ K ⟨⟩))
      ⊢ wp frame (wpE (defs₀ (F := F)) Variants.none c none) E (cc1__bn_reduce_kernel i arg1 harg1 arg2 harg2 arg3 harg3 arg4 harg4 arg5 harg5) K := by
  simp only [cc1__bn_reduce_kernel_eq_skeleton]; unfold cc1__bn_reduce_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  subst hf1 hf2 hf3 hf4 hf5
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (read_writes_cons_of_cover _ _ _ cover_rS1 _ _).trans ?_
    unfold accStep1 accZero1
    dsimp only
    rw [← View.readCov_eq_canon_ld arg4.view _ rS1 (cover1_S1 _ rfl)]
    rfl
  · iexists _; isplitr
    swap; · iexact H5
    ipureintro
    refine (read_writes_cons_of_cover _ _ _ cover_rS1 _ _).trans ?_
    unfold accStep1 accZero1
    dsimp only
    rw [← View.readCov_eq_canon_ld arg5.view _ rS1 (cover1_S1 _ rfl)]
    rfl

set_option maxHeartbeats 1000000 in
theorem sound_kernel1_B (c : Dev nD) (E : Set ℕ) (i : grid1.Coords)
    (arg1 : Memref sig .tc .vmem S10000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole)
    (hc0 : ¬cond1_0 i) (hc1 : ¬cond1_1 i)
    (x0 : Vec F S10000x64 .f32) (y1 y2 s1 s2 : Vec F S1x64 .f32) (K : PUnit → sProp 𝕄) :
    iprop(owns (c : Thread nD τ) arg1 fullShare x0 ∗ owns (c : Thread nD τ) arg2 fullShare y1 ∗ owns (c : Thread nD τ) arg3 fullShare y2
        ∗ owns (c : Thread nD τ) arg4 fullShare s1 ∗ owns (c : Thread nD τ) arg5 fullShare s2
        ∗ (iprop(owns (c : Thread nD τ) arg1 fullShare x0 ∗ owns (c : Thread nD τ) arg2 fullShare y1 ∗ owns (c : Thread nD τ) arg3 fullShare y2
            ∗ owns (c : Thread nD τ) arg4 fullShare (accStep1 x0 (s1, s2)).1 ∗ owns (c : Thread nD τ) arg5 fullShare (accStep1 x0 (s1, s2)).2) -∗ K ⟨⟩))
      ⊢ wp frame (wpE (defs₀ (F := F)) Variants.none c none) E (cc1__bn_reduce_kernel i arg1 harg1 arg2 harg2 arg3 harg3 arg4 harg4 arg5 harg5) K := by
  simp only [cc1__bn_reduce_kernel_eq_skeleton]; unfold cc1__bn_reduce_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  subst hf1 hf2 hf3 hf4 hf5
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact read_writes_cons_of_cover _ _ _ cover_rS1 _ _
  · iexists _; isplitr
    swap; · iexact H5
    ipureintro
    exact read_writes_cons_of_cover _ _ _ cover_rS1 _ _

set_option maxHeartbeats 1000000 in
theorem sound_kernel1_C (c : Dev nD) (E : Set ℕ) (i : grid1.Coords)
    (arg1 : Memref sig .tc .vmem S10000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole)
    (hc0 : ¬cond1_0 i) (hc1 : cond1_1 i)
    (x0 : Vec F S10000x64 .f32) (y1 y2 s1 s2 : Vec F S1x64 .f32) (K : PUnit → sProp 𝕄) :
    iprop(owns (c : Thread nD τ) arg1 fullShare x0 ∗ owns (c : Thread nD τ) arg2 fullShare y1 ∗ owns (c : Thread nD τ) arg3 fullShare y2
        ∗ owns (c : Thread nD τ) arg4 fullShare s1 ∗ owns (c : Thread nD τ) arg5 fullShare s2
        ∗ (iprop(owns (c : Thread nD τ) arg1 fullShare x0 ∗ owns (c : Thread nD τ) arg2 fullShare (accStep1 x0 (s1, s2)).1
            ∗ owns (c : Thread nD τ) arg3 fullShare (accStep1 x0 (s1, s2)).2
            ∗ owns (c : Thread nD τ) arg4 fullShare (accStep1 x0 (s1, s2)).1 ∗ owns (c : Thread nD τ) arg5 fullShare (accStep1 x0 (s1, s2)).2) -∗ K ⟨⟩))
      ⊢ wp frame (wpE (defs₀ (F := F)) Variants.none c none) E (cc1__bn_reduce_kernel i arg1 harg1 arg2 harg2 arg3 harg3 arg4 harg4 arg5 harg5) K := by
  simp only [cc1__bn_reduce_kernel_eq_skeleton]; unfold cc1__bn_reduce_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  subst hf1 hf2 hf3 hf4 hf5
  sl_exec (disch := first | exact hc0 | exact hc1)
  sl_step
  iapply Hk
  isplitl [H1]
  · iexists f1; isplitr; · ipureintro; rfl
    iexact H1
  isplitl [H2]
  · iexists _; isplitr
    swap; · iexact H2
    ipureintro
    refine (read_writes_cons_of_cover _ _ _ cover_rS1 _ _).trans ?_
    refine Eq.trans ?_ (canon_ld_of_cover rS1 cover_rS1 _)
    unfold accStep1
    dsimp only
    rw [← View.readCov_eq_canon_ld arg4.view _ rS1 (cover1_S1 _ rfl)]
    rfl
  isplitl [H3]
  · iexists _; isplitr
    swap; · iexact H3
    ipureintro
    refine (read_writes_cons_of_cover _ _ _ cover_rS1 _ _).trans ?_
    refine Eq.trans ?_ (canon_ld_of_cover rS1 cover_rS1 _)
    unfold accStep1
    dsimp only
    rw [← View.readCov_eq_canon_ld arg5.view _ rS1 (cover1_S1 _ rfl)]
    rfl
  isplitl [H4]
  · iexists _; isplitr
    swap; · iexact H4
    ipureintro
    exact read_writes_cons_of_cover _ _ _ cover_rS1 _ _
  · iexists _; isplitr
    swap; · iexact H5
    ipureintro
    exact read_writes_cons_of_cover _ _ _ cover_rS1 _ _

/-- Where the windows are idle (the configuration's table) and where the outputs are written back. -/
theorem liveAt1_0 : ∀ t : Fin cfg1.N, cfg1.idle 0 (grid1.coords t) = false := by decide +kernel
theorem idleAt1_1 : ∀ t : Fin cfg1.N, ¬cond1_1 (grid1.coords t) → cfg1.idle 1 (grid1.coords t) = true := by decide +kernel
theorem idleAt1_2 : ∀ t : Fin cfg1.N, ¬cond1_1 (grid1.coords t) → cfg1.idle 2 (grid1.coords t) = true := by decide +kernel
theorem noFlush1_1 : ∀ t : Fin cfg1.N, ¬cond1_1 (grid1.coords t) → (cfg1.win 1).flush t = false := by decide +kernel
theorem noFlush1_2 : ∀ t : Fin cfg1.N, ¬cond1_1 (grid1.coords t) → (cfg1.win 2).flush t = false := by decide +kernel
theorem liveAt1_1 : ∀ t : Fin cfg1.N, cond1_1 (grid1.coords t) → cfg1.idle 1 (grid1.coords t) = false := by decide +kernel
theorem liveAt1_2 : ∀ t : Fin cfg1.N, cond1_1 (grid1.coords t) → cfg1.idle 2 (grid1.coords t) = false := by decide +kernel

section Region1
variable (V : (c : Dev nD) → (b : Ref sig .tc) → Buf (Elt F) ((c : Thread nD τ).loc b))

/-! ## The windows' blocks, the accumulation over the points, the proof data -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point, fetched there or not, for any proof
    data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The scratch pair after `n` points: zero, then one accumulation per point, in point order. -/
def acc1 (c : Dev nD) : ℕ → Vec F S1x64 .f32 × Vec F S1x64 .f32
  | 0 => accZero1
  | n + 1 => if h : n < cfg1.N then accStep1 (iblk1 V c 0 ⟨n, h⟩) (acc1 c n) else acc1 c n

theorem acc1_zero (c : Dev nD) : acc1 V c 0 = accZero1 := rfl
theorem acc1_succ (c : Dev nD) (t : Fin cfg1.N) : acc1 V c (t.val + 1) = accStep1 (iblk1 V c 0 t) (acc1 V c t.val) := by
  rw [acc1, dif_pos t.isLt]

/-- The two scratch buffers owned at a pair of contents. -/
def scr1 (c : Dev nD) (s : Vec F S1x64 .f32 × Vec F S1x64 .f32) : sProp 𝕄 :=
  iprop(owns (c : Thread nD τ) scM1_0 fullShare s.1 ∗ owns (c : Thread nD τ) scM1_1 fullShare s.2)

/-- The region invariant before point `n`: the two scratch buffers at the accumulation so far (at anything before the
    first point, which overwrites them), the other scoped buffers no window stages, the generator register. -/
def Phi1 (c : Dev nD) (n : ℕ) : sProp 𝕄 :=
  iprop((∃ s, ⌜n ≠ 0 → s = acc1 V c n⌝ ∗ scr1 c s)
    ∗ Pipeline.scopedRestBut (Ix := Unit) (Name := ℕ) (U := UR sig nD τ) (Lvl := ℕ) (Val := Elt F) spec1 c [cc1_scratch0, cc1_scratch1]
    ∗ (∃ r, prngReg c r))

/-- The proof data of pipeline 1 on core `c`: the arrays as the region finds them; after the body at point `t` the
    input's buffer at its block and the two outputs' at the accumulation through `t` (consulted at the last point only:
    elsewhere the outputs are idle); the invariant `Phi1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (acc1 V c (t.val + 1)).1
    | ⟨2, _⟩ => (acc1 V c (t.val + 1)).2
  Φ t := Phi1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = (acc1 V c (t.val + 1)).1 := by dsimp only [dat1]
theorem after1_2 (c : Dev nD) (t : Fin cfg1.N) : (dat1 V c).after 2 t = (acc1 V c (t.val + 1)).2 := by dsimp only [dat1]

theorem before1_0 (c : Dev nD) (t : Fin cfg1.N) (d) : (dat1 V c).before 0 t d = iblk1 V c 0 t :=
  before1_0_of V (dat1 V c) (A_eq1 V c 0) (after1_0 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

theorem Phi1_castSucc (c : Dev nD) (t : Fin cfg1.N) : (dat1 V c).Φ t.castSucc = Phi1 V c t.val := by
  dsimp only [dat1]; simp only [Fin.coe_castSucc]

theorem Phi1_succ (c : Dev nD) (t : Fin cfg1.N) : (dat1 V c).Φ t.succ = Phi1 V c (t.val + 1) := by
  dsimp only [dat1]; simp only [Fin.val_succ]

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [Phi1_castSucc, Phi1_succ]
  rw [show (dat1 V c).leavesExact 0 t = owns (c : Thread nD τ) (st1_0 t) fullShare ((dat1 V c).after 0 t) from by
    unfold Dat.leavesExact; rw [liveAt1_0 t], after1_0]
  have hN : t.val < 10 := lt_of_lt_of_eq t.isLt (show cfg1.N = 10 from N_1)
  unfold Phi1 scr1
  by_cases h0 : t.val = 0
  · have hc0 : cond1_0 (grid1.coords t) := (hcond1_0 t).mpr h0
    have hc1 : ¬cond1_1 (grid1.coords t) := fun h => by have := (hcond1_1 t).mp h; omega
    rw [Dat.leavesExact_idle (dat1 V c) 1 t (idleAt1_1 t hc1) (noFlush1_1 t hc1),
      Dat.leavesExact_idle (dat1 V c) 2 t (idleAt1_2 t hc1) (noFlush1_2 t hc1)]
    iintro ⟨⟨⟨%s, -, HS0, HS1⟩, Hrest, Hg⟩, Ho, ⟨%d0, H0⟩, ⟨%d1, H1⟩, ⟨%d2, H2⟩⟩
    iapply (sound_kernel1_A c Set.univ _ _ _ _ _ _ _ _ _ _ _ hc0 hc1 (iblk1 V c 0 t) _ _ s.1 s.2 _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [HS0 HS1 Hrest Hg]
    · isplitl [HS0 HS1]
      · iexists (accStep1 (iblk1 V c 0 t) accZero1); isplitr
        · ipureintro; intro _; rw [acc1_succ V c t, h0]; rfl
        isplitl [HS0]; · iexact HS0
        iexact HS1
      isplitl [Hrest]; · iexact Hrest
      iexact Hg
    isplitl [Ho]; · iexact Ho
    isplitl [H0]; · iexact H0
    isplitl [H1]; · iexists _; iexact H1
    iexists _; iexact H2
  · have hc0 : ¬cond1_0 (grid1.coords t) := fun h => h0 ((hcond1_0 t).mp h)
    by_cases h9 : t.val = 9
    · have hc1 : cond1_1 (grid1.coords t) := (hcond1_1 t).mpr h9
      rw [show (dat1 V c).leavesExact 1 t = owns (c : Thread nD τ) (st1_1 t) fullShare ((dat1 V c).after 1 t) from by
        unfold Dat.leavesExact; rw [liveAt1_1 t hc1], after1_1]
      rw [show (dat1 V c).leavesExact 2 t = owns (c : Thread nD τ) (st1_2 t) fullShare ((dat1 V c).after 2 t) from by
        unfold Dat.leavesExact; rw [liveAt1_2 t hc1], after1_2]
      rw [acc1_succ V c t]
      iintro ⟨⟨⟨%s, %hs, HS0, HS1⟩, Hrest, Hg⟩, Ho, ⟨%d0, H0⟩, ⟨%d1, H1⟩, ⟨%d2, H2⟩⟩
      obtain rfl := hs h0
      iapply (sound_kernel1_C c Set.univ _ _ _ _ _ _ _ _ _ _ _ hc0 hc1 (iblk1 V c 0 t) _ _ (acc1 V c t.val).1 (acc1 V c t.val).2 _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hrest Hg]
      · isplitl [HS0 HS1]
        · iexists (accStep1 (iblk1 V c 0 t) (acc1 V c t.val)); isplitr
          · ipureintro; intro _; rfl
          isplitl [HS0]; · iexact HS0
          iexact HS1
        isplitl [Hrest]; · iexact Hrest
        iexact Hg
      isplitl [Ho]; · iexact Ho
      isplitl [H0]; · iexact H0
      isplitl [H1]; · iexact H1
      iexact H2
    · have hc1 : ¬cond1_1 (grid1.coords t) := fun h => h9 ((hcond1_1 t).mp h)
      rw [Dat.leavesExact_idle (dat1 V c) 1 t (idleAt1_1 t hc1) (noFlush1_1 t hc1),
        Dat.leavesExact_idle (dat1 V c) 2 t (idleAt1_2 t hc1) (noFlush1_2 t hc1)]
      rw [acc1_succ V c t]
      iintro ⟨⟨⟨%s, %hs, HS0, HS1⟩, Hrest, Hg⟩, Ho, ⟨%d0, H0⟩, ⟨%d1, H1⟩, ⟨%d2, H2⟩⟩
      obtain rfl := hs h0
      iapply (sound_kernel1_B c Set.univ _ _ _ _ _ _ _ _ _ _ _ hc0 hc1 (iblk1 V c 0 t) _ _ (acc1 V c t.val).1 (acc1 V c t.val).2 _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hrest Hg]
      · isplitl [HS0 HS1]
        · iexists (accStep1 (iblk1 V c 0 t) (acc1 V c t.val)); isplitr
          · ipureintro; intro _; rfl
          isplitl [HS0]; · iexact HS0
          iexact HS1
        isplitl [Hrest]; · iexact Hrest
        iexact Hg
      isplitl [Ho]; · iexact Ho
      isplitl [H0]; · iexact H0
      isplitl [H1]; · iexists _; iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant at the region's entry and exit -/

/-- The two scratch buffers are scoped buffers no window stages. -/
theorem scratch1_mem : ([cc1_scratch0, cc1_scratch1] : List (Ref sig .tc)).Forall fun b =>
    b.isScoped = true ∧ ∀ (w : Fin 3) (s : Fin (spec1 w).nbuf), ((spec1 w).stage s).view.ref ≠ b := by decide

/-- The scoped rest with the two scratch buffers split out, as memrefs owned at some contents. -/
theorem scopedRest1_split (c : Dev nD) :
    (Pipeline.scopedRest (Ix := Unit) (Name := ℕ) (U := UR sig nD τ) (Lvl := ℕ) (Val := Elt F) spec1 c : sProp 𝕄)
      = iprop(((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1]) := by
  rw [Pipeline.scopedRest_split_of_list spec1 c [cc1_scratch0, cc1_scratch1] scratch1_mem (by decide)]
  simp only [bigSepL_cons_cons, bigSepL_singleton, scM1_0, scM1_1, owns_whole]
  try rfl

theorem hin1 (c : Dev nD) :
    iprop((∃ r, prngReg c r) ∗ Pipeline.prefHeld (pcfgs (F := F) 1).pre c (fun _ => fullShare) ((cfgs 1).toPCfg_adm).1 ∗ Pipeline.scopedRest spec1 c)
      ⊢ ((dat1 V c).Φ 0 : sProp 𝕄) := by
  rw [show (dat1 V c).Φ 0 = Phi1 V c 0 from rfl, scopedRest1_split]
  unfold Phi1 scr1
  iintro ⟨Hp, -, ⟨⟨%d0, HS0⟩, ⟨%d1, HS1⟩⟩, Hrest⟩
  isplitl [HS0 HS1]
  · iexists ((d0, d1) : Vec F S1x64 .f32 × Vec F S1x64 .f32); isplitr
    · ipureintro; intro h; exact absurd rfl h
    isplitl [HS0]; · iexact HS0
    iexact HS1
  isplitl [Hrest]; · iexact Hrest
  iexact Hp

theorem hout1 (c : Dev nD) :
    ((dat1 V c).Φ (Fin.last cfg1.N) : sProp 𝕄)
      ⊢ iprop((∃ r, prngReg c r) ∗ Pipeline.ownSems0 (fun k : PEmpty => k.elim) c ∗ Pipeline.scopedRest spec1 c) := by
  rw [Pipeline.ownSems0_none, show (dat1 V c).Φ (Fin.last cfg1.N) = Phi1 V c cfg1.N from rfl, scopedRest1_split]
  unfold Phi1 scr1
  iintro ⟨⟨%s, -, HS0, HS1⟩, Hrest, Hg⟩
  isplitl [Hg]; · iexact Hg
  isplitr; · iempintro
  isplitl [HS0 HS1]
  · isplitl [HS0]; · iexists _; iexact HS0
    iexists _; iexact HS1
  iexact Hrest

/-! ## The arrays at the region's exit -/

/-- The two output windows' block index is zero on every axis, at every point. -/
theorem index1_1 : ∀ (t : Fin cfg1.N) (a : Fin (cfg1.win 1).shape.rank), (cfg1.win 1).index t a = 0 := by decide +kernel
theorem index1_2 : ∀ (t : Fin cfg1.N) (a : Fin (cfg1.win 2).shape.rank), (cfg1.win 2).index t a = 0 := by decide +kernel

/-- An index of the whole-array block of an output window is the array's index. -/
theorem blk1_1_emb (t : Fin cfg1.N) (j : S1x64.Idx) : (((cfg1.win 1).blk t).view.emb j : S1x64.Idx) = j := by
  funext a
  apply Fin.ext
  exact (cfg1.win 1).rect_emb_val_of_index_zero t a (index1_1 t a) j

theorem blk1_2_emb (t : Fin cfg1.N) (j : S1x64.Idx) : (((cfg1.win 2).blk t).view.emb j : S1x64.Idx) = j := by
  funext a
  apply Fin.ext
  exact (cfg1.win 2).rect_emb_val_of_index_zero t a (index1_2 t a) j

theorem t9_of_flush1_1 (t : Fin cfg1.N) (hf : (cfg1.win 1).flush t = true) : t.val + 1 = 10 := by
  have h := (flush1_1 t).mp hf
  have hN : t.val < 10 := lt_of_lt_of_eq t.isLt (show cfg1.N = 10 from N_1)
  omega

theorem t9_of_flush1_2 (t : Fin cfg1.N) (hf : (cfg1.win 2).flush t = true) : t.val + 1 = 10 := by
  have h := (flush1_2 t).mp hf
  have hN : t.val < 10 := lt_of_lt_of_eq t.isLt (show cfg1.N = 10 from N_1)
  omega

theorem final1_1 (c : Dev nD) : (dat1 V c).arrAt 1 cfg1.N = (acc1 V c 10).1 := by
  refine (dat1 V c).arrAt_eq_of_cover 1 (acc1 V c 10).1 (fun t hf => ?_) (fun i => ⟨t1_9, (flush1_1 t1_9).mpr rfl, ?_⟩)
  · show (cfg1.win 1).cut _ ((dat1 V c).after 1 t) = _
    rw [after1_1, t9_of_flush1_1 t hf]
    funext j
    show (acc1 V c 10).1 _ = (acc1 V c 10).1 (((cfg1.win 1).blk t).view.emb j)
    rw [blk1_1_emb t j]
  · refine Finset.mem_map.mpr ⟨i, Finset.mem_univ _, ?_⟩
    exact blk1_1_emb t1_9 i

theorem final1_2 (c : Dev nD) : (dat1 V c).arrAt 2 cfg1.N = (acc1 V c 10).2 := by
  refine (dat1 V c).arrAt_eq_of_cover 2 (acc1 V c 10).2 (fun t hf => ?_) (fun i => ⟨t1_9, (flush1_2 t1_9).mpr rfl, ?_⟩)
  · show (cfg1.win 2).cut _ ((dat1 V c).after 2 t) = _
    rw [after1_2, t9_of_flush1_2 t hf]
    funext j
    show (acc1 V c 10).2 _ = (acc1 V c 10).2 (((cfg1.win 2).blk t).view.emb j)
    rw [blk1_2_emb t j]
  · refine Finset.mem_map.mpr ⟨i, Finset.mem_univ _, ?_⟩
    exact blk1_2_emb t1_9 i

/-- The input array is never written. -/
theorem final1_0 (c : Dev nD) : (dat1 V c).arrAt 0 cfg1.N = V c (Pipeline.arrRef spec1 0) :=
  ((dat1 V c).arrAt_in 0 rfl _).trans (A_eq1 V c 0)

end Region1

end Cert.KernelIdeal.Hand

end
-- ==== Proof.NormalizeRegion.lean ====
/-
  Pipeline 2 of the program (the normalisation of a row tile by the column statistics, scaled, shifted and clamped at zero), at the buffer contents `V` the region is entered with:
  each window's block at a grid point, what the body leaves in the output window's buffer as a
  pure function of the input blocks, the body's triple, and the proof data with its body obligation.
-/
import proofs.«135803_j78812649882125_2_alg».proof.Proof.Gen.KernelIdeal.Launch
import proofs.«135803_j78812649882125_2_alg».proof.Proof.Gen.KernelIdeal.Skeleton
import proofs.«135803_j78812649882125_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

abbrev r2_S10000x64 : Rect S10000x64 := Rect.unit (s := S10000x64) ![0, 0] S10000x64.size inb_S10000x64_S10000x64_0_0
abbrev r2_S1x64 : Rect S1x64 := Rect.unit (s := S1x64) ![0, 0] S1x64.size inb_S1x64_S1x64_0_0

/-- The output window's staging buffer after the body, from the input windows' blocks: its one store over the whole buffer. -/
def out2_5 (x0 : Vec F S10000x64 .f32) (x1 : Vec F S1x64 .f32) (x2 : Vec F S1x64 .f32) (x3 : Vec F S1x64 .f32) (x4 : Vec F S1x64 .f32) : Vec F S10000x64 .f32 :=
  View.canon [⟨r2_S10000x64, k2_pay1 (View.ld x0 r2_S10000x64) (View.ld x2 r2_S1x64) (View.ld x1 r2_S1x64) (View.ld x3 r2_S1x64) (View.ld x4 r2_S1x64)⟩]

/-- The store covers the buffer. -/
theorem cover2_5 (p0 : Vec F S10000x64 .f32) (y : S10000x64.Idx) :
    ∃ pc ∈ ([⟨r2_S10000x64, p0⟩] : List (View.Piece (Elt F) S10000x64 .f32)), y ∈ pc.1.set :=
  View.cover_of_tiled [⟨r2_S10000x64, p0⟩] S10000x64.size (by rfl) y

set_option maxHeartbeats 1000000 in
/-- The body on whole staging memrefs, the inputs' at known contents and the output's at anything, runs to the
    continuation holding the inputs' as they were and the output's at `out2_5` of the inputs'. -/
theorem sound_kernel2 (c : Dev nD) (E : Set ℕ) (i : grid2.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S10000x64 .f32) (harg6 : arg6.IsWhole)
    (x0 : Vec F S10000x64 .f32) (x1 : Vec F S1x64 .f32) (x2 : Vec F S1x64 .f32) (x3 : Vec F S1x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4)) -∗ K ⟨⟩))
      ⊢ wp frame (wpE (defs₀ (F := F)) Variants.none c none) E (cc2__bn_apply_kernel i arg1 harg1 arg2 harg2 arg3 harg3 arg4 harg4 arg5 harg5 arg6 harg6) K := by
  simp only [cc2__bn_apply_kernel_eq_skeleton]; unfold cc2__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-- The proof data of pipeline 2 on core `c`: the arrays as the region finds them; after the body at point `t`
    each input's buffer at its block and the output's at `out2_5` of the input blocks; the invariant is the
    scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so the body's triple applies; the invariant and
    the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.Linear2Region.lean ====
/-
  Pipeline 3 of the program (the second linear layer: a row tile of the hidden features times the whole weight matrix), at the buffer contents `V` the region is entered with:
  each window's block at a grid point, what the body leaves in the output window's buffer as a
  pure function of the input blocks, the body's triple, and the proof data with its body obligation.
-/
import proofs.«135803_j78812649882125_2_alg».proof.Proof.Gen.KernelIdeal.Launch
import proofs.«135803_j78812649882125_2_alg».proof.Proof.Gen.KernelIdeal.Skeleton
import proofs.«135803_j78812649882125_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

abbrev r3_S10000x64 : Rect S10000x64 := Rect.unit (s := S10000x64) ![0, 0] S10000x64.size inb_S10000x64_S10000x64_0_0
abbrev r3_S64x64 : Rect S64x64 := Rect.unit (s := S64x64) ![0, 0] S64x64.size inb_S64x64_S64x64_0_0

/-- The output window's staging buffer after the body, from the input windows' blocks: its one store over the whole buffer. -/
def out3_2 (x0 : Vec F S10000x64 .f32) (x1 : Vec F S64x64 .f32) : Vec F S10000x64 .f32 :=
  View.canon [⟨r3_S10000x64, k3_pay1 (View.ld x0 r3_S10000x64) (View.ld x1 r3_S64x64)⟩]

/-- The store covers the buffer. -/
theorem cover3_2 (p0 : Vec F S10000x64 .f32) (y : S10000x64.Idx) :
    ∃ pc ∈ ([⟨r3_S10000x64, p0⟩] : List (View.Piece (Elt F) S10000x64 .f32)), y ∈ pc.1.set :=
  View.cover_of_tiled [⟨r3_S10000x64, p0⟩] S10000x64.size (by rfl) y

set_option maxHeartbeats 1000000 in
/-- The body on whole staging memrefs, the inputs' at known contents and the output's at anything, runs to the
    continuation holding the inputs' as they were and the output's at `out3_2` of the inputs'. -/
theorem sound_kernel3 (c : Dev nD) (E : Set ℕ) (i : grid3.Coords) (arg1 : Memref sig .tc .vmem S10000x64 .f32) (harg1 : arg1.IsWhole) (arg2 : Memref sig .tc .vmem S64x64 .f32) (harg2 : arg2.IsWhole) (arg3 : Memref sig .tc .vmem S10000x64 .f32) (harg3 : arg3.IsWhole)
    (x0 : Vec F S10000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__matmul_kernel i arg1 harg1 arg2 harg2 arg3 harg3) K := by
  simp only [cc3__matmul_kernel_eq_skeleton]; unfold cc3__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The proof data of pipeline 3 on core `c`: the arrays as the region finds them; after the body at point `t`
    each input's buffer at its block and the output's at `out3_2` of the input blocks; the invariant is the
    scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so the body's triple applies; the invariant and
    the core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.ProgramRun.lean ====
/-
  The program's run as a list of segments: four stretches of host operations and four pipelined regions.
  The buffer contents at every boundary are a fold from the launch memory: a stretch applies its operations,
  a region replaces its arrays by what its write-backs leave. Each region is a record over the thread state
  "every unscoped buffer at the boundary's contents, the generator register at some state, nothing owed".
  The column-statistics region's body carries its running sums in scratch from point to point: its invariant
  names them, and is made from, and gives back, the scoped buffers and the generator register.
  The run's post: every unscoped buffer of every core holds the last boundary's contents.
-/
import proofs.«135803_j78812649882125_2_alg».proof.Proof.Linear1Region
import proofs.«135803_j78812649882125_2_alg».proof.Proof.StatsRegion
import proofs.«135803_j78812649882125_2_alg».proof.Proof.NormalizeRegion
import proofs.«135803_j78812649882125_2_alg».proof.Proof.Linear2Region
import proofs.«135803_j78812649882125_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- No pipeline has a prefetched table. -/
abbrev adm : (p : Fin 4) → (pcfgs (F := F) p).Adm := fun p => (cfgs p).toPCfg_adm

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At pipeline 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At pipeline 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At pipeline 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- At pipeline 3's exit: its arrays at what the pipeline leaves, every other buffer as entered. -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
abbrev V7 : (c : Dev nD) → (b : Ref sig .tc) → Buf (Elt F) ((c : Thread nD τ).loc b) := fun c b => W7 m ρ c b
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)

abbrev W8 : Dev nD → Valuation τ sig (Elt F) := fun c => StableHlo.after hostOps4 (W7 m ρ c)

/-! ## The arguments end as launched: no host operation and no region writes one -/

theorem W8_main_arg0 (c : Dev nD) : W8 m ρ c (Proc.devRef .tc main_arg0) = m ((c : Thread nD τ).loc main_arg0) :=
  calc W8 m ρ c (Proc.devRef .tc main_arg0)
    _ = W7 m ρ c (Proc.devRef .tc main_arg0) := StableHlo.after_of_writes_sub hostOps4 _ hostOps4_writes (by decide)
    _ = W6 m ρ c (Proc.devRef .tc main_arg0) := W7_of_ne m ρ c main_arg0 (by decide)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide)
    _ = m ((c : Thread nD τ).loc main_arg0) := rfl
theorem W8_main_arg1 (c : Dev nD) : W8 m ρ c (Proc.devRef .tc main_arg1) = m ((c : Thread nD τ).loc main_arg1) :=
  calc W8 m ρ c (Proc.devRef .tc main_arg1)
    _ = W7 m ρ c (Proc.devRef .tc main_arg1) := StableHlo.after_of_writes_sub hostOps4 _ hostOps4_writes (by decide)
    _ = W6 m ρ c (Proc.devRef .tc main_arg1) := W7_of_ne m ρ c main_arg1 (by decide)
    _ = W5 m ρ c (Proc.devRef .tc main_arg1) := W6_of_ne m ρ c main_arg1 (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W8_main_arg2 (c : Dev nD) : W8 m ρ c (Proc.devRef .tc main_arg2) = m ((c : Thread nD τ).loc main_arg2) :=
  calc W8 m ρ c (Proc.devRef .tc main_arg2)
    _ = W7 m ρ c (Proc.devRef .tc main_arg2) := StableHlo.after_of_writes_sub hostOps4 _ hostOps4_writes (by decide)
    _ = W6 m ρ c (Proc.devRef .tc main_arg2) := W7_of_ne m ρ c main_arg2 (by decide)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := (W2_arr m ρ c 1).trans (((dat0 (V1 m ρ) c).arrAt_in 1 rfl _).trans (A_eq0 (V1 m ρ) c 1))
    _ = W0 m ρ c (Proc.devRef .tc main_arg2) := StableHlo.after_of_writes_sub hostOps0 _ hostOps0_writes (by decide)
    _ = m ((c : Thread nD τ).loc main_arg2) := rfl
theorem W8_main_arg3 (c : Dev nD) : W8 m ρ c (Proc.devRef .tc main_arg3) = m ((c : Thread nD τ).loc main_arg3) :=
  calc W8 m ρ c (Proc.devRef .tc main_arg3)
    _ = W7 m ρ c (Proc.devRef .tc main_arg3) := StableHlo.after_of_writes_sub hostOps4 _ hostOps4_writes (by decide)
    _ = W6 m ρ c (Proc.devRef .tc main_arg3) := W7_of_ne m ρ c main_arg3 (by decide)
    _ = W5 m ρ c (Proc.devRef .tc main_arg3) := W6_of_ne m ρ c main_arg3 (by decide)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl
theorem W8_main_arg4 (c : Dev nD) : W8 m ρ c (Proc.devRef .tc main_arg4) = m ((c : Thread nD τ).loc main_arg4) :=
  calc W8 m ρ c (Proc.devRef .tc main_arg4)
    _ = W7 m ρ c (Proc.devRef .tc main_arg4) := StableHlo.after_of_writes_sub hostOps4 _ hostOps4_writes (by decide)
    _ = W6 m ρ c (Proc.devRef .tc main_arg4) := W7_of_ne m ρ c main_arg4 (by decide)
    _ = W5 m ρ c (Proc.devRef .tc main_arg4) := W6_of_ne m ρ c main_arg4 (by decide)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl
theorem W8_main_arg5 (c : Dev nD) : W8 m ρ c (Proc.devRef .tc main_arg5) = m ((c : Thread nD τ).loc main_arg5) :=
  calc W8 m ρ c (Proc.devRef .tc main_arg5)
    _ = W7 m ρ c (Proc.devRef .tc main_arg5) := StableHlo.after_of_writes_sub hostOps4 _ hostOps4_writes (by decide)
    _ = W6 m ρ c (Proc.devRef .tc main_arg5) := W7_of_ne m ρ c main_arg5 (by decide)
    _ = W5 m ρ c (Proc.devRef .tc main_arg5) := W6_of_ne m ρ c main_arg5 (by decide)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl
theorem W8_main_arg6 (c : Dev nD) : W8 m ρ c (Proc.devRef .tc main_arg6) = m ((c : Thread nD τ).loc main_arg6) :=
  calc W8 m ρ c (Proc.devRef .tc main_arg6)
    _ = W7 m ρ c (Proc.devRef .tc main_arg6) := StableHlo.after_of_writes_sub hostOps4 _ hostOps4_writes (by decide)
    _ = W6 m ρ c (Proc.devRef .tc main_arg6) := (W7_arr m ρ c 1).trans (((dat3 (V6 m ρ) c).arrAt_in 1 rfl _).trans (A_eq3 (V6 m ρ) c 1))
    _ = W5 m ρ c (Proc.devRef .tc main_arg6) := W6_of_ne m ρ c main_arg6 (by decide)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl
theorem W8_main_arg7 (c : Dev nD) : W8 m ρ c (Proc.devRef .tc main_arg7) = m ((c : Thread nD τ).loc main_arg7) :=
  calc W8 m ρ c (Proc.devRef .tc main_arg7)
    _ = W7 m ρ c (Proc.devRef .tc main_arg7) := StableHlo.after_of_writes_sub hostOps4 _ hostOps4_writes (by decide)
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := StableHlo.after_of_writes_sub hostOps2 _ hostOps2_writes (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

/-! ## The proof data family and the thread state -/

def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V6 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the register at some state. -/
abbrev Tₙ (c : Dev nD) : sProp 𝕄 := iprop(StableHlo.held (c : Thread nD τ) (Pipeline.ucRefs τ sig) (W8 m ρ c) ∗ ∃ r, prngReg c r)

/-! ## The regions as segments -/

set_option backward.isDefEq.respectTransparency.types false in
/-- Pipeline 0 over the thread state: entered from every unscoped buffer at `W1 m ρ`, left at `W2 m ρ`: its arrays
    split out of the unscoped buffers and put back at the exit contents; the generator register into the invariant
    and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun c t => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 1 over the thread state: entered from every unscoped buffer at `W3 m ρ`, left at `W4 m ρ`: its arrays
    split out of the unscoped buffers and put back at the exit contents; the generator register into the invariant
    and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun c t => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin1 (V3 m ρ) c
  hout c := hout1 (V3 m ρ) c
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 2 over the thread state: entered from every unscoped buffer at `W5 m ρ`, left at `W6 m ρ`: its arrays
    split out of the unscoped buffers and put back at the exit contents; the generator register into the invariant
    and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun c t => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 3 over the thread state: entered from every unscoped buffer at `W6 m ρ`, left at `W7 m ρ`: its arrays
    split out of the unscoped buffers and put back at the exit contents; the generator register into the invariant
    and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun c t => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .region (reg3 m ρ),
    .host (hseg hostOps4 hostOps4_sub hostOps4_fresh (W7 m ρ)) ]

theorem main_run (c : Dev nD) : main (F := F) c = Pipeline.Seg.run (segs m ρ) := (main_chain c).trans (by chain_rfl)

set_option backward.isDefEq.respectTransparency.types false in
/-- At the compiled mesh, from any memory with zero counters, every weakly fair execution of the program on the
    TensorCores terminates, nothing faulting, and in every final state each unscoped buffer of each core holds the
    last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (StableHlo.after hostOps4 (W7 m ρ c)) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

end Cert.KernelIdeal.Hand

end
-- ==== Proof.RefStages.lean ====
/-
  The reference's result as one pure function of its eight argument arrays, at the ideal instance.

  The reference is a two-layer graph convolution over an edge list, with a batch normalization between the layers.
  Its result is cut here into named stages, one per mathematical step, each the composition of the host operations of
  the corresponding stretch of the program, in the program's order and spelling:

    src, dst     the two rows of the edge list, as vectors of node indices
    dis          the inverse square root of (in-degree + 1) of every node
    wrap         a negative index counted from the end (an index below zero has the node count added)
    aggregateOn  one normalized neighbourhood sum: for every edge the source node's row scaled by the product of the
                 two end nodes' normalizers, summed into the edge's target node; plus the node's own row scaled by its
                 squared normalizer; plus the bias
    aggregate    the same over the edge list itself
    lin1, lin2   the two dense layers
    mean, var    the column means and the (population) column variances of a node-feature matrix
    bn           the batch normalization with the given statistics, scale and shift, followed by the positive part
    out          the whole: aggregate ∘ lin2 ∘ bn ∘ aggregate ∘ lin1
-/
import proofs.«135803_j78812649882125_2_alg».proof.Proof.Gen.ReferenceIdeal
import Idealize.ShloMosaic.PureOps.Ideal

noncomputable section

namespace Cert.ReferenceIdeal.Hand

open Cert.ReferenceIdeal Idealize.ShloMosaic Idealize.SL.Sem
open Cert.ReferenceIdeal.Facts₀

/-- An array of shape s and element type e at the ideal instance. -/
abbrev Arr (s : Shape) (e : EltTy) : Type := (⟨s, e⟩ : BufTy).Contents (Elt Ideal)

/-- The first row of the edge list: the edges' source nodes. -/
def src (ei : Arr S2x1600000 .i32) : Arr S1600000 .i32 :=
  shapeCast S1600000 (extractStridedSlice S1x1600000 ![0, 0] ei slices_S2x1600000_S1x1600000_0_0) shapeCasts_S1x1600000_S1600000

/-- The second row of the edge list: the edges' target nodes. -/
def dst (ei : Arr S2x1600000 .i32) : Arr S1600000 .i32 :=
  shapeCast S1600000 (extractStridedSlice S1x1600000 ![1, 0] ei slices_S2x1600000_S1x1600000_1_0) shapeCasts_S1x1600000_S1600000

/-- The nodes' normalizers from the target row: 1 / sqrt (number of edges into the node + 1). -/
def disOn (t : Arr S1600000 .i32) : Arr S100000 .f32 :=
  Host.rsqrt (F := Ideal)
    (addf (F := Ideal)
      (Host.scatterAdd (F := Ideal) scatter_S100000_S1600000x1_S1600000_n_0_0_1
        (broadcastInDim S100000 ![] bcast_S_S100000 (constant (F := Ideal) S_ .f32 0x00000000#32))
        (broadcastInDim S1600000x1 ![0] bcast_S1600000_S1600000x1_0 t)
        (broadcastInDim S1600000 ![] bcast_S_S1600000 (constant (F := Ideal) S_ .f32 0x3F800000#32)))
      (broadcastInDim S100000 ![] bcast_S_S100000 (constant (F := Ideal) S_ .f32 0x3F800000#32)))

/-- The nodes' normalizers from the edge list. -/
def dis (ei : Arr S2x1600000 .i32) : Arr S100000 .f32 := disOn (dst ei)

/-- An index below zero has the node count added: indexing from the end. -/
def wrap (i : Arr S1600000 .i32) : Arr S1600000 .i32 :=
  select (cmpi .slt i (broadcastInDim S1600000 ![] bcast_S_S1600000 (constantI S_ 32 0#32)))
    (addi i (broadcastInDim S1600000 ![] bcast_S_S1600000 (constantI S_ 32 100000#32))) i

/-- One normalized neighbourhood sum over source row s and target row t with normalizers dv, of the rows of hlin, plus
    the bias b. -/
def aggregateOn (hlin : Arr S100000x64 .f32) (b : Arr S64 .f32) (s t : Arr S1600000 .i32) (dv : Arr S100000 .f32) :
    Arr S100000x64 .f32 :=
  addf (F := Ideal)
    (addf (F := Ideal)
      (Host.scatterAdd (F := Ideal) scatter_S100000x64_S1600000x1_S1600000x64_1_0_0_1
        (broadcastInDim S100000x64 ![] bcast_S_S100000x64 (constant (F := Ideal) S_ .f32 0x00000000#32))
        (broadcastInDim S1600000x1 ![0] bcast_S1600000_S1600000x1_0 t)
        (mulf (F := Ideal)
          (Host.gather gather_S100000x64_S1600000x1_S1600000x64_1_0_n_n_0_1_164 hlin
            (broadcastInDim S1600000x1 ![0] bcast_S1600000_S1600000x1_0 (wrap s)))
          (broadcastInDim S1600000x64 ![0, 1] bcast_S1600000x1_S1600000x64_0_1
            (broadcastInDim S1600000x1 ![0] bcast_S1600000_S1600000x1_0
              (mulf (F := Ideal)
                (Host.gather gather_S100000_S1600000x1_S1600000_n_0_n_n_0_1_1 dv
                  (broadcastInDim S1600000x1 ![0] bcast_S1600000_S1600000x1_0 (wrap s)))
                (Host.gather gather_S100000_S1600000x1_S1600000_n_0_n_n_0_1_1 dv
                  (broadcastInDim S1600000x1 ![0] bcast_S1600000_S1600000x1_0 (wrap t))))))))
      (mulf (F := Ideal) hlin
        (broadcastInDim S100000x64 ![0, 1] bcast_S100000x1_S100000x64_0_1
          (broadcastInDim S100000x1 ![0] bcast_S100000_S100000x1_0 (mulf (F := Ideal) dv dv)))))
    (broadcastInDim S100000x64 ![0, 1] bcast_S1x64_S100000x64_0_1 (broadcastInDim S1x64 ![1] bcast_S64_S1x64_1 b))

/-- One normalized neighbourhood sum over the edge list. -/
def aggregate (hlin : Arr S100000x64 .f32) (b : Arr S64 .f32) (ei : Arr S2x1600000 .i32) (dv : Arr S100000 .f32) :
    Arr S100000x64 .f32 :=
  aggregateOn hlin b (src ei) (dst ei) dv

/-- The first dense layer. -/
def lin1 (x : Arr S100000x128 .f32) (w : Arr S128x64 .f32) : Arr S100000x64 .f32 :=
  Host.dotGeneral (F := Ideal) (φ₁ := .f32) (φ₂ := .f32) dot_S100000x128_S128x64_S100000x64_1_0_0_1_n_n none x w

/-- The second dense layer. -/
def lin2 (h : Arr S100000x64 .f32) (w : Arr S64x64 .f32) : Arr S100000x64 .f32 :=
  Host.dotGeneral (F := Ideal) (φ₁ := .f32) (φ₂ := .f32) dot_S100000x64_S64x64_S100000x64_1_0_0_1_n_n none h w

/-- The column means: the column sums over the row count. -/
def mean (h : Arr S100000x64 .f32) : Arr S64 .f32 :=
  Host.divf (F := Ideal)
    (Host.reduceAdd (F := Ideal) h (constant (F := Ideal) S_ .f32 0x00000000#32) reducesTo_S100000x64_S64_d0 h_S_)
    (broadcastInDim S64 ![] bcast_S_S64 (constant (F := Ideal) S_ .f32 0x47C35000#32))

/-- The divisor of the variance: the row count less the (zero) correction, converted from the integer. -/
def varDen : Arr S_ .f32 :=
  subf (F := Ideal) (constant (F := Ideal) S_ .f32 0x47C35000#32) (sitofp (F := Ideal) .f32 (constantI S_ 32 0#32))

/-- The column variances: the column sums of the squared deviations from the column means over the divisor, where
    the divisor is positive (and the not-a-number constant elsewhere). -/
def var (h : Arr S100000x64 .f32) : Arr S64 .f32 :=
  select
    (broadcastInDim S64 ![] bcast_S_S64 (cmpf (F := Ideal) .ogt varDen (constant (F := Ideal) S_ .f32 0x00000000#32)))
    (Host.divf (F := Ideal)
      (Host.reduceAdd (F := Ideal)
        (mulf (F := Ideal)
          (subf (F := Ideal) h
            (broadcastInDim S100000x64 ![0, 1] bcast_S1x64_S100000x64_0_1
              (Host.divf (F := Ideal)
                (broadcastInDim S1x64 ![1] bcast_S64_S1x64_1
                  (Host.reduceAdd (F := Ideal) h (constant (F := Ideal) S_ .f32 0x00000000#32) reducesTo_S100000x64_S64_d0 h_S_))
                (broadcastInDim S1x64 ![] bcast_S_S1x64 (constant (F := Ideal) S_ .f32 0x47C35000#32)))))
          (subf (F := Ideal) h
            (broadcastInDim S100000x64 ![0, 1] bcast_S1x64_S100000x64_0_1
              (Host.divf (F := Ideal)
                (broadcastInDim S1x64 ![1] bcast_S64_S1x64_1
                  (Host.reduceAdd (F := Ideal) h (constant (F := Ideal) S_ .f32 0x00000000#32) reducesTo_S100000x64_S64_d0 h_S_))
                (broadcastInDim S1x64 ![] bcast_S_S1x64 (constant (F := Ideal) S_ .f32 0x47C35000#32))))))
        (constant (F := Ideal) S_ .f32 0x00000000#32) reducesTo_S100000x64_S64_d0 h_S_)
      (broadcastInDim S64 ![] bcast_S_S64 varDen))
    (broadcastInDim S64 ![] bcast_S_S64 (id (constant (F := Ideal) S_ .f32 0x7FC00000#32)))

/-- A row vector repeated down the rows. -/
def rows (v : Arr S64 .f32) : Arr S100000x64 .f32 :=
  broadcastInDim S100000x64 ![0, 1] bcast_S1x64_S100000x64_0_1 (broadcastInDim S1x64 ![1] bcast_S64_S1x64_1 v)

/-- The batch normalization of h with column statistics mu and v, scale g and shift beta, then the positive part. -/
def bn (h : Arr S100000x64 .f32) (mu v g beta : Arr S64 .f32) : Arr S100000x64 .f32 :=
  maximumf (F := Ideal)
    (addf (F := Ideal)
      (mulf (F := Ideal)
        (mulf (F := Ideal)
          (subf (F := Ideal) h (rows mu))
          (rows (Host.rsqrt (F := Ideal)
            (addf (F := Ideal) v (broadcastInDim S64 ![] bcast_S_S64 (constant (F := Ideal) S_ .f32 0x3727C5AC#32))))))
        (rows g))
      (rows beta))
    (broadcastInDim S100000x64 ![] bcast_S_S100000x64 (constant (F := Ideal) S_ .f32 0x00000000#32))

/-- The first layer's output: the neighbourhood sum of the first dense layer. -/
def h1 (x : Arr S100000x128 .f32) (ei : Arr S2x1600000 .i32) (w1 : Arr S128x64 .f32) (b1 : Arr S64 .f32) :
    Arr S100000x64 .f32 :=
  aggregate (lin1 x w1) b1 ei (dis ei)

/-- The reference's result, of its eight arguments in their order. -/
def out (x : Arr S100000x128 .f32) (ei : Arr S2x1600000 .i32) (w1 : Arr S128x64 .f32) (b1 g beta : Arr S64 .f32)
    (w2 : Arr S64x64 .f32) (b2 : Arr S64 .f32) : Arr S100000x64 .f32 :=
  aggregate (lin2 (bn (h1 x ei w1 b1) (mean (h1 x ei w1 b1)) (var (h1 x ei w1 b1)) g beta) w2) b2 ei (dis ei)

end Cert.ReferenceIdeal.Hand

end
-- ==== Proof.LibRowOps.lean ====
/-
  Reads at an index, for rank-2 arrays, of the operations a row-wise kernel and its reference are built from — stated
  for any extents, at the ideal values (floats are extended reals) where a float operation is involved:

  * a matrix product contracting the left operand's columns with the right operand's rows (a `tpu.matmul` into the
    zero accumulator, the host's `dot_general`), read at `(i, j)`, is the sum over `k` of `l (i, k) * r (k, j)`;
  * three equally wide arrays joined along the columns, read at `(a, c)`, are piece `c / 64` at `(a, c % 64)`;
  * a column `[a, 1]` broadcast along the rows' direction to `[a, b]` reads, at `(p, c)`, the column at `p`;
  * a scalar broadcast to any shape reads the scalar everywhere.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Idealize.ShloMosaic.RowOps

open Idealize.ShloMosaic Idealize.ShloMosaic.ValueIdx

/-! ## The plain matrix product -/

/-- The dimension numbers of `[A, K] × [K, B] → [A, B]`: the left operand's axis 1 contracted with the right operand's
    axis 0, no batch axis. -/
abbrev plainDims {A K B : Nat}
    (wf : DotDims.WF (⟨2, ![A, K]⟩ : Shape) ⟨2, ![K, B]⟩ ⟨2, ![A, B]⟩ [1] [0] [0] [1] [] []) :
    DotDims (⟨2, ![A, K]⟩ : Shape) ⟨2, ![K, B]⟩ ⟨2, ![A, B]⟩ :=
  ⟨[1], [0], [0], [1], [], [], wf⟩

/-- Off the contracted axis the left operand's index is the result's row, whatever the contraction position. -/
theorem plain_lhs0 {A K B : Nat} (wf : DotDims.WF (⟨2, ![A, K]⟩ : Shape) ⟨2, ![K, B]⟩ ⟨2, ![A, B]⟩ [1] [0] [0] [1] [] [])
    (j : (⟨2, ![A, B]⟩ : Shape).Idx) (q : (plainDims wf).contr.Idx) :
    ((plainDims wf).lhsIdx j q 0).val = (j 0).val := by
  unfold DotDims.lhsIdx
  rw [dif_neg (show ¬(0 : Fin 2) ∈ ([] : List (Fin 2)) from List.not_mem_nil),
    dif_pos (show (0 : Fin 2) ∈ ([0] : List (Fin 2)) from List.mem_singleton.mpr rfl)]
  rfl

/-- Off the contracted axis the right operand's index is the result's column, whatever the contraction position. -/
theorem plain_rhs1 {A K B : Nat} (wf : DotDims.WF (⟨2, ![A, K]⟩ : Shape) ⟨2, ![K, B]⟩ ⟨2, ![A, B]⟩ [1] [0] [0] [1] [] [])
    (j : (⟨2, ![A, B]⟩ : Shape).Idx) (q : (plainDims wf).contr.Idx) :
    ((plainDims wf).rhsIdx j q 1).val = (j 1).val := by
  unfold DotDims.rhsIdx
  rw [dif_neg (show ¬(1 : Fin 2) ∈ ([] : List (Fin 2)) from List.not_mem_nil),
    dif_pos (show (1 : Fin 2) ∈ ([1] : List (Fin 2)) from List.mem_singleton.mpr rfl)]
  rfl

/-- The contraction sum of a plain matrix product, re-indexed by the contracted coordinate: at `j = (i, c)` the left
    operand is read along row `i`, the right one down column `c`. -/
theorem plainDot_sum {A K B : Nat} (d : DotDims (⟨2, ![A, K]⟩ : Shape) ⟨2, ![K, B]⟩ ⟨2, ![A, B]⟩)
    (hd : ∃ wf, d = plainDims wf)
    (l : (⟨2, ![A, K]⟩ : Shape).Idx → EReal) (r : (⟨2, ![K, B]⟩ : Shape).Idx → EReal) (j : (⟨2, ![A, B]⟩ : Shape).Idx) :
    ∑ k : d.contr.Idx, l (d.lhsIdx j k) * r (d.rhsIdx j k) = ∑ k : Fin K, l (ix2 (j 0) k) * r (ix2 k (j 1)) := by
  obtain ⟨wf, rfl⟩ := hd
  rw [← Equiv.sum_comp (contrEquiv1 (plainDims wf) K rfl rfl).symm]
  refine Finset.sum_congr rfl fun k _ => ?_
  have hk := contrEquiv1_symm_val (plainDims wf) K rfl rfl k
  have el : (plainDims wf).lhsIdx j ((contrEquiv1 (plainDims wf) K rfl rfl).symm k) = ix2 (j 0) k :=
    funext fun a => Fin.ext (by
      match a with
      | ⟨0, _⟩ => exact plain_lhs0 wf j _
      | ⟨1, _⟩ => exact ((plainDims wf).lhsIdx_val_of_single (cl := 1) rfl j _).trans hk)
  have er : (plainDims wf).rhsIdx j ((contrEquiv1 (plainDims wf) K rfl rfl).symm k) = ix2 k (j 1) :=
    funext fun a => Fin.ext (by
      match a with
      | ⟨0, _⟩ => exact ((plainDims wf).rhsIdx_val_of_single (cr := 0) rfl j _).trans hk
      | ⟨1, _⟩ => exact plain_rhs1 wf j _)
  rw [el, er]
  rfl

/-- A `tpu.matmul` of a plain product into the zero accumulator, read at `(i, c)`: the sum over `k` of
    `l (i, k) * r (k, c)`. -/
theorem matmul_zero_plain_apply {A K B : Nat} {φ₁ φ₂ : FTy} (d : DotDims (⟨2, ![A, K]⟩ : Shape) ⟨2, ![K, B]⟩ ⟨2, ![A, B]⟩)
    (hd : ∃ wf, d = plainDims wf) (prec : Option ContractPrecision)
    (l : FVec Ideal (⟨2, ![A, K]⟩ : Shape) φ₁) (r : FVec Ideal (⟨2, ![K, B]⟩ : Shape) φ₂) (i : Fin A) (c : Fin B) :
    FloatOps.matmul d prec l r (constant (⟨2, ![A, B]⟩ : Shape) .f32 0x00000000#32) (ix2 i c)
      = ∑ k : Fin K, l (ix2 i k) * r (ix2 k c) := by
  rw [Ideal.matmul_constant_zero_apply]
  exact plainDot_sum d hd l r (ix2 i c)

/-- The host's `dot_general` of a plain product, read at `(i, c)`: the same sum. -/
theorem dotGeneral_plain_apply {A K B : Nat} {φ₁ φ₂ : FTy} (d : DotDims (⟨2, ![A, K]⟩ : Shape) ⟨2, ![K, B]⟩ ⟨2, ![A, B]⟩)
    (hd : ∃ wf, d = plainDims wf) (prec : Option ContractPrecision) (sched : HostSchedule)
    (l : FVec Ideal (⟨2, ![A, K]⟩ : Shape) φ₁) (r : FVec Ideal (⟨2, ![K, B]⟩ : Shape) φ₂) (i : Fin A) (c : Fin B) :
    FloatOps.dotGeneral d prec sched l r (ix2 i c) = ∑ k : Fin K, l (ix2 i k) * r (ix2 k c) := by
  rw [Ideal.dotGeneral_apply]
  exact plainDot_sum d hd l r (ix2 i c)

/-! ## Three pieces joined along the columns -/

variable {α : Type}

/-- Three `[A, 64]` arrays joined along axis 1 into `[A, 192]`, read at `(a, c)`: piece `c / 64` at `(a, c % 64)`. -/
theorem concat3_apply {A : Nat} (u0 u1 u2 : (⟨2, ![A, 64]⟩ : Shape).Idx → α)
    (h : Shape.Concatenates [(⟨2, ![A, 64]⟩ : Shape), ⟨2, ![A, 64]⟩, ⟨2, ![A, 64]⟩] ⟨2, ![A, 192]⟩ 1)
    (a : Fin A) (c : Fin 192) :
    concatenate (⟨2, ![A, 192]⟩ : Shape) 1 [⟨⟨2, ![A, 64]⟩, u0⟩, ⟨⟨2, ![A, 64]⟩, u1⟩, ⟨⟨2, ![A, 64]⟩, u2⟩] h (ix2 a c)
      = (![u0, u1, u2] ⟨c.val / 64, by have := c.isLt; omega⟩) (ix2 a ⟨c.val % 64, Nat.mod_lt _ (by decide)⟩) := by
  refine concatenate_ofFn_apply (t := (⟨2, ![A, 192]⟩ : Shape)) (s₁ := (⟨2, ![A, 64]⟩ : Shape)) 1 ![u0, u1, u2] h rfl 64 rfl
    (ix2 a c) ⟨c.val / 64, by have := c.isLt; omega⟩ rfl (ix2 a ⟨c.val % 64, Nat.mod_lt _ (by decide)⟩) rfl ?_
  intro b hb
  match b with
  | ⟨0, _⟩ => rfl
  | ⟨1, _⟩ => exact absurd rfl hb

/-! ## A column broadcast along its rows -/

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A scalar broadcast -/

/-- A scalar broadcast to any shape reads, everywhere, the scalar. -/
theorem broadcastInDim_scalar_apply {t : Shape} (h : (⟨0, ![]⟩ : Shape).BroadcastsInDim t (![] : Fin 0 → Fin t.rank))
    (x : (⟨0, ![]⟩ : Shape).Idx → α) (j : t.Idx) :
    broadcastInDim t ![] h x j = x ix0 :=
  broadcastInDim_apply ![] h x j ix0 fun a => a.elim0

end Idealize.ShloMosaic.RowOps

end
-- ==== Proof.Linear1Value.lean ====
/-
  What pipeline 0 leaves in its output array: the product of the node features with the first weight matrix.
  At the ideal values a row tile of the product is the product of the row tile — both are, entry by entry, the sum
  over the contracted coordinate of the products, and a change of float format is the identity —, the ten row tiles
  cover the array, and so the array ends holding the whole product.
-/
import proofs.«135803_j78812649882125_2_alg».proof.Proof.Linear1Region
import proofs.«135803_j78812649882125_2_alg».proof.Proof.RefStages
import proofs.«135803_j78812649882125_2_alg».proof.Proof.LibRowOps

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

/-- The product of a row tile is the row tile of the product: entry `(p, q)` of the tile's product with the whole
    weight matrix is entry `(10000 r + p, q)` of the whole product, when the tile holds rows `10000 r …` of the left operand. -/
theorem tile_product0 (X : FVec Ideal S100000x128 .f32) (Wm : FVec Ideal S128x64 .f32)
    (x0 : Vec Ideal S10000x128 .f32) (r : ℕ) (hr : r < 10)
    (h0 : ∀ (p : Fin 10000) (k : Fin 128), x0 (ix2 p k) = X (ix2 ⟨r * 10000 + p.val, by have := p.isLt; omega⟩ k))
    (p : Fin 10000) (q : Fin 64) :
    k0_pay1 (F := Ideal) x0 Wm (ix2 p q) = Cert.ReferenceIdeal.Hand.lin1 X Wm (ix2 ⟨r * 10000 + p.val, by have := p.isLt; omega⟩ q) := by
  unfold k0_pay1 Cert.ReferenceIdeal.Hand.lin1
  refine (RowOps.matmul_zero_plain_apply _ ⟨_, rfl⟩ none _ _ p q).trans ?_
  refine Eq.trans ?_ (RowOps.dotGeneral_plain_apply _ ⟨_, rfl⟩ none .single X Wm ⟨r * 10000 + p.val, by have := p.isLt; omega⟩ q).symm
  refine Finset.sum_congr rfl fun k _ => ?_
  show x0 (ix2 p k) * Wm (ix2 k q) = _
  rw [h0 p k]

/-- The printed index maps, decided over the grid: the left operand's row tile moves with the output's, the weight
    matrix stays, and the output's tile index is the point's. -/
theorem idx_facts0 : ∀ t : Fin cfg0.N, win0_0.index t (0 : Fin 2) = win0_2.index t (0 : Fin 2)
    ∧ win0_0.index t (1 : Fin 2) = 0
    ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

theorem idx_onto0 : ∀ q0 : Fin 10, ∃ t : Fin cfg0.N, win0_2.index t = ![q0.val, 0] :=
  (by decide +kernel : ∀ q0 : Fin 10, ∃ t : Fin grid0.N, win0_2.index t = ![q0.val, 0])

/-- What point `t` writes back is its block of the whole product. -/
theorem flushed0_eq (c : Dev nD) (t : Fin cfg0.N) :
    (dat0 V c).flushed 2 t = ((cfg0.win 2).blk t).view.read (Elt Ideal)
      (Cert.ReferenceIdeal.Hand.lin1 (V c main_arg0) (V c main_arg2)) := by
  show (cfg0.win 2).cut (grid0.coords t) ((dat0 V c).after 2 t) = _
  rw [after0_2]
  unfold out0_2
  rw [View.canon_unit_zero hz0]
  simp only [View.ld_unit_zero (S := S10000x128) hz0, View.ld_unit_zero (S := S128x64) hz0]
  obtain ⟨e0, e1, e2, e3, e4, e5⟩ := idx_facts0 t
  funext j
  obtain ⟨p, q, rfl⟩ : ∃ (p : Fin 10000) (q : Fin 64), j = ix2 p q := ⟨j 0, j 1, eq_ix2 j⟩
  have hw : iblk0 V c 1 t = V c main_arg2 := by
    funext y
    show V c main_arg2 (((cfg0.win 1).blk t).view.emb y) = V c main_arg2 y
    congr 1
    funext a; apply Fin.ext
    match a with
    | ⟨0, _⟩ => show win0_1.index t (0 : Fin 2) * 128 + 1 * (y 0).val = (y 0).val; omega
    | ⟨1, _⟩ => show win0_1.index t (1 : Fin 2) * 64 + 1 * (y 1).val = (y 1).val; omega
  rw [hw]
  refine (tile_product0 (V c main_arg0) (V c main_arg2) (iblk0 V c 0 t) (win0_2.index t (0 : Fin 2)) (by omega) (fun p k => ?_) p q).trans ?_
  · show V c main_arg0 (((cfg0.win 0).blk t).view.emb (ix2 p k)) = _
    congr 1
    funext a; apply Fin.ext
    match a with
    | ⟨0, _⟩ => show win0_0.index t (0 : Fin 2) * 10000 + 1 * p.val = win0_2.index t (0 : Fin 2) * 10000 + p.val; omega
    | ⟨1, _⟩ => show win0_0.index t (1 : Fin 2) * 128 + 1 * k.val = k.val; omega
  · show _ = Cert.ReferenceIdeal.Hand.lin1 (V c main_arg0) (V c main_arg2) (((cfg0.win 2).blk t).view.emb (ix2 p q))
    congr 1
    funext a; apply Fin.ext
    match a with
    | ⟨0, _⟩ => show win0_2.index t (0 : Fin 2) * 10000 + p.val = win0_2.index t (0 : Fin 2) * 10000 + 1 * p.val; omega
    | ⟨1, _⟩ => show q.val = win0_2.index t (1 : Fin 2) * 64 + 1 * q.val; omega

/-- An index of the array is in point `t`'s block iff each coordinate is in the block's range on its axis. -/
theorem mem_blk0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole (Pipeline.arrRef spec0 2)).slice (win0_2.rect t)).set ↔ _
  rw [View.set_slice_whole, Rect.mem_set_unit]
  exact Iff.rfl

/-- Every index of the array is in some point's block: the point whose tile holds the row. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto0 ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- The output array after the region: the whole product of the arrays the region found. -/
theorem final0_2 (c : Dev nD) :
    (dat0 V c).arrAt 2 cfg0.N = Cert.ReferenceIdeal.Hand.lin1 (V c main_arg0) (V c main_arg2) :=
  (dat0 V c).arrAt_eq_of_cover 2 _ (fun t _ => flushed0_eq V c t) (cover0)

end Cert.KernelIdeal.Hand

end
-- ==== Proof.Linear2Value.lean ====
/-
  What pipeline 3 leaves in its output array: the product of the normalised hidden features with the second weight matrix.
  At the ideal values a row tile of the product is the product of the row tile — both are, entry by entry, the sum
  over the contracted coordinate of the products, and a change of float format is the identity —, the ten row tiles
  cover the array, and so the array ends holding the whole product.
-/
import proofs.«135803_j78812649882125_2_alg».proof.Proof.Linear2Region
import proofs.«135803_j78812649882125_2_alg».proof.Proof.RefStages
import proofs.«135803_j78812649882125_2_alg».proof.Proof.LibRowOps

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz3 : (![0, 0] : Fin 2 → Nat) = fun _ => 0 := funext fun a => by fin_cases a <;> rfl

/-- The product of a row tile is the row tile of the product: entry `(p, q)` of the tile's product with the whole
    weight matrix is entry `(10000 r + p, q)` of the whole product, when the tile holds rows `10000 r …` of the left operand. -/
theorem tile_product3 (X : FVec Ideal S100000x64 .f32) (Wm : FVec Ideal S64x64 .f32)
    (x0 : Vec Ideal S10000x64 .f32) (r : ℕ) (hr : r < 10)
    (h0 : ∀ (p : Fin 10000) (k : Fin 64), x0 (ix2 p k) = X (ix2 ⟨r * 10000 + p.val, by have := p.isLt; omega⟩ k))
    (p : Fin 10000) (q : Fin 64) :
    k3_pay1 (F := Ideal) x0 Wm (ix2 p q) = Cert.ReferenceIdeal.Hand.lin2 X Wm (ix2 ⟨r * 10000 + p.val, by have := p.isLt; omega⟩ q) := by
  unfold k3_pay1 Cert.ReferenceIdeal.Hand.lin2
  refine (RowOps.matmul_zero_plain_apply _ ⟨_, rfl⟩ none _ _ p q).trans ?_
  refine Eq.trans ?_ (RowOps.dotGeneral_plain_apply _ ⟨_, rfl⟩ none .single X Wm ⟨r * 10000 + p.val, by have := p.isLt; omega⟩ q).symm
  refine Finset.sum_congr rfl fun k _ => ?_
  simp only [truncf_apply, shapeCast_self]
  rw [h0 p k]

/-- The printed index maps, decided over the grid: the left operand's row tile moves with the output's, the weight
    matrix stays, and the output's tile index is the point's. -/
theorem idx_facts3 : ∀ t : Fin cfg3.N, win3_0.index t (0 : Fin 2) = win3_2.index t (0 : Fin 2)
    ∧ win3_0.index t (1 : Fin 2) = 0
    ∧ win3_1.index t (0 : Fin 2) = 0 ∧ win3_1.index t (1 : Fin 2) = 0
    ∧ win3_2.index t (1 : Fin 2) = 0 ∧ win3_2.index t (0 : Fin 2) ≤ 9 :=
  (by decide +kernel : ∀ t : Fin grid3.N, _)

theorem idx_onto3 : ∀ q0 : Fin 10, ∃ t : Fin cfg3.N, win3_2.index t = ![q0.val, 0] :=
  (by decide +kernel : ∀ q0 : Fin 10, ∃ t : Fin grid3.N, win3_2.index t = ![q0.val, 0])

/-- What point `t` writes back is its block of the whole product. -/
theorem flushed3_eq (c : Dev nD) (t : Fin cfg3.N) :
    (dat3 V c).flushed 2 t = ((cfg3.win 2).blk t).view.read (Elt Ideal)
      (Cert.ReferenceIdeal.Hand.lin2 (V c main_v63) (V c main_arg6)) := by
  show (cfg3.win 2).cut (grid3.coords t) ((dat3 V c).after 2 t) = _
  rw [after3_2]
  unfold out3_2
  rw [View.canon_unit_zero hz3]
  simp only [View.ld_unit_zero (S := S10000x64) hz3, View.ld_unit_zero (S := S64x64) hz3]
  obtain ⟨e0, e1, e2, e3, e4, e5⟩ := idx_facts3 t
  funext j
  obtain ⟨p, q, rfl⟩ : ∃ (p : Fin 10000) (q : Fin 64), j = ix2 p q := ⟨j 0, j 1, eq_ix2 j⟩
  have hw : iblk3 V c 1 t = V c main_arg6 := by
    funext y
    show V c main_arg6 (((cfg3.win 1).blk t).view.emb y) = V c main_arg6 y
    congr 1
    funext a; apply Fin.ext
    match a with
    | ⟨0, _⟩ => show win3_1.index t (0 : Fin 2) * 64 + 1 * (y 0).val = (y 0).val; omega
    | ⟨1, _⟩ => show win3_1.index t (1 : Fin 2) * 64 + 1 * (y 1).val = (y 1).val; omega
  rw [hw]
  refine (tile_product3 (V c main_v63) (V c main_arg6) (iblk3 V c 0 t) (win3_2.index t (0 : Fin 2)) (by omega) (fun p k => ?_) p q).trans ?_
  · show V c main_v63 (((cfg3.win 0).blk t).view.emb (ix2 p k)) = _
    congr 1
    funext a; apply Fin.ext
    match a with
    | ⟨0, _⟩ => show win3_0.index t (0 : Fin 2) * 10000 + 1 * p.val = win3_2.index t (0 : Fin 2) * 10000 + p.val; omega
    | ⟨1, _⟩ => show win3_0.index t (1 : Fin 2) * 64 + 1 * k.val = k.val; omega
  · show _ = Cert.ReferenceIdeal.Hand.lin2 (V c main_v63) (V c main_arg6) (((cfg3.win 2).blk t).view.emb (ix2 p q))
    congr 1
    funext a; apply Fin.ext
    match a with
    | ⟨0, _⟩ => show win3_2.index t (0 : Fin 2) * 10000 + p.val = win3_2.index t (0 : Fin 2) * 10000 + 1 * p.val; omega
    | ⟨1, _⟩ => show q.val = win3_2.index t (1 : Fin 2) * 64 + 1 * q.val; omega

/-- An index of the array is in point `t`'s block iff each coordinate is in the block's range on its axis. -/
theorem mem_blk3 (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole (Pipeline.arrRef spec3 2)).slice (win3_2.rect t)).set ↔ _
  rw [View.set_slice_whole, Rect.mem_set_unit]
  exact Iff.rfl

/-- Every index of the array is in some point's block: the point whose tile holds the row. -/
theorem cover3 (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  obtain ⟨t, ht⟩ := idx_onto3 ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [mem_blk3]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 64 ≤ (i 1).val ∧ (i 1).val < win3_2.index t (1 : Fin 2) * 64 + 64; omega

/-- The output array after the region: the whole product of the arrays the region found. -/
theorem final3_2 (c : Dev nD) :
    (dat3 V c).arrAt 2 cfg3.N = Cert.ReferenceIdeal.Hand.lin2 (V c main_v63) (V c main_arg6) :=
  (dat3 V c).arrAt_eq_of_cover 2 _ (fun t _ => flushed3_eq V c t) (cover3)

end Cert.KernelIdeal.Hand

end
-- ==== Proof.NormalizeValue.lean ====
/-
  What pipeline 2 leaves in its output array: every row of the hidden features normalised by the column statistics,
  scaled, shifted and clamped at zero. The body is pointwise in the rows with one-row operands repeated down the
  rows, so a row tile of the result is the result of the row tile; the ten row tiles cover the array.
-/
import proofs.«135803_j78812649882125_2_alg».proof.Proof.NormalizeRegion
import Idealize.ShloMosaic.PureOps.Ideal
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-- Entry `(n, f)` of the normalised features: `max ((h − μ_f) · rsqrt (v_f + ε) · γ_f + β_f) 0`, the statistics and the
    affine parameters given as one-row matrices. -/
def normRows (h : FVec Ideal S100000x64 .f32) (mu2 var2 g2 b2 : FVec Ideal S1x64 .f32) : FVec Ideal S100000x64 .f32 :=
  fun i => max ((h i - mu2 (ix2 (0 : Fin 1) (i 1))) * FloatOps.rsqrt (F := Ideal) (var2 (ix2 (0 : Fin 1) (i 1)) + Scalar.ofBits (F := Ideal) .f32 0x3727C5AC#32) * g2 (ix2 (0 : Fin 1) (i 1))
      + b2 (ix2 (0 : Fin 1) (i 1))) (Scalar.ofBits (F := Ideal) .f32 0x00000000#32)

/-- The body's value on a row tile is the tile of `normRows`. -/
theorem tile_norm (H : FVec Ideal S100000x64 .f32) (mu2 var2 g2 b2 : FVec Ideal S1x64 .f32)
    (x0 : Vec Ideal S10000x64 .f32) (r : ℕ) (hr : r < 10)
    (h0 : ∀ (p : Fin 10000) (q : Fin 64), x0 (ix2 p q) = H (ix2 ⟨r * 10000 + p.val, by have := p.isLt; omega⟩ q))
    (p : Fin 10000) (q : Fin 64) :
    k2_pay1 (F := Ideal) x0 var2 mu2 g2 b2 (ix2 p q) = normRows H mu2 var2 g2 b2 (ix2 ⟨r * 10000 + p.val, by have := p.isLt; omega⟩ q) := by
  unfold k2_pay1 normRows
  simp only [maximumf_apply, addf_apply, mulf_apply, subf_apply, broadcastTo_1b_ab_apply, shapeCast_self, broadcast_apply, h0 p q]
  rfl

variable (V : (c : Dev nD) → (b : Ref sig .tc) → Buf (Elt Ideal) ((c : Thread nD τ).loc b))

theorem hz2 : (![0, 0] : Fin 2 → Nat) = fun _ => 0 := funext fun a => by fin_cases a <;> rfl

/-- The printed index maps, decided over the grid: the feature tile moves with the output's, the one-row operands stay. -/
theorem idx_facts2 : ∀ t : Fin cfg2.N, win2_0.index t (0 : Fin 2) = win2_5.index t (0 : Fin 2)
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (1 : Fin 2) = 0 ∧ win2_5.index t (0 : Fin 2) ≤ 9 :=
  (by decide +kernel : ∀ t : Fin grid2.N, _)

theorem idx_onto2 : ∀ q0 : Fin 10, ∃ t : Fin cfg2.N, win2_5.index t = ![q0.val, 0] :=
  (by decide +kernel : ∀ q0 : Fin 10, ∃ t : Fin grid2.N, win2_5.index t = ![q0.val, 0])

/-- What point `t` writes back is its block of the normalised features. -/
theorem flushed2_eq (c : Dev nD) (t : Fin cfg2.N) :
    (dat2 V c).flushed 5 t = ((cfg2.win 5).blk t).view.read (Elt Ideal)
      (normRows (V c main_v47) (V c main_v59) (V c main_v60) (V c main_v61) (V c main_v62)) := by
  show (cfg2.win 5).cut (grid2.coords t) ((dat2 V c).after 5 t) = _
  rw [after2_5]
  unfold out2_5
  rw [View.canon_unit_zero hz2]
  simp only [View.ld_unit_zero (S := S10000x64) hz2, View.ld_unit_zero (S := S1x64) hz2]
  obtain ⟨e0, e1, e2, e3, e4, e5, e6, e7, e8, e9, e10, e11⟩ := idx_facts2 t
  funext j
  obtain ⟨p, q, rfl⟩ : ∃ (p : Fin 10000) (q : Fin 64), j = ix2 p q := ⟨j 0, j 1, eq_ix2 j⟩
  have hw1 : iblk2 V c 1 t = V c main_v59 := by
    funext y
    show V c main_v59 (((cfg2.win 1).blk t).view.emb y) = V c main_v59 y
    congr 1
    funext a; apply Fin.ext
    match a with
    | ⟨0, _⟩ => show win2_1.index t (0 : Fin 2) * 1 + 1 * (y 0).val = (y 0).val; omega
    | ⟨1, _⟩ => show win2_1.index t (1 : Fin 2) * 64 + 1 * (y 1).val = (y 1).val; omega
  have hw2 : iblk2 V c 2 t = V c main_v60 := by
    funext y
    show V c main_v60 (((cfg2.win 2).blk t).view.emb y) = V c main_v60 y
    congr 1
    funext a; apply Fin.ext
    match a with
    | ⟨0, _⟩ => show win2_2.index t (0 : Fin 2) * 1 + 1 * (y 0).val = (y 0).val; omega
    | ⟨1, _⟩ => show win2_2.index t (1 : Fin 2) * 64 + 1 * (y 1).val = (y 1).val; omega
  have hw3 : iblk2 V c 3 t = V c main_v61 := by
    funext y
    show V c main_v61 (((cfg2.win 3).blk t).view.emb y) = V c main_v61 y
    congr 1
    funext a; apply Fin.ext
    match a with
    | ⟨0, _⟩ => show win2_3.index t (0 : Fin 2) * 1 + 1 * (y 0).val = (y 0).val; omega
    | ⟨1, _⟩ => show win2_3.index t (1 : Fin 2) * 64 + 1 * (y 1).val = (y 1).val; omega
  have hw4 : iblk2 V c 4 t = V c main_v62 := by
    funext y
    show V c main_v62 (((cfg2.win 4).blk t).view.emb y) = V c main_v62 y
    congr 1
    funext a; apply Fin.ext
    match a with
    | ⟨0, _⟩ => show win2_4.index t (0 : Fin 2) * 1 + 1 * (y 0).val = (y 0).val; omega
    | ⟨1, _⟩ => show win2_4.index t (1 : Fin 2) * 64 + 1 * (y 1).val = (y 1).val; omega
  rw [hw1, hw2, hw3, hw4]
  refine (tile_norm (V c main_v47) (V c main_v59) (V c main_v60) (V c main_v61) (V c main_v62) (iblk2 V c 0 t)
    (win2_5.index t (0 : Fin 2)) (by omega) (fun p q => ?_) p q).trans ?_
  · show V c main_v47 (((cfg2.win 0).blk t).view.emb (ix2 p q)) = _
    congr 1
    funext a; apply Fin.ext
    match a with
    | ⟨0, _⟩ => show win2_0.index t (0 : Fin 2) * 10000 + 1 * p.val = win2_5.index t (0 : Fin 2) * 10000 + p.val; omega
    | ⟨1, _⟩ => show win2_0.index t (1 : Fin 2) * 64 + 1 * q.val = q.val; omega
  · show _ = normRows (V c main_v47) (V c main_v59) (V c main_v60) (V c main_v61) (V c main_v62) (((cfg2.win 5).blk t).view.emb (ix2 p q))
    congr 1
    funext a; apply Fin.ext
    match a with
    | ⟨0, _⟩ => show win2_5.index t (0 : Fin 2) * 10000 + p.val = win2_5.index t (0 : Fin 2) * 10000 + 1 * p.val; omega
    | ⟨1, _⟩ => show q.val = win2_5.index t (1 : Fin 2) * 64 + 1 * q.val; omega

theorem mem_blk2 (t : Fin cfg2.N) (i : S100000x64.Idx) :
    i ∈ ((cfg2.win 5).blk t).view.set ↔ ∀ a : Fin 2, win2_5.index t a * S10000x64.size a ≤ (i a).val ∧ (i a).val < win2_5.index t a * S10000x64.size a + S10000x64.size a := by
  show i ∈ ((View.whole (Pipeline.arrRef spec2 5)).slice (win2_5.rect t)).set ↔ _
  rw [View.set_slice_whole, Rect.mem_set_unit]
  exact Iff.rfl

theorem cover2 (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  obtain ⟨t, ht⟩ := idx_onto2 ⟨(i 0).val / 10000, by omega⟩
  have q0 : win2_5.index t (0 : Fin 2) = (i 0).val / 10000 := congrFun ht 0
  have q1 : win2_5.index t (1 : Fin 2) = 0 := congrFun ht 1
  refine ⟨t, flush2_5 t, ?_⟩
  rw [mem_blk2]
  intro a
  match a with
  | ⟨0, _⟩ => show win2_5.index t (0 : Fin 2) * 10000 ≤ (i 0).val ∧ (i 0).val < win2_5.index t (0 : Fin 2) * 10000 + 10000; omega
  | ⟨1, _⟩ => show win2_5.index t (1 : Fin 2) * 64 ≤ (i 1).val ∧ (i 1).val < win2_5.index t (1 : Fin 2) * 64 + 64; omega

/-- The output array after the region: the normalised features of the arrays the region found. -/
theorem final2_5 (c : Dev nD) :
    (dat2 V c).arrAt 5 cfg2.N = normRows (V c main_v47) (V c main_v59) (V c main_v60) (V c main_v61) (V c main_v62) :=
  (dat2 V c).arrAt_eq_of_cover 5 _ (fun t _ => flushed2_eq V c t) (cover2)

end Cert.KernelIdeal.Hand

end
-- ==== Proof.LibTileSum.lean ====
/-
  Regrouping a finite sum over `Fin (K * N)` into `K` consecutive tiles of `N` terms each.

  Position `m < K * N` is written `N * s + j` with tile `s < K` and offset `j < N`; a sum over all positions is then
  the sum over the tiles of each tile's own sum. Only commutativity and associativity of the addition are used, so
  the lemmas hold in any additive commutative monoid.
-/
import Mathlib.Data.Fintype.BigOperators
import Mathlib.Logic.Equiv.Fin.Basic

namespace Cert.Lib

open Finset

variable {β : Type*} [AddCommMonoid β]

/-- Offset `j < N` inside tile `s < K` is a position below `K * N`. -/
theorem tile_index_lt {K N : ℕ} (s : Fin K) (j : Fin N) : N * s.val + j.val < K * N :=
  calc N * s.val + j.val < N * s.val + N := Nat.add_lt_add_left j.isLt _
    _ = N * (s.val + 1) := (Nat.mul_succ _ _).symm
    _ ≤ N * K := Nat.mul_le_mul_left _ s.isLt
    _ = K * N := Nat.mul_comm _ _

/-- A sum over `K * N` positions is the sum over the `K` tiles of the sum over each tile's `N` offsets:
    `(s, j) ↦ N * s + j` is a bijection from pairs (tile, offset) onto positions. -/
theorem sum_fin_mul_eq_sum_tiles (K N : ℕ) (f : Fin (K * N) → β) :
    ∑ m : Fin (K * N), f m = ∑ s : Fin K, ∑ j : Fin N, f ⟨N * s.val + j.val, tile_index_lt s j⟩ := by
  rw [← (finProdFinEquiv : Fin K × Fin N ≃ Fin (K * N)).sum_comp f, Fintype.sum_prod_type]
  refine Finset.sum_congr rfl fun s _ => Finset.sum_congr rfl fun j _ => congrArg f (Fin.ext ?_)
  show j.val + N * s.val = N * s.val + j.val
  exact Nat.add_comm _ _

/-- The same with the tiles counted by `Finset.range K`: if `T s` is tile `s`'s own sum for every `s < K`, the sum
    over all positions is `∑ s ∈ range K, T s`. -/
theorem sum_fin_mul_eq_sum_range_of_tiles (K N : ℕ) (f : Fin (K * N) → β) (T : ℕ → β)
    (hT : ∀ s : Fin K, T s.val = ∑ j : Fin N, f ⟨N * s.val + j.val, tile_index_lt s j⟩) :
    ∑ m : Fin (K * N), f m = ∑ s ∈ Finset.range K, T s := by
  rw [sum_fin_mul_eq_sum_tiles K N f, ← Fin.sum_univ_eq_sum_range T K]
  exact Finset.sum_congr rfl fun s _ => (hT s).symm

/-- The same for a summand given as a function `g` of the position as a natural number: the sum over all positions
    is the sum over `s ∈ range K` of `∑ j : Fin N, g (N * s + j)`. -/
theorem sum_fin_mul_eq_sum_range (K N : ℕ) (f : Fin (K * N) → β) (g : ℕ → β) (hfg : ∀ m : Fin (K * N), f m = g m.val) :
    ∑ m : Fin (K * N), f m = ∑ s ∈ Finset.range K, ∑ j : Fin N, g (N * s + j.val) :=
  sum_fin_mul_eq_sum_range_of_tiles K N f (fun s => ∑ j : Fin N, g (N * s + j.val))
    fun s => Finset.sum_congr rfl fun j _ => (hfg ⟨N * s.val + j.val, tile_index_lt s j⟩).symm

/-! ## Four tiles of 1024 in 4096 positions

The three lemmas at `K = 4`, `N = 1024`, with the index type spelt `Fin 4096`. -/

/-- Offset `j < 1024` inside tile `s < 4` is a position below 4096. -/
theorem tile_index_lt_4096 (s : Fin 4) (j : Fin 1024) : 1024 * s.val + j.val < 4096 :=
  tile_index_lt (K := 4) (N := 1024) s j

/-- A sum over 4096 positions is the sum over four tiles of the sum over each tile's 1024 offsets. -/
theorem sum_fin4096_eq_sum_tiles (f : Fin 4096 → β) :
    ∑ m : Fin 4096, f m = ∑ s : Fin 4, ∑ j : Fin 1024, f ⟨1024 * s.val + j.val, tile_index_lt_4096 s j⟩ :=
  sum_fin_mul_eq_sum_tiles 4 1024 f

/-- The same with the four tiles counted by `Finset.range 4`, each tile's sum given as `T s`. -/
theorem sum_fin4096_eq_sum_range_of_tiles (f : Fin 4096 → β) (T : ℕ → β)
    (hT : ∀ s : Fin 4, T s.val = ∑ j : Fin 1024, f ⟨1024 * s.val + j.val, tile_index_lt_4096 s j⟩) :
    ∑ m : Fin 4096, f m = ∑ s ∈ Finset.range 4, T s :=
  sum_fin_mul_eq_sum_range_of_tiles 4 1024 f T hT

/-- The same for a summand given as a function `g` of the position as a natural number. -/
theorem sum_fin4096_eq_sum_range (f : Fin 4096 → β) (g : ℕ → β) (hfg : ∀ m : Fin 4096, f m = g m.val) :
    ∑ m : Fin 4096, f m = ∑ s ∈ Finset.range 4, ∑ j : Fin 1024, g (1024 * s + j.val) :=
  sum_fin_mul_eq_sum_range 4 1024 f g hfg

end Cert.Lib
-- ==== Proof.StatsValue.lean ====
import proofs.«135803_j78812649882125_2_alg».proof.Proof.StatsRegion
import proofs.«135803_j78812649882125_2_alg».proof.Proof.LibTileSum
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal.Gen
open Idealize.ShloMosaic Idealize.ShloMosaic.TcCoe Idealize.ShloMosaic.ValueIdx
open Finset

/-! # The statistics region's values at the ideal reals: the two accumulators after the ten points are the column
    sums and the column sums of squares of the whole [100000,64] array -/

/-- The zero offsets of the whole-buffer rectangles, as a constant function. -/
theorem hz2 : (![0, 0] : Fin 2 → Nat) = fun _ => 0 := funext fun a => by fin_cases a <;> rfl

/-- The zeroed accumulators read zero everywhere. -/
theorem accZero1_fst (i : S1x64.Idx) : (accZero1 (F := Ideal)).1 i = 0 := by
  show View.canon ([⟨rS1, k1_pay1 (F := Ideal)⟩] : List (View.Piece (Elt Ideal) S1x64 .f32)) i = 0
  rw [View.canon_unit_zero hz2]
  unfold k1_pay1
  simp only [shapeCast_self, broadcast_apply]
  exact Ideal.ofBits_zero_f32

theorem accZero1_snd (i : S1x64.Idx) : (accZero1 (F := Ideal)).2 i = 0 := by
  show View.canon ([⟨rS1, k1_pay2 (F := Ideal)⟩] : List (View.Piece (Elt Ideal) S1x64 .f32)) i = 0
  rw [View.canon_unit_zero hz2]
  unfold k1_pay2
  simp only [shapeCast_self, broadcast_apply]
  exact Ideal.ofBits_zero_f32

/-- Inserting coordinate `k` on the reduced axis of the column index `q` gives the index `(k, q)`. -/
theorem lift_ix1 (q : Fin 64) (k : Fin 10000) : reduces_S10000x64_S64.lift (ix1 q) k = ix2 k q := by
  funext a
  match a with
  | ⟨0, _⟩ => rfl
  | ⟨1, _⟩ => rfl

/-- One point adds the block's column sums to the first accumulator, -/
theorem accStep1_fst (x : Vec Ideal S10000x64 .f32) (s : Vec Ideal S1x64 .f32 × Vec Ideal S1x64 .f32) (q : Fin 64) :
    (accStep1 x s).1 (ix2 (0 : Fin 1) q) = s.1 (ix2 (0 : Fin 1) q) + ∑ p : Fin 10000, x (ix2 p q) := by
  show View.canon ([⟨rS1, k1_pay4 (View.ld x rIn1) (View.ld s.1 rS1)⟩] : List (View.Piece (Elt Ideal) S1x64 .f32)) (ix2 (0 : Fin 1) q) = _
  rw [View.canon_unit_zero hz2, View.ld_unit_zero hz2, View.ld_unit_zero hz2]
  unfold k1_pay4 k1_pay3
  simp only [shapeCast_self]
  rw [addf_apply, shapeCast_a_1a_apply]
  congr 1
  refine (Ideal.multiReduction_add_single x 0x00000000#32 reduces_S10000x64_S64 (.inl rfl) rfl (ix1 q)).trans ?_
  exact Finset.sum_congr rfl fun k _ => congrArg x (lift_ix1 q k)

/-- and the column sums of its squares to the second. -/
theorem accStep1_snd (x : Vec Ideal S10000x64 .f32) (s : Vec Ideal S1x64 .f32 × Vec Ideal S1x64 .f32) (q : Fin 64) :
    (accStep1 x s).2 (ix2 (0 : Fin 1) q) = s.2 (ix2 (0 : Fin 1) q) + ∑ p : Fin 10000, x (ix2 p q) * x (ix2 p q) := by
  show View.canon ([⟨rS1, k1_pay5 (View.ld x rIn1) (View.ld s.2 rS1)⟩] : List (View.Piece (Elt Ideal) S1x64 .f32)) (ix2 (0 : Fin 1) q) = _
  rw [View.canon_unit_zero hz2, View.ld_unit_zero hz2, View.ld_unit_zero hz2]
  unfold k1_pay5 k1_pay3
  simp only [shapeCast_self]
  rw [addf_apply, shapeCast_a_1a_apply]
  congr 1
  refine (Ideal.multiReduction_add_single (mulf x x) 0x00000000#32 reduces_S10000x64_S64 (.inl rfl) rfl (ix1 q)).trans ?_
  exact Finset.sum_congr rfl fun k _ => by rw [lift_ix1 q k, mulf_apply]

section Values
variable (V : (c : Dev nD) → (b : Ref sig .tc) → Buf (Elt Ideal) ((c : Thread nD τ).loc b))

/-- The region's input array on core `c`, as a [100000,64] array of ideal values. -/
abbrev x47 (c : Dev nD) : Vec Ideal S100000x64 .f32 := V c main_v47

/-- The input window's block index: the point on the rows, zero on the columns. -/
theorem index1_0 : ∀ t : Fin cfg1.N, win1_0.index t 0 = t.val ∧ win1_0.index t 1 = 0 :=
  (by decide +kernel : ∀ t : Fin grid1.N, win1_0.index t 0 = t.val ∧ win1_0.index t 1 = 0)

/-- Row `p` of the block at point `t` is row `10000 t + p` of the array. -/
theorem iblk1_apply (c : Dev nD) (t : Fin cfg1.N) (p : Fin 10000) (q : Fin 64) (h : t.val * 10000 + p.val < 100000) :
    iblk1 V c 0 t (ix2 p q) = x47 V c (ix2 ⟨t.val * 10000 + p.val, h⟩ q) := by
  show x47 V c (((cfg1.win 0).blk t).view.emb (ix2 p q)) = _
  congr 1
  funext a
  apply Fin.ext
  refine ((cfg1.win 0).rect_emb_val t (ix2 p q) a).trans ?_
  have hi := index1_0 t
  have key : ∀ a : Fin 2, win1_0.index t a * S10000x64.size a + ((ix2 p q : S10000x64.Idx) a).val
      = ((ix2 (⟨t.val * 10000 + p.val, h⟩ : Fin 100000) q : S100000x64.Idx) a).val := by
    intro a
    match a with
    | ⟨0, _⟩ => show win1_0.index t 0 * 10000 + p.val = t.val * 10000 + p.val; rw [hi.1]
    | ⟨1, _⟩ => show win1_0.index t 1 * 64 + q.val = q.val; rw [hi.2]; omega
  exact key a

/-- Row `k` of column `q` of the array, zero past the array's end. -/
def col47 (c : Dev nD) (q : Fin 64) (k : ℕ) : EReal :=
  if h : k < 100000 then x47 V c (ix2 ⟨k, h⟩ q) else 0

/-- After `n` points the first accumulator holds, at column `q`, the sum of the first `n` tiles' column sums. -/
theorem acc1_fst_tiles (c : Dev nD) (q : Fin 64) : ∀ n, n ≤ 10 →
    (acc1 V c n).1 (ix2 (0 : Fin 1) q) = ∑ s ∈ range n, ∑ j : Fin 10000, col47 V c q (10000 * s + j.val)
  | 0, _ => by rw [acc1_zero, accZero1_fst, Finset.sum_range_zero]
  | n + 1, hn => by
    have hlt : n < cfg1.N := by rw [show cfg1.N = 10 from N_1]; omega
    rw [acc1_succ V c ⟨n, hlt⟩, accStep1_fst, acc1_fst_tiles c q n (by omega), Finset.sum_range_succ]
    congr 1
    refine Finset.sum_congr rfl fun p _ => ?_
    have h : n * 10000 + p.val < 100000 := by have := p.isLt; omega
    have h' : 10000 * n + p.val < 100000 := by omega
    rw [iblk1_apply V c ⟨n, hlt⟩ p q h]
    unfold col47
    rw [dif_pos h']
    exact congrArg (fun k : Fin 100000 => x47 V c (ix2 k q)) (Fin.ext (by show n * 10000 + p.val = 10000 * n + p.val; omega))

theorem acc1_snd_tiles (c : Dev nD) (q : Fin 64) : ∀ n, n ≤ 10 →
    (acc1 V c n).2 (ix2 (0 : Fin 1) q) = ∑ s ∈ range n, ∑ j : Fin 10000, col47 V c q (10000 * s + j.val) * col47 V c q (10000 * s + j.val)
  | 0, _ => by rw [acc1_zero, accZero1_snd, Finset.sum_range_zero]
  | n + 1, hn => by
    have hlt : n < cfg1.N := by rw [show cfg1.N = 10 from N_1]; omega
    rw [acc1_succ V c ⟨n, hlt⟩, accStep1_snd, acc1_snd_tiles c q n (by omega), Finset.sum_range_succ]
    congr 1
    refine Finset.sum_congr rfl fun p _ => ?_
    have h : n * 10000 + p.val < 100000 := by have := p.isLt; omega
    have h' : 10000 * n + p.val < 100000 := by omega
    rw [iblk1_apply V c ⟨n, hlt⟩ p q h]
    unfold col47
    rw [dif_pos h']
    exact congrArg (fun k : Fin 100000 => x47 V c (ix2 k q) * x47 V c (ix2 k q)) (Fin.ext (by show n * 10000 + p.val = 10000 * n + p.val; omega))

/-- The first accumulator after the ten points: each column's sum over the 100000 rows. -/
theorem stats_sum (c : Dev nD) (q : Fin 64) :
    (acc1 V c 10).1 (ix2 (0 : Fin 1) q) = ∑ n : Fin 100000, x47 V c (ix2 n q) := by
  rw [acc1_fst_tiles V c q 10 le_rfl]
  exact (Cert.Lib.sum_fin_mul_eq_sum_range 10 10000
    (fun m : Fin (10 * 10000) => x47 V c (ix2 (n0 := 100000) m q)) (col47 V c q)
    (fun m => by unfold col47; rw [dif_pos m.isLt])).symm

/-- The second: each column's sum of squares over the 100000 rows. -/
theorem stats_sumsq (c : Dev nD) (q : Fin 64) :
    (acc1 V c 10).2 (ix2 (0 : Fin 1) q)
      = ∑ n : Fin 100000, x47 V c (ix2 n q) * x47 V c (ix2 n q) := by
  rw [acc1_snd_tiles V c q 10 le_rfl]
  exact (Cert.Lib.sum_fin_mul_eq_sum_range 10 10000
    (fun m : Fin (10 * 10000) => x47 V c (ix2 (n0 := 100000) m q) * x47 V c (ix2 (n0 := 100000) m q))
    (fun k => col47 V c q k * col47 V c q k)
    (fun m => by unfold col47; rw [dif_pos m.isLt])).symm

end Values

end Cert.KernelIdeal.Hand

end
-- ==== Proof.LibFiniteEntries.lean ====
/-
  Finite entries, on the extended reals — general facts for a claim whose precondition says "every float input is finite":

  * the coercion of a finite sum of reals is the sum of the coercions (so an identity between finite sums of products
    of real entries can be proved in `ℝ` and carried back);
  * an extended real whose absolute value `max x (-x)` compares below the float `+∞` is a real;
  * `jnp.all(|a| < +∞)` — a reduction by `and`, over all axes, of that comparison against the broadcast float `+∞` —
    being true makes every entry of `a` a real, for an array `a` of any shape.
-/
import Idealize.ShloMosaic.PureOps.Ideal
import Idealize.ShloMosaic.PureOps.Ideal.Laws
import Idealize.ShloMosaic.Lib.ValueIdx
import Idealize.ShloMosaic.Lib.ReduceAll
import Idealize.ShloMosaic.Lib.Pipeline.Value

noncomputable section

open scoped BigOperators

namespace Idealize.ShloMosaic.FiniteEntries

open Idealize.ShloMosaic Idealize.ShloMosaic.ValueIdx

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The rank-0 shape has one index. -/
instance : Subsingleton (⟨0, ![]⟩ : Shape).Idx := ⟨fun _ _ => funext fun d => d.elim0⟩

/-- An extended real whose absolute value compares below the float `+∞` is a real: `max x (-x)` is `+∞` at both
    infinities. -/
theorem real_of_abs_lt (x : EReal)
    (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  unfold Ideal.cmp at h
  induction x using EReal.rec with
  | bot => simp at h
  | coe r => exact ⟨r, rfl⟩
  | top => simp at h

/-- `jnp.all(|a| < +∞)` being true makes every entry of `a` a real. -/
theorem real_of_all {s : Shape} {axes : List (Fin s.rank)} (a : FVec Ideal s .f32)
    (hb : (⟨0, ![]⟩ : Shape).BroadcastsInDim s (![] : Fin 0 → Fin s.rank)) (hr : s.ReducesTo axes ⟨0, ![]⟩)
    (hu : 0 < (⟨0, ![]⟩ : Shape).numel) (init : (⟨0, ![]⟩ : Shape).Idx → BitVec 1)
    (e : Host.reduce IntOp.andi
          (cmpf .olt (Host.absf a) (broadcastInDim s ![] hb (constant (F := Ideal) ⟨0, ![]⟩ .f32 0x7F800000#32)))
          init hr hu ix0 = 1#1)
    (i : s.Idx) : ∃ r : ℝ, a i = r := by
  have hi := Host.reduce_andi_all _ init hr hu ix0 e i
  refine real_of_abs_lt (a i) ?_
  rw [cmpf_apply, broadcastInDim_apply ![] hb _ i ix0 fun d => d.elim0] at hi
  exact hi

end Idealize.ShloMosaic.FiniteEntries

end
-- ==== Proof.LibVarianceLaw.lean ====
/-
  The population variance two ways, on the extended reals, for real entries.

  For real numbers `r i` over a finite index type of `N` elements, with `S = ∑ r i` and `m = S / N`:

      (∑ r i²) / N − m · m  =  (∑ (r i − m)²) / N ,

  the mean of the squares less the square of the mean is the mean of the squared deviations; and the common value
  is not negative, so clamping the left side at zero changes nothing. On the extended reals the identity needs the
  entries to be real numbers (at an infinite entry the two sides differ), so it is proved in `ℝ` and carried over
  through the coercion; the quotient by `N` is the ideal division by the real `N ≠ 0`, a product with `1 / N`.
-/
import Idealize.ShloMosaic.PureOps.Ideal
import proofs.«135803_j78812649882125_2_alg».proof.Proof.LibFiniteEntries

noncomputable section

open scoped BigOperators

namespace Idealize.ShloMosaic.VarianceLaw

open Idealize.ShloMosaic Idealize.ShloMosaic.FiniteEntries

/-- The sum of the squared deviations from any number `m`, expanded. -/
theorem sum_sq_dev {ι : Type*} [Fintype ι] (r : ι → ℝ) (m : ℝ) :
    ∑ i, (r i - m) * (r i - m) = ∑ i, r i * r i - 2 * m * ∑ i, r i + (Fintype.card ι : ℝ) * (m * m) := by
  have h : ∀ i, (r i - m) * (r i - m) = r i * r i - 2 * m * r i + m * m := fun i => by ring
  rw [Finset.sum_congr rfl fun i _ => h i, Finset.sum_add_distrib, Finset.sum_sub_distrib, ← Finset.mul_sum,
    Finset.sum_const, Finset.card_univ, nsmul_eq_mul]

/-- The identity in `ℝ`, the quotients written as products with `1 / N`. -/
theorem var_real {ι : Type*} [Fintype ι] (N : ℝ) (hN : N ≠ 0) (hc : (Fintype.card ι : ℝ) = N) (r : ι → ℝ) :
    (∑ i, r i * r i) * (1 / N) - (∑ i, r i) * (1 / N) * ((∑ i, r i) * (1 / N))
      = (∑ i, (r i - (∑ j, r j) * (1 / N)) * (r i - (∑ j, r j) * (1 / N))) * (1 / N) := by
  rw [sum_sq_dev, hc]
  field_simp
  ring

/-- The mean of the squared deviations is not negative. -/
theorem var_nonneg {ι : Type*} [Fintype ι] (N : ℝ) (hN : 0 < N) (r : ι → ℝ) (m : ℝ) :
    0 ≤ (∑ i, (r i - m) * (r i - m)) * (1 / N) :=
  mul_nonneg (Finset.sum_nonneg fun i _ => mul_self_nonneg _) (by positivity)

/-- The mean of real entries on the extended reals, as the coercion of the real mean. -/
theorem mean_coe {ι : Type*} [Fintype ι] (N : ℝ) (hN : N ≠ 0) (r : ι → ℝ) :
    Ideal.div (∑ i, (r i : EReal)) (N : EReal) = (((∑ i, r i) * (1 / N) : ℝ) : EReal) := by
  rw [Ideal.div_coe hN, ← coe_sum, ← EReal.coe_mul]

/-- THE LAW on the extended reals, for real entries: the mean of the squares less the square of the mean, clamped at
    zero, is the mean of the squared deviations from the mean. -/
theorem var_law {ι : Type*} [Fintype ι] (N : ℝ) (hN : 0 < N) (hc : (Fintype.card ι : ℝ) = N) (r : ι → ℝ) :
    max (Ideal.div (∑ i, (r i : EReal) * (r i : EReal)) (N : EReal)
          - Ideal.div (∑ i, (r i : EReal)) (N : EReal) * Ideal.div (∑ i, (r i : EReal)) (N : EReal)) 0
      = Ideal.div (∑ i, ((r i : EReal) - Ideal.div (∑ j, (r j : EReal)) (N : EReal))
          * ((r i : EReal) - Ideal.div (∑ j, (r j : EReal)) (N : EReal))) (N : EReal) := by
  have hN' : N ≠ 0 := hN.ne'
  rw [mean_coe N hN' r]
  have hsq : ∀ i, (r i : EReal) * (r i : EReal) = ((r i * r i : ℝ) : EReal) := fun i => (EReal.coe_mul _ _).symm
  have hdev : ∀ i, ((r i : EReal) - (((∑ j, r j) * (1 / N) : ℝ) : EReal)) * ((r i : EReal) - (((∑ j, r j) * (1 / N) : ℝ) : EReal))
      = (((r i - (∑ j, r j) * (1 / N)) * (r i - (∑ j, r j) * (1 / N)) : ℝ) : EReal) := fun i => by
    rw [← EReal.coe_sub, ← EReal.coe_mul]
  rw [Finset.sum_congr rfl fun i _ => hsq i, Finset.sum_congr rfl fun i _ => hdev i, ← coe_sum, ← coe_sum,
    Ideal.div_coe hN', Ideal.div_coe hN', ← EReal.coe_mul, ← EReal.coe_mul, ← EReal.coe_mul, ← EReal.coe_sub,
    var_real N hN' hc r]
  exact max_eq_left (EReal.coe_nonneg.mpr (var_nonneg N hN r _))

end Idealize.ShloMosaic.VarianceLaw

end
-- ==== Proof.LibSegLinear.lean ====
/-
  A segment sum is linear — the law on the extended reals, for real entries — with the closure of "is a real" under
  the operations a layer is made of, and two broadcast reads.

  A SEGMENT SUM takes rows `h e` (one per edge `e`), weights row `e` by a number `v e`, and adds the weighted rows that
  land on a given node. It is linear in the rows, so it commutes with a matrix applied on the right of every row:

      ∑ e landing, v e * (∑ k, h e k * w k)  =  ∑ k, (∑ e landing, v e * h e k) * w k .

  On the extended reals this needs the entries to be real numbers (distributivity fails at the infinities), so the law
  is proved in `ℝ` and carried over through the coercion. The sums start from the accumulator's `0`, as the scatter
  that computes them does.

  Also here: an extended real "is a real" (`IsReal`) and the operations that keep it so — sums, products, maxima and
  conditional terms — with which the reals are followed through a layer; and the reads at an index of the two
  broadcasts that turn a vector of edge weights into a matrix of the messages' shape.
-/
import Idealize.ShloMosaic.PureOps.Ideal
import Idealize.ShloMosaic.Lib.ValueIdx
import Idealize.ShloMosaic.Lib.Pipeline.Value
import proofs.«135803_j78812649882125_2_alg».proof.Proof.LibFiniteEntries

noncomputable section

open scoped BigOperators

namespace Idealize.ShloMosaic.SegLinear

open Idealize.ShloMosaic Idealize.ShloMosaic.ValueIdx Idealize.ShloMosaic.FiniteEntries

/-! ## Extended reals that are reals -/

/-- `x` is (the coercion of) a real number. -/
def IsReal (x : EReal) : Prop := ∃ r : ℝ, x = (r : EReal)

theorem isReal_coe (r : ℝ) : IsReal (r : EReal) := ⟨r, rfl⟩
theorem isReal_zero : IsReal (0 : EReal) := ⟨0, rfl⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.max {x y : EReal} (hx : IsReal x) (hy : IsReal y) : IsReal (max x y) := by
  rcases max_choice x y with h | h <;> rw [h] <;> assumption

theorem IsReal.ite {p : Prop} [Decidable p] {x y : EReal} (hx : IsReal x) (hy : IsReal y) : IsReal (if p then x else y) := by
  split_ifs <;> assumption

theorem isReal_sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-! ## The segment sum is linear -/

theorem coe_ite_zero (p : Prop) [Decidable p] (a : ℝ) :
    (if p then (a : EReal) else 0) = ((if p then a else 0 : ℝ) : EReal) := by
  split_ifs <;> simp

/-- The law in `ℝ`: the matrix passes inside the conditional sum over the edges. -/
theorem seg_matmul_real {E K : Type} [Fintype E] [Fintype K] (land : E → Prop) [DecidablePred land]
    (v : E → ℝ) (h : E → K → ℝ) (w : K → ℝ) :
    ∑ e, (if land e then v e * ∑ k, h e k * w k else 0) = ∑ k, (∑ e, if land e then v e * h e k else 0) * w k := by
  simp only [Finset.sum_mul]
  rw [Finset.sum_comm]
  refine Finset.sum_congr rfl fun e _ => ?_
  split_ifs
  · rw [Finset.mul_sum]; exact Finset.sum_congr rfl fun k _ => (mul_assoc _ _ _).symm
  · simp

/-- The law on the extended reals, for real entries, both sums begun at the accumulator's zero. -/
theorem seg_matmul {E K : Type} [Fintype E] [Fintype K] (land : E → Prop) [DecidablePred land]
    (v : E → ℝ) (h : E → K → ℝ) (w : K → ℝ) :
    (0 : EReal) + ∑ e, (if land e then (v e : EReal) * ∑ k, (h e k : EReal) * (w k : EReal) else 0)
      = ∑ k, ((0 : EReal) + ∑ e, if land e then (v e : EReal) * (h e k : EReal) else 0) * (w k : EReal) := by
  have hL : ∀ e, (if land e then (v e : EReal) * ∑ k, (h e k : EReal) * (w k : EReal) else 0)
      = ((if land e then v e * ∑ k, h e k * w k else 0 : ℝ) : EReal) := fun e => by
    rw [← coe_ite_zero]
    refine if_congr Iff.rfl ?_ rfl
    rw [EReal.coe_mul, coe_sum]
    simp only [EReal.coe_mul]
  have hR : ∀ k e, (if land e then (v e : EReal) * (h e k : EReal) else 0)
      = ((if land e then v e * h e k else 0 : ℝ) : EReal) := fun k e => by
    rw [← coe_ite_zero, EReal.coe_mul]
  rw [zero_add, Finset.sum_congr rfl fun e _ => hL e, ← coe_sum]
  have hk : ∀ k, ((0 : EReal) + ∑ e, if land e then (v e : EReal) * (h e k : EReal) else 0) * (w k : EReal)
      = (((∑ e, if land e then v e * h e k else 0) * w k : ℝ) : EReal) := fun k => by
    rw [zero_add, Finset.sum_congr rfl fun e _ => hR k e, ← coe_sum, ← EReal.coe_mul]
  rw [Finset.sum_congr rfl fun k _ => hk k, ← coe_sum]
  exact congrArg _ (seg_matmul_real land v h w)

/-! ## The weights' broadcasts, read at an index -/

variable {α : Type}

/-- A vector kept as one column: entry `(e, 0)` is the vector's entry `e`. -/
theorem vec_as_column_apply {E : Nat} (hb : (⟨1, ![E]⟩ : Shape).BroadcastsInDim ⟨2, ![E, 1]⟩ ![0])
    (v : (⟨1, ![E]⟩ : Shape).Idx → α) (e : Fin E) (z : Fin 1) :
    broadcastInDim ⟨2, ![E, 1]⟩ ![0] hb v (ix2 e z) = v (ix1 e) :=
  broadcastInDim_apply ![0] hb v (ix2 e z) (ix1 e) fun a => by
    match a with
    | ⟨0, _⟩ =>
      show e.val = if E = 1 then 0 else e.val
      split
      · have := e.isLt; omega
      · rfl

/-- A column repeated along the rows' direction: entry `(e, q)` is the column's entry `e`. -/
theorem column_along_rows_apply {E C : Nat} (hb : (⟨2, ![E, 1]⟩ : Shape).BroadcastsInDim ⟨2, ![E, C]⟩ ![0, 1])
    (u : (⟨2, ![E, 1]⟩ : Shape).Idx → α) (e : Fin E) (q : Fin C) :
    broadcastInDim ⟨2, ![E, C]⟩ ![0, 1] hb u (ix2 e q) = u (ix2 e (0 : Fin 1)) :=
  broadcastInDim_apply ![0, 1] hb u (ix2 e q) (ix2 e (0 : Fin 1)) fun a => by
    match a with
    | ⟨0, _⟩ =>
      show e.val = if E = 1 then 0 else e.val
      split
      · have := e.isLt; omega
      · rfl
    | ⟨1, _⟩ => rfl

end Idealize.ShloMosaic.SegLinear

end
-- ==== Proof.LibBroadcastReads.lean ====
/-
  `broadcast_in_dim` between vectors, one-row, one-column and full matrices, read at an index given by coordinates.

  * a vector `[a]` placed down the rows of a one-column matrix `[a, 1]` (dims = [0]) reads, at `(i, u)`, the vector at `i`;
  * a vector `[b]` placed along the one row of `[1, b]` (dims = [1]) reads, at `(u, j)`, the vector at `j`;
  * a one-column matrix `[a, 1]` repeated along the columns of `[a, b]` (dims = [0, 1]) reads, at `(i, j)`, the column at `i`;
  * a one-row matrix `[1, b]` repeated down the rows of `[a, b]` (dims = [0, 1]) reads, at `(i, j)`, the row at `j`.

  Each is the general read of the operation (the operand at the result's coordinates on the axes the map names, `0` on the
  operand's unit axes) at these shapes, for any extents.
-/
import Idealize.ShloMosaic.Lib.ValueIdx
import Idealize.ShloMosaic.Lib.Pipeline.Value

namespace Idealize.ShloMosaic.BroadcastReads

open Idealize.ShloMosaic Idealize.ShloMosaic.ValueIdx

variable {α : Type}

/-- `[a] → [a, 1]` along axis 0: at `(i, u)` the vector at `i`. -/
theorem vec_to_col_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- `[b] → [1, b]` along axis 1: at `(u, j)` the vector at `j`. -/
theorem vec_to_row_apply {b : ℕ} (x : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h x (ix2 u j) = x (ix1 j) := by
  refine broadcastInDim_apply ![1] h x (ix2 u j) (ix1 j) fun ax => ?_
  match ax with
  | ⟨0, _⟩ =>
    show j.val = if b = 1 then 0 else j.val
    split
    · have := j.isLt; omega
    · rfl

/-- `[a, 1] → [a, b]` in place: at `(i, j)` the column at `i`. -/
theorem col_to_mat_apply {a b : ℕ} (x : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h x (ix2 i j) = x (ix2 i (0 : Fin 1)) := by
  refine broadcastInDim_apply ![0, 1] h x (ix2 i j) (ix2 i (0 : Fin 1)) fun ax => ?_
  match ax with
  | ⟨0, _⟩ =>
    show i.val = if a = 1 then 0 else i.val
    split
    · have := i.isLt; omega
    · rfl
  | ⟨1, _⟩ => rfl

/-- `[1, b] → [a, b]` in place: at `(i, j)` the row at `j`. -/
theorem row_to_mat_apply {a b : ℕ} (x : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h x (ix2 i j) = x (ix2 (0 : Fin 1) j) := by
  refine broadcastInDim_apply ![0, 1] h x (ix2 i j) (ix2 (0 : Fin 1) j) fun ax => ?_
  match ax with
  | ⟨0, _⟩ => rfl
  | ⟨1, _⟩ =>
    show j.val = if b = 1 then 0 else j.val
    split
    · have := j.isLt; omega
    · rfl

end Idealize.ShloMosaic.BroadcastReads
-- ==== Proof.StatsLaw.lean ====
/-
  The kernel's column statistics and normalisation are the reference's, for real entries.

  From the column sums `s` and the column sums of squares `ss` of a feature matrix `H` the kernel's host code takes the
  mean `s / N` and the variance `max (ss / N − mean · mean) 0`; the reference takes the mean of the column and the mean of
  the squared deviations from it. For real entries these agree (the variance law), and then the two normalisations
  — pointwise `max ((h − mean) · rsqrt (var + ε) · γ + β) 0` with the statistics repeated down the rows — are one function.
-/
import proofs.«135803_j78812649882125_2_alg».proof.Proof.NormalizeValue
import proofs.«135803_j78812649882125_2_alg».proof.Proof.RefStages
import proofs.«135803_j78812649882125_2_alg».proof.Proof.LibVarianceLaw
import proofs.«135803_j78812649882125_2_alg».proof.Proof.LibSegLinear
import proofs.«135803_j78812649882125_2_alg».proof.Proof.LibBroadcastReads
import proofs.«135803_j78812649882125_2_alg».proof.Proof.LibRowOps
import Idealize.ShloMosaic.PureOps.Ideal.Laws
import Idealize.ShloMosaic.Lib.ValueLayout

set_option maxRecDepth 16384

noncomputable section

open scoped BigOperators

namespace Cert.KernelIdeal.Hand

open Cert.KernelIdeal Cert.KernelIdeal.Facts₀
open Idealize.ShloMosaic Idealize.ShloMosaic.ValueIdx Idealize.ShloMosaic.SegLinear
open Idealize.SL.Sem

/-- The zero word denotes 0. -/
theorem ofBits_zero : Ideal.ofBits .f32 0x00000000#32 = 0 := by
  simp [Ideal.ofBits, Ideal.ieee]

/-- The word of `100000.0` denotes the real 100000. -/
theorem ofBits_rows : Ideal.ofBits .f32 0x47C35000#32 = ((100000 : ℝ) : EReal) := by
  simp [Ideal.ofBits, Ideal.ieee, -EReal.coe_mul]; norm_num

/-- The column means from the column sums kept as one row. -/
def meanK (s : FVec Ideal S1x64 .f32) : FVec Ideal S64 .f32 :=
  Host.divf (F := Ideal) (shapeCast S64 s shapeCasts_S1x64_S64)
    (broadcastInDim S64 ![] bcast_S_S64 (constant (F := Ideal) S_ .f32 0x47C35000#32))

/-- The column variances from the column sums and the column sums of squares: the mean of the squares less the
    square of the mean, clamped at zero. -/
def varK (s ss : FVec Ideal S1x64 .f32) : FVec Ideal S64 .f32 :=
  maximumf (F := Ideal)
    (subf (F := Ideal)
      (Host.divf (F := Ideal) (shapeCast S64 ss shapeCasts_S1x64_S64)
        (broadcastInDim S64 ![] bcast_S_S64 (constant (F := Ideal) S_ .f32 0x47C35000#32)))
      (mulf (F := Ideal) (meanK s) (meanK s)))
    (broadcastInDim S64 ![] bcast_S_S64 (constant (F := Ideal) S_ .f32 0x00000000#32))

theorem meanK_apply (s : FVec Ideal S1x64 .f32) (q : Fin 64) :
    meanK s (ix1 q) = Ideal.div (s (ix2 (0 : Fin 1) q)) ((100000 : ℝ) : EReal) := by
  unfold meanK
  show Ideal.div (shapeCast S64 s shapeCasts_S1x64_S64 (ix1 q)) (broadcastInDim S64 ![] bcast_S_S64 (constant (F := Ideal) S_ .f32 0x47C35000#32) (ix1 q)) = _
  rw [shapeCast_1a_a_apply, RowOps.broadcastInDim_scalar_apply, constant_apply, ofBits_rows]

theorem varK_apply (s ss : FVec Ideal S1x64 .f32) (q : Fin 64) :
    varK s ss (ix1 q) = max (Ideal.div (ss (ix2 (0 : Fin 1) q)) ((100000 : ℝ) : EReal)
      - Ideal.div (s (ix2 (0 : Fin 1) q)) ((100000 : ℝ) : EReal) * Ideal.div (s (ix2 (0 : Fin 1) q)) ((100000 : ℝ) : EReal)) 0 := by
  unfold varK
  show max (Ideal.div (shapeCast S64 ss shapeCasts_S1x64_S64 (ix1 q)) (broadcastInDim S64 ![] bcast_S_S64 (constant (F := Ideal) S_ .f32 0x47C35000#32) (ix1 q))
      - meanK s (ix1 q) * meanK s (ix1 q)) (broadcastInDim S64 ![] bcast_S_S64 (constant (F := Ideal) S_ .f32 0x00000000#32) (ix1 q)) = _
  rw [shapeCast_1a_a_apply, RowOps.broadcastInDim_scalar_apply, RowOps.broadcastInDim_scalar_apply, constant_apply, constant_apply,
    ofBits_rows, ofBits_zero, meanK_apply]

section Reference

open Cert.ReferenceIdeal.Hand

/-- The reference's column sum, read at a column: the sum of the column's entries. -/
theorem colsum_apply (H : Arr Cert.ReferenceIdeal.S100000x64 .f32) (hr : Cert.ReferenceIdeal.S100000x64.ReducesTo [0] Cert.ReferenceIdeal.S64)
    (hu : 0 < Cert.ReferenceIdeal.S_.numel) (q : Fin 64) :
    Host.reduceAdd (F := Ideal) H (constant (F := Ideal) Cert.ReferenceIdeal.S_ .f32 0x00000000#32) hr hu (ix1 q)
      = ∑ n : Fin 100000, H (ix2 n q) := by
  unfold Host.reduceAdd
  refine (Ideal.hostReduceAdd_single hr (by decide) H _ (ix1 q)).trans ?_
  rw [constant_apply, ofBits_zero, zero_add]
  refine Finset.sum_congr rfl fun n _ => congrArg H ?_
  funext a
  match a with
  | ⟨0, _⟩ => rfl
  | ⟨1, _⟩ => rfl

/-- A row vector repeated down the rows, read at an entry. -/
theorem rows_apply (v : Arr Cert.ReferenceIdeal.S64 .f32) (n : Fin 100000) (q : Fin 64) : rows v (ix2 n q) = v (ix1 q) := by
  unfold rows
  rw [BroadcastReads.row_to_mat_apply, BroadcastReads.vec_to_row_apply]

theorem mean_apply (H : Arr Cert.ReferenceIdeal.S100000x64 .f32) (q : Fin 64) :
    mean H (ix1 q) = Ideal.div (∑ n : Fin 100000, H (ix2 n q)) ((100000 : ℝ) : EReal) := by
  unfold mean
  show Ideal.div (Host.reduceAdd (F := Ideal) H _ _ _ (ix1 q)) (broadcastInDim Cert.ReferenceIdeal.S64 ![] _ (constant (F := Ideal) Cert.ReferenceIdeal.S_ .f32 0x47C35000#32) (ix1 q)) = _
  rw [colsum_apply, RowOps.broadcastInDim_scalar_apply, constant_apply, ofBits_rows]

/-- The variance's divisor is the real 100000. -/
theorem varDen_apply : varDen ix0 = ((100000 : ℝ) : EReal) := by
  unfold varDen
  show Ideal.ofBits .f32 0x47C35000#32 - (((0#32 : BitVec 32).toInt : ℝ) : EReal) = _
  rw [ofBits_rows]
  simp

theorem var_apply (H : Arr Cert.ReferenceIdeal.S100000x64 .f32) (q : Fin 64) :
    var H (ix1 q) = Ideal.div (∑ n : Fin 100000,
        (H (ix2 n q) - Ideal.div (∑ k : Fin 100000, H (ix2 k q)) ((100000 : ℝ) : EReal))
        * (H (ix2 n q) - Ideal.div (∑ k : Fin 100000, H (ix2 k q)) ((100000 : ℝ) : EReal))) ((100000 : ℝ) : EReal) := by
  unfold var
  rw [select_apply, RowOps.broadcastInDim_scalar_apply, RowOps.broadcastInDim_scalar_apply]
  have hc : cmpf (F := Ideal) .ogt varDen (constant (F := Ideal) Cert.ReferenceIdeal.S_ .f32 0x00000000#32) ix0 = 1#1 := by
    rw [cmpf_apply, varDen_apply, constant_apply, ofBits_zero]
    show Ideal.cmp .ogt ((100000 : ℝ) : EReal) 0 = 1#1
    unfold Ideal.cmp
    have : (0 : EReal) < ((100000 : ℝ) : EReal) := by exact_mod_cast (by norm_num : (0 : ℝ) < 100000)
    simp [this]
  rw [hc, select_one]
  show Ideal.div (Host.reduceAdd (F := Ideal) _ _ _ _ (ix1 q)) (varDen ix0) = _
  rw [colsum_apply, varDen_apply]
  refine congrArg (fun x => Ideal.div x ((100000 : ℝ) : EReal)) ?_
  refine Finset.sum_congr rfl fun n _ => ?_
  have hd : ∀ (n : Fin 100000), (broadcastInDim Cert.ReferenceIdeal.S100000x64 ![0, 1] Cert.ReferenceIdeal.Facts₀.bcast_S1x64_S100000x64_0_1
      (Host.divf (F := Ideal)
        (broadcastInDim Cert.ReferenceIdeal.S1x64 ![1] Cert.ReferenceIdeal.Facts₀.bcast_S64_S1x64_1
          (Host.reduceAdd (F := Ideal) H (constant (F := Ideal) Cert.ReferenceIdeal.S_ .f32 0x00000000#32) Cert.ReferenceIdeal.Facts₀.reducesTo_S100000x64_S64_d0 Cert.ReferenceIdeal.Facts₀.h_S_))
        (broadcastInDim Cert.ReferenceIdeal.S1x64 ![] Cert.ReferenceIdeal.Facts₀.bcast_S_S1x64 (constant (F := Ideal) Cert.ReferenceIdeal.S_ .f32 0x47C35000#32)))) (ix2 n q)
      = Ideal.div (∑ k : Fin 100000, H (ix2 k q)) ((100000 : ℝ) : EReal) := fun n => by
    rw [BroadcastReads.row_to_mat_apply]
    rw [show ∀ (a b : FVec Ideal Cert.ReferenceIdeal.S1x64 .f32) (j : Cert.ReferenceIdeal.S1x64.Idx), Host.divf (F := Ideal) a b j = Ideal.div (a j) (b j) from fun _ _ _ => rfl,
      BroadcastReads.vec_to_row_apply, colsum_apply, RowOps.broadcastInDim_scalar_apply, constant_apply, ofBits_rows]
  show (H (ix2 n q) - _) * (H (ix2 n q) - _) = _
  rw [hd n]

end Reference

/-- The kernel's normalised features at an entry, spelt out. -/
theorem normRows_apply (H : FVec Ideal S100000x64 .f32) (mu2 var2 g2 b2 : FVec Ideal S1x64 .f32) (n : Fin 100000) (q : Fin 64) :
    normRows H mu2 var2 g2 b2 (ix2 n q)
      = max ((H (ix2 n q) - mu2 (ix2 (0 : Fin 1) q)) * FloatOps.rsqrt (F := Ideal) (var2 (ix2 (0 : Fin 1) q) + Scalar.ofBits (F := Ideal) .f32 0x3727C5AC#32) * g2 (ix2 (0 : Fin 1) q)
          + b2 (ix2 (0 : Fin 1) q)) (Scalar.ofBits (F := Ideal) .f32 0x00000000#32) := rfl

section Join

open Cert.ReferenceIdeal.Hand

/-- THE NORMALISATIONS ARE ONE FUNCTION: from the column sums and the column sums of squares of a matrix of real
    entries, the kernel's mean and clamped variance are the reference's mean and variance, and the pointwise
    normalisation with them, scaled, shifted and clamped at zero, is the reference's. -/
theorem norm_law (H : Arr Cert.ReferenceIdeal.S100000x64 .f32) (g beta : Arr Cert.ReferenceIdeal.S64 .f32) (s ss : FVec Ideal S1x64 .f32)
    (hs : ∀ q : Fin 64, s (ix2 (0 : Fin 1) q) = ∑ n : Fin 100000, H (ix2 n q))
    (hss : ∀ q : Fin 64, ss (ix2 (0 : Fin 1) q) = ∑ n : Fin 100000, H (ix2 n q) * H (ix2 n q))
    (hH : ∀ i, IsReal (H i)) :
    normRows H (shapeCast S1x64 (meanK s) shapeCasts_S64_S1x64) (shapeCast S1x64 (varK s ss) shapeCasts_S64_S1x64)
      (shapeCast S1x64 g shapeCasts_S64_S1x64) (shapeCast S1x64 beta shapeCasts_S64_S1x64)
    = bn H (mean H) (var H) g beta := by
  funext i
  obtain ⟨n, q, rfl⟩ : ∃ (n : Fin 100000) (q : Fin 64), i = ix2 n q := ⟨i 0, i 1, eq_ix2 i⟩
  choose r hr using fun k : Fin 100000 => hH (ix2 k q)
  have hmean : meanK s (ix1 q) = mean H (ix1 q) := by rw [meanK_apply, mean_apply, hs]
  have hvar : varK s ss (ix1 q) = var H (ix1 q) := by
    rw [varK_apply, var_apply, hs, hss]
    simp only [hr]
    exact VarianceLaw.var_law (ι := Fin 100000) 100000 (by norm_num) (by simp) r
  rw [normRows_apply]
  simp only [shapeCast_a_1a_apply, hmean, hvar]
  unfold bn
  simp only [maximumf_apply, addf_apply, mulf_apply, subf_apply, rows_apply]
  rfl

end Join

end Cert.KernelIdeal.Hand

end
-- ==== Proof.KernelValue.lean ====
/-
  The idealized kernel's result is the reference's function of the arguments.

  The run leaves every buffer at the last boundary's contents; read back boundary by boundary: the first stretch
  of host operations computes the edge rows and the nodes' normalizers; the first region leaves the first dense
  layer; the second stretch is the first neighbourhood sum; the statistics region leaves the column sums and the
  column sums of squares; the third stretch turns them into the mean and the clamped variance, kept as one-row
  matrices beside the scale and the shift; the normalising region leaves the normalised features, which for real
  entries are the reference's batch normalisation; the last region is the second dense layer and the last stretch
  the second neighbourhood sum.
-/
import proofs.«135803_j78812649882125_2_alg».proof.Proof.ProgramRun
import proofs.«135803_j78812649882125_2_alg».proof.Proof.Linear1Value
import proofs.«135803_j78812649882125_2_alg».proof.Proof.Linear2Value
import proofs.«135803_j78812649882125_2_alg».proof.Proof.NormalizeValue
import proofs.«135803_j78812649882125_2_alg».proof.Proof.StatsValue
import proofs.«135803_j78812649882125_2_alg».proof.Proof.StatsLaw
import proofs.«135803_j78812649882125_2_alg».proof.Proof.RefStages
import Idealize.ShloMosaic.Lib.StableHlo.Run

set_option maxRecDepth 16384

noncomputable section

open scoped BigOperators

namespace Cert.KernelIdeal.Hand

open Cert.KernelIdeal Cert.KernelIdeal.Gen Cert.KernelIdeal.Facts₀
open Idealize.ShloMosaic Idealize.ShloMosaic.TcCoe Idealize.ShloMosaic.ValueIdx Idealize.ShloMosaic.SegLinear
open Idealize.SL.Sem

variable (m : (ℓ : Loc nD τ sig) → Buf (Elt Ideal) ℓ) (ρ : Dev nD → PrngReg)

/-! ## The first stretch: the edge rows and the normalizers -/

theorem W1_keep (c : Dev nD) (b : Ref sig .tc) (hb : b ∉ hostOps0_W) :
    W1 m ρ c (Proc.devRef .tc b) = m ((c : Thread nD τ).loc b) :=
  StableHlo.after_of_writes_sub hostOps0 _ hostOps0_writes hb

theorem W1_src (c : Dev nD) : W1 m ρ c (Proc.devRef .tc main_v1) = Cert.ReferenceIdeal.Hand.src (m ((c : Thread nD τ).loc main_arg1)) := by
  dsimp only [W1, hostOps0]
  after_results
  rfl

theorem W1_dst (c : Dev nD) : W1 m ρ c (Proc.devRef .tc main_v3) = Cert.ReferenceIdeal.Hand.dst (m ((c : Thread nD τ).loc main_arg1)) := by
  dsimp only [W1, hostOps0]
  after_results
  rfl

theorem W1_dis (c : Dev nD) : W1 m ρ c (Proc.devRef .tc main_v10) = Cert.ReferenceIdeal.Hand.dis (m ((c : Thread nD τ).loc main_arg1)) := by
  dsimp only [W1, hostOps0]
  after_results
  rfl

/-! ## The first region: the first dense layer -/

theorem W2_lin (c : Dev nD) : W2 m ρ c (Proc.devRef .tc main_v11)
    = Cert.ReferenceIdeal.Hand.lin1 (m ((c : Thread nD τ).loc main_arg0)) (m ((c : Thread nD τ).loc main_arg2)) :=
  (W2_arr m ρ c 2).trans ((final0_2 (V1 m ρ) c).trans
    (congrArg₂ Cert.ReferenceIdeal.Hand.lin1 (W1_keep m ρ c main_arg0 (by decide)) (W1_keep m ρ c main_arg2 (by decide))))

theorem W2_keep (c : Dev nD) (b : Ref sig .tc) (hb : ∀ w, Pipeline.arrRef spec0 w ≠ b) :
    W2 m ρ c (Proc.devRef .tc b) = W1 m ρ c (Proc.devRef .tc b) := W2_of_ne m ρ c b hb

/-! ## The second stretch: the first neighbourhood sum -/

theorem W3_keep (c : Dev nD) (b : Ref sig .tc) (hb : b ∉ hostOps1_W) :
    W3 m ρ c (Proc.devRef .tc b) = W2 m ρ c (Proc.devRef .tc b) :=
  StableHlo.after_of_writes_sub hostOps1 _ hostOps1_writes hb

set_option maxHeartbeats 8000000 in
theorem W3_agg (c : Dev nD) : W3 m ρ c (Proc.devRef .tc main_v47)
    = Cert.ReferenceIdeal.Hand.aggregateOn (W2 m ρ c (Proc.devRef .tc main_v11)) (W2 m ρ c (Proc.devRef .tc main_arg3))
        (W2 m ρ c (Proc.devRef .tc main_v1)) (W2 m ρ c (Proc.devRef .tc main_v3)) (W2 m ρ c (Proc.devRef .tc main_v10)) := by
  dsimp only [W3, hostOps1]
  after_results
  rfl

/-- The hidden features after the first layer are the reference's. -/
theorem W3_h1 (c : Dev nD) : W3 m ρ c (Proc.devRef .tc main_v47)
    = Cert.ReferenceIdeal.Hand.h1 (m ((c : Thread nD τ).loc main_arg0)) (m ((c : Thread nD τ).loc main_arg1))
        (m ((c : Thread nD τ).loc main_arg2)) (m ((c : Thread nD τ).loc main_arg3)) := by
  rw [W3_agg, W2_lin, W2_keep m ρ c main_arg3 (by decide), W1_keep m ρ c main_arg3 (by decide),
    W2_keep m ρ c main_v1 (by decide), W1_src, W2_keep m ρ c main_v3 (by decide), W1_dst,
    W2_keep m ρ c main_v10 (by decide), W1_dis]
  rfl

/-! ## The statistics region -/

theorem W4_keep (c : Dev nD) (b : Ref sig .tc) (hb : ∀ w, Pipeline.arrRef spec1 w ≠ b) :
    W4 m ρ c (Proc.devRef .tc b) = W3 m ρ c (Proc.devRef .tc b) := W4_of_ne m ρ c b hb

theorem W4_sum (c : Dev nD) : W4 m ρ c (Proc.devRef .tc main_v48_0) = (acc1 (V3 m ρ) c 10).1 :=
  (W4_arr m ρ c 1).trans (final1_1 (V3 m ρ) c)

theorem W4_sumsq (c : Dev nD) : W4 m ρ c (Proc.devRef .tc main_v48_1) = (acc1 (V3 m ρ) c 10).2 :=
  (W4_arr m ρ c 2).trans (final1_2 (V3 m ρ) c)

/-! ## The third stretch: the mean and the clamped variance, as one-row matrices -/

theorem W5_keep (c : Dev nD) (b : Ref sig .tc) (hb : b ∉ hostOps2_W) :
    W5 m ρ c (Proc.devRef .tc b) = W4 m ρ c (Proc.devRef .tc b) :=
  StableHlo.after_of_writes_sub hostOps2 _ hostOps2_writes hb

theorem W5_mean (c : Dev nD) : W5 m ρ c (Proc.devRef .tc main_v59)
    = shapeCast S1x64 (meanK (W4 m ρ c (Proc.devRef .tc main_v48_0))) Facts₀.shapeCasts_S64_S1x64 := by
  dsimp only [W5, hostOps2]
  after_results
  rfl

theorem W5_var (c : Dev nD) : W5 m ρ c (Proc.devRef .tc main_v60)
    = shapeCast S1x64 (varK (W4 m ρ c (Proc.devRef .tc main_v48_0)) (W4 m ρ c (Proc.devRef .tc main_v48_1))) Facts₀.shapeCasts_S64_S1x64 := by
  dsimp only [W5, hostOps2]
  after_results
  rfl

theorem W5_scale (c : Dev nD) : W5 m ρ c (Proc.devRef .tc main_v61)
    = shapeCast S1x64 (W4 m ρ c (Proc.devRef .tc main_arg4)) Facts₀.shapeCasts_S64_S1x64 := by
  dsimp only [W5, hostOps2]
  after_results
  rfl

theorem W5_shift (c : Dev nD) : W5 m ρ c (Proc.devRef .tc main_v62)
    = shapeCast S1x64 (W4 m ρ c (Proc.devRef .tc main_arg5)) Facts₀.shapeCasts_S64_S1x64 := by
  dsimp only [W5, hostOps2]
  after_results
  rfl

/-- An argument no item writes, read at the statistics region's exit. -/
theorem W4_arg (c : Dev nD) (b : Ref sig .tc) (h0 : b ∉ hostOps0_W) (h1 : ∀ w, Pipeline.arrRef spec0 w ≠ b) (h2 : b ∉ hostOps1_W)
    (h3 : ∀ w, Pipeline.arrRef spec1 w ≠ b) : W4 m ρ c (Proc.devRef .tc b) = m ((c : Thread nD τ).loc b) :=
  (W4_keep m ρ c b h3).trans ((W3_keep m ρ c b h2).trans ((W2_keep m ρ c b h1).trans (W1_keep m ρ c b h0)))

/-! ## The normalising region -/

theorem W6_keep (c : Dev nD) (b : Ref sig .tc) (hb : ∀ w, Pipeline.arrRef spec2 w ≠ b) :
    W6 m ρ c (Proc.devRef .tc b) = W5 m ρ c (Proc.devRef .tc b) := W6_of_ne m ρ c b hb

theorem W6_norm (c : Dev nD) : W6 m ρ c (Proc.devRef .tc main_v63)
    = normRows (W5 m ρ c (Proc.devRef .tc main_v47)) (W5 m ρ c (Proc.devRef .tc main_v59)) (W5 m ρ c (Proc.devRef .tc main_v60))
        (W5 m ρ c (Proc.devRef .tc main_v61)) (W5 m ρ c (Proc.devRef .tc main_v62)) :=
  (W6_arr m ρ c 5).trans (final2_5 (V5 m ρ) c)

/-- The hidden features reach the normalising region as the first layer left them. -/
theorem W5_h1 (c : Dev nD) : W5 m ρ c (Proc.devRef .tc main_v47) = W3 m ρ c (Proc.devRef .tc main_v47) :=
  (W5_keep m ρ c main_v47 (by decide)).trans (((W4_arr m ρ c 0).trans (final1_0 (V3 m ρ) c)))

/-- The normalised features are the reference's batch normalisation of the first layer's output, when that output's
    entries are reals. -/
theorem W6_bn (c : Dev nD)
    (hreal : ∀ i, IsReal (Cert.ReferenceIdeal.Hand.h1 (m ((c : Thread nD τ).loc main_arg0)) (m ((c : Thread nD τ).loc main_arg1))
      (m ((c : Thread nD τ).loc main_arg2)) (m ((c : Thread nD τ).loc main_arg3)) i)) :
    W6 m ρ c (Proc.devRef .tc main_v63)
      = Cert.ReferenceIdeal.Hand.bn (Cert.ReferenceIdeal.Hand.h1 (m ((c : Thread nD τ).loc main_arg0)) (m ((c : Thread nD τ).loc main_arg1)) (m ((c : Thread nD τ).loc main_arg2)) (m ((c : Thread nD τ).loc main_arg3)))
          (Cert.ReferenceIdeal.Hand.mean (Cert.ReferenceIdeal.Hand.h1 (m ((c : Thread nD τ).loc main_arg0)) (m ((c : Thread nD τ).loc main_arg1)) (m ((c : Thread nD τ).loc main_arg2)) (m ((c : Thread nD τ).loc main_arg3))))
          (Cert.ReferenceIdeal.Hand.var (Cert.ReferenceIdeal.Hand.h1 (m ((c : Thread nD τ).loc main_arg0)) (m ((c : Thread nD τ).loc main_arg1)) (m ((c : Thread nD τ).loc main_arg2)) (m ((c : Thread nD τ).loc main_arg3))))
          (m ((c : Thread nD τ).loc main_arg4)) (m ((c : Thread nD τ).loc main_arg5)) := by
  have hV3 : V3 m ρ c main_v47 = Cert.ReferenceIdeal.Hand.h1 (m ((c : Thread nD τ).loc main_arg0)) (m ((c : Thread nD τ).loc main_arg1))
      (m ((c : Thread nD τ).loc main_arg2)) (m ((c : Thread nD τ).loc main_arg3)) := W3_h1 m ρ c
  rw [W6_norm, W5_h1, W3_h1, W5_mean, W5_var, W5_scale, W5_shift, W4_sum, W4_sumsq,
    W4_arg m ρ c main_arg4 (by decide) (by decide) (by decide) (by decide),
    W4_arg m ρ c main_arg5 (by decide) (by decide) (by decide) (by decide)]
  refine norm_law _ _ _ _ _ (fun q => ?_) (fun q => ?_) hreal
  · rw [stats_sum]; exact Finset.sum_congr rfl fun n _ => congrFun hV3 (ix2 n q)
  · rw [stats_sumsq]; exact Finset.sum_congr rfl fun n _ => by rw [show x47 (V3 m ρ) c = _ from hV3]

/-! ## The last region and the last stretch -/

theorem W7_keep (c : Dev nD) (b : Ref sig .tc) (hb : ∀ w, Pipeline.arrRef spec3 w ≠ b) :
    W7 m ρ c (Proc.devRef .tc b) = W6 m ρ c (Proc.devRef .tc b) := W7_of_ne m ρ c b hb

/-- A buffer of the first stretch or an argument that nothing later writes, read at the last region's exit. -/
theorem W7_early (c : Dev nD) (b : Ref sig .tc) (h1 : ∀ w, Pipeline.arrRef spec0 w ≠ b) (h2 : b ∉ hostOps1_W)
    (h3 : ∀ w, Pipeline.arrRef spec1 w ≠ b) (h4 : b ∉ hostOps2_W) (h5 : ∀ w, Pipeline.arrRef spec2 w ≠ b)
    (h6 : ∀ w, Pipeline.arrRef spec3 w ≠ b) : W7 m ρ c (Proc.devRef .tc b) = W1 m ρ c (Proc.devRef .tc b) :=
  (W7_keep m ρ c b h6).trans ((W6_keep m ρ c b h5).trans ((W5_keep m ρ c b h4).trans ((W4_keep m ρ c b h3).trans
    ((W3_keep m ρ c b h2).trans (W2_keep m ρ c b h1)))))

theorem W6_arg6 (c : Dev nD) : W6 m ρ c (Proc.devRef .tc main_arg6) = m ((c : Thread nD τ).loc main_arg6) :=
  (W6_keep m ρ c main_arg6 (by decide)).trans ((W5_keep m ρ c main_arg6 (by decide)).trans
    (W4_arg m ρ c main_arg6 (by decide) (by decide) (by decide) (by decide)))

theorem W7_lin (c : Dev nD) : W7 m ρ c (Proc.devRef .tc main_v64)
    = Cert.ReferenceIdeal.Hand.lin2 (W6 m ρ c (Proc.devRef .tc main_v63)) (m ((c : Thread nD τ).loc main_arg6)) :=
  (W7_arr m ρ c 2).trans ((final3_2 (V6 m ρ) c).trans (congrArg (Cert.ReferenceIdeal.Hand.lin2 (W6 m ρ c (Proc.devRef .tc main_v63))) (W6_arg6 m ρ c)))

set_option maxHeartbeats 8000000 in
theorem W8_agg (c : Dev nD) : W8 m ρ c (Proc.devRef .tc main_v100)
    = Cert.ReferenceIdeal.Hand.aggregateOn (W7 m ρ c (Proc.devRef .tc main_v64)) (W7 m ρ c (Proc.devRef .tc main_arg7))
        (W7 m ρ c (Proc.devRef .tc main_v1)) (W7 m ρ c (Proc.devRef .tc main_v3)) (W7 m ρ c (Proc.devRef .tc main_v10)) := by
  dsimp only [W8, hostOps4]
  after_results
  rfl

/-- THE KERNEL'S RESULT is the reference's function of the eight arguments, when the first layer's output has real entries. -/
theorem W8_out (c : Dev nD)
    (hreal : ∀ i, IsReal (Cert.ReferenceIdeal.Hand.h1 (m ((c : Thread nD τ).loc main_arg0)) (m ((c : Thread nD τ).loc main_arg1))
      (m ((c : Thread nD τ).loc main_arg2)) (m ((c : Thread nD τ).loc main_arg3)) i)) :
    W8 m ρ c (Proc.devRef .tc main_v100)
      = Cert.ReferenceIdeal.Hand.out (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  rw [W8_agg, W7_lin, W6_bn m ρ c hreal,
    W7_early m ρ c main_arg7 (by decide) (by decide) (by decide) (by decide) (by decide) (by decide), W1_keep m ρ c main_arg7 (by decide),
    W7_early m ρ c main_v1 (by decide) (by decide) (by decide) (by decide) (by decide) (by decide), W1_src,
    W7_early m ρ c main_v3 (by decide) (by decide) (by decide) (by decide) (by decide) (by decide), W1_dst,
    W7_early m ρ c main_v10 (by decide) (by decide) (by decide) (by decide) (by decide) (by decide), W1_dis]
  rfl

end Cert.KernelIdeal.Hand

end
-- ==== Proof.Bits.Linear1Region.lean ====
/-
  Pipeline 0 of the program (the first linear layer: a row tile of the features times the whole weight matrix), at the buffer contents `V` the region is entered with:
  each window's block at a grid point, what the body leaves in the output window's buffer as a
  pure function of the input blocks, the body's triple, and the proof data with its body obligation.
-/
import proofs.«135803_j78812649882125_2_alg».proof.Proof.Gen.Kernel.Launch
import proofs.«135803_j78812649882125_2_alg».proof.Proof.Gen.Kernel.Skeleton
import proofs.«135803_j78812649882125_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_S10000x128 : Rect S10000x128 := Rect.unit (s := S10000x128) ![0, 0] S10000x128.size inb_S10000x128_S10000x128_0_0
abbrev r0_S128x64 : Rect S128x64 := Rect.unit (s := S128x64) ![0, 0] S128x64.size inb_S128x64_S128x64_0_0
abbrev r0_S10000x64 : Rect S10000x64 := Rect.unit (s := S10000x64) ![0, 0] S10000x64.size inb_S10000x64_S10000x64_0_0

/-- The output window's staging buffer after the body, from the input windows' blocks: its one store over the whole buffer. -/
def out0_2 (x0 : Vec F S10000x128 .f32) (x1 : Vec F S128x64 .f32) : Vec F S10000x64 .f32 :=
  View.canon [⟨r0_S10000x64, k0_pay1 (View.ld x0 r0_S10000x128) (View.ld x1 r0_S128x64)⟩]

/-- The store covers the buffer. -/
theorem cover0_2 (p0 : Vec F S10000x64 .f32) (y : S10000x64.Idx) :
    ∃ pc ∈ ([⟨r0_S10000x64, p0⟩] : List (View.Piece (Elt F) S10000x64 .f32)), y ∈ pc.1.set :=
  View.cover_of_tiled [⟨r0_S10000x64, p0⟩] S10000x64.size (by rfl) y

set_option maxHeartbeats 1000000 in
/-- The body on whole staging memrefs, the inputs' at known contents and the output's at anything, runs to the
    continuation holding the inputs' as they were and the output's at `out0_2` of the inputs'. -/
theorem sound_kernel0 (c : Dev nD) (E : Set ℕ) (i : grid0.Coords) (arg1 : Memref sig .tc .vmem S10000x128 .f32) (harg1 : arg1.IsWhole) (arg2 : Memref sig .tc .vmem S128x64 .f32) (harg2 : arg2.IsWhole) (arg3 : Memref sig .tc .vmem S10000x64 .f32) (harg3 : arg3.IsWhole)
    (x0 : Vec F S10000x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core `c`: the arrays as the region finds them; after the body at point `t`
    each input's buffer at its block and the output's at `out0_2` of the input blocks; the invariant is the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Bits.StatsRegion.lean ====
import proofs.«135803_j78812649882125_2_alg».proof.Proof.Gen.Kernel.Launch
import proofs.«135803_j78812649882125_2_alg».proof.Proof.Gen.Kernel.Skeleton
import proofs.«135803_j78812649882125_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The statistics region (custom_call 1): column sums and column sums of squares of a [100000,64] array,
    accumulated over 10 row tiles in two [1,64] scratch buffers and copied to the two outputs at the last tile -/

/-! ## The body's accesses, and what a covering store leaves -/

/-- The rectangles of the body's loads and stores: each the whole buffer. -/
abbrev rIn1 : Rect S10000x64 := Rect.unit (s := S10000x64) ![0, 0] S10000x64.size inb_S10000x64_S10000x64_0_0
abbrev rS1 : Rect S1x64 := Rect.unit (s := S1x64) ![0, 0] S1x64.size inb_S1x64_S1x64_0_0

/-- The two scratch buffers as memrefs. -/
abbrev scM1_0 : Memref sig .tc .vmem S1x64 .f32 := Memref.whole cc1_scratch0
abbrev scM1_1 : Memref sig .tc .vmem S1x64 .f32 := Memref.whole cc1_scratch1

/-- Every index of the [1,64] buffer lies in the whole-buffer rectangle. -/
theorem cover_rS1 (y : S1x64.Idx) : y ∈ rS1.set := by
  obtain ⟨p, hm, hy⟩ := View.cover_of_tiled (Val := fun _ => Unit) (e := .f32) [⟨rS1, fun _ => ()⟩] S1x64.size (by rfl) y
  rw [List.mem_singleton] at hm; subst hm; exact hy

/-- After a last write through a rectangle that covers the shape, a view reads that write's payload alone. -/
theorem read_writes_cons_of_cover {κ : Kind} {sp : Space} {s : Shape} {e : EltTy} {Val : EltTy → Type} [∀ e, Nonempty (Val e)]
    (v : View sig κ sp s e) (f : v.ty.Contents Val) (r : Rect s) (hr : ∀ y, y ∈ r.set) (w : r.shape.Idx → Val e)
    (L : List (View.Piece Val s e)) :
    v.read Val (v.writes Val f (⟨r, w⟩ :: L)) = View.canon [⟨r, w⟩] := by
  funext y
  obtain ⟨x, rfl⟩ : ∃ x, r.emb x = y := r.exists_idx_of_mem (hr y)
  rw [View.read_writes_cons_emb, View.canon_cons_emb]

/-- Contents loaded through a covering rectangle and stored back through it are the contents. -/
theorem canon_ld_of_cover {s : Shape} {e : EltTy} {Val : EltTy → Type} [∀ e, Nonempty (Val e)]
    (r : Rect s) (hr : ∀ y, y ∈ r.set) (X : s.Idx → Val e) : View.canon [⟨r, View.ld X r⟩] = X := by
  funext y
  obtain ⟨x, rfl⟩ : ∃ x, r.emb x = y := r.exists_idx_of_mem (hr y)
  rw [View.canon_cons_emb]
  rfl

theorem cover1_S1 {Val : EltTy → Type} (p : View.Piece Val S1x64 .f32) (hp : p.1 = rS1) (y : S1x64.Idx) :
    ∃ q ∈ [p], y ∈ q.1.set := ⟨p, List.mem_singleton_self _, hp ▸ cover_rS1 y⟩

/-! ## The accumulation -/

/-- The pair (column sums, column sums of squares) after the zeroing stores of the first point. -/
def accZero1 : Vec F S1x64 .f32 × Vec F S1x64 .f32 :=
  (View.canon [⟨rS1, k1_pay1 (F := F)⟩], View.canon [⟨rS1, k1_pay2 (F := F)⟩])

/-- One point's accumulation: the block's column sums added to the first component, the column sums of its
    squares to the second. -/
def accStep1 (x : Vec F S10000x64 .f32) (s : Vec F S1x64 .f32 × Vec F S1x64 .f32) : Vec F S1x64 .f32 × Vec F S1x64 .f32 :=
  (View.canon [⟨rS1, k1_pay4 (View.ld x rIn1) (View.ld s.1 rS1)⟩], View.canon [⟨rS1, k1_pay5 (View.ld x rIn1) (View.ld s.2 rS1)⟩])

/-! ## The body's two conditions, from the grid coordinate -/

/-- The first conditional's condition: the point is the first. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)
/-- The second conditional's condition: the point is the last. -/
abbrev cond1_1 (i : grid1.Coords) : Prop := k1_cond2 i = 1#1
theorem hcond1_1 : ∀ t : Fin cfg1.N, cond1_1 (grid1.coords t) ↔ t.val = 9 :=
  (by decide +kernel : ∀ t : Fin grid1.N, cond1_1 (grid1.coords t) ↔ t.val = 9)

/-! ## The body's triple, in each of the three cases the conditions meet -/

set_option maxHeartbeats 1000000 in
theorem sound_kernel1_A (c : Dev nD) (E : Set ℕ) (i : grid1.Coords)
    (arg1 : Memref sig .tc .vmem S10000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole)
    (hc0 : cond1_0 i) (hc1 : ¬cond1_1 i)
    (x0 : Vec F S10000x64 .f32) (y1 y2 s1 s2 : Vec F S1x64 .f32) (K : PUnit → sProp 𝕄) :
    iprop(owns (c : Thread nD τ) arg1 fullShare x0 ∗ owns (c : Thread nD τ) arg2 fullShare y1 ∗ owns (c : Thread nD τ) arg3 fullShare y2
        ∗ owns (c : Thread nD τ) arg4 fullShare s1 ∗ owns (c : Thread nD τ) arg5 fullShare s2
        ∗ (iprop(owns (c : Thread nD τ) arg1 fullShare x0 ∗ owns (c : Thread nD τ) arg2 fullShare y1 ∗ owns (c : Thread nD τ) arg3 fullShare y2
            ∗ owns (c : Thread nD τ) arg4 fullShare (accStep1 x0 accZero1).1 ∗ owns (c : Thread nD τ) arg5 fullShare (accStep1 x0 accZero1).2) -∗ K ⟨⟩))
      ⊢ wp frame (wpE (defs₀ (F := F)) Variants.none c none) E (cc1__bn_reduce_kernel i arg1 harg1 arg2 harg2 arg3 harg3 arg4 harg4 arg5 harg5) K := by
  simp only [cc1__bn_reduce_kernel_eq_skeleton]; unfold cc1__bn_reduce_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  subst hf1 hf2 hf3 hf4 hf5
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (read_writes_cons_of_cover _ _ _ cover_rS1 _ _).trans ?_
    unfold accStep1 accZero1
    dsimp only
    rw [← View.readCov_eq_canon_ld arg4.view _ rS1 (cover1_S1 _ rfl)]
    rfl
  · iexists _; isplitr
    swap; · iexact H5
    ipureintro
    refine (read_writes_cons_of_cover _ _ _ cover_rS1 _ _).trans ?_
    unfold accStep1 accZero1
    dsimp only
    rw [← View.readCov_eq_canon_ld arg5.view _ rS1 (cover1_S1 _ rfl)]
    rfl

set_option maxHeartbeats 1000000 in
theorem sound_kernel1_B (c : Dev nD) (E : Set ℕ) (i : grid1.Coords)
    (arg1 : Memref sig .tc .vmem S10000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole)
    (hc0 : ¬cond1_0 i) (hc1 : ¬cond1_1 i)
    (x0 : Vec F S10000x64 .f32) (y1 y2 s1 s2 : Vec F S1x64 .f32) (K : PUnit → sProp 𝕄) :
    iprop(owns (c : Thread nD τ) arg1 fullShare x0 ∗ owns (c : Thread nD τ) arg2 fullShare y1 ∗ owns (c : Thread nD τ) arg3 fullShare y2
        ∗ owns (c : Thread nD τ) arg4 fullShare s1 ∗ owns (c : Thread nD τ) arg5 fullShare s2
        ∗ (iprop(owns (c : Thread nD τ) arg1 fullShare x0 ∗ owns (c : Thread nD τ) arg2 fullShare y1 ∗ owns (c : Thread nD τ) arg3 fullShare y2
            ∗ owns (c : Thread nD τ) arg4 fullShare (accStep1 x0 (s1, s2)).1 ∗ owns (c : Thread nD τ) arg5 fullShare (accStep1 x0 (s1, s2)).2) -∗ K ⟨⟩))
      ⊢ wp frame (wpE (defs₀ (F := F)) Variants.none c none) E (cc1__bn_reduce_kernel i arg1 harg1 arg2 harg2 arg3 harg3 arg4 harg4 arg5 harg5) K := by
  simp only [cc1__bn_reduce_kernel_eq_skeleton]; unfold cc1__bn_reduce_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  subst hf1 hf2 hf3 hf4 hf5
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact read_writes_cons_of_cover _ _ _ cover_rS1 _ _
  · iexists _; isplitr
    swap; · iexact H5
    ipureintro
    exact read_writes_cons_of_cover _ _ _ cover_rS1 _ _

set_option maxHeartbeats 1000000 in
theorem sound_kernel1_C (c : Dev nD) (E : Set ℕ) (i : grid1.Coords)
    (arg1 : Memref sig .tc .vmem S10000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole)
    (hc0 : ¬cond1_0 i) (hc1 : cond1_1 i)
    (x0 : Vec F S10000x64 .f32) (y1 y2 s1 s2 : Vec F S1x64 .f32) (K : PUnit → sProp 𝕄) :
    iprop(owns (c : Thread nD τ) arg1 fullShare x0 ∗ owns (c : Thread nD τ) arg2 fullShare y1 ∗ owns (c : Thread nD τ) arg3 fullShare y2
        ∗ owns (c : Thread nD τ) arg4 fullShare s1 ∗ owns (c : Thread nD τ) arg5 fullShare s2
        ∗ (iprop(owns (c : Thread nD τ) arg1 fullShare x0 ∗ owns (c : Thread nD τ) arg2 fullShare (accStep1 x0 (s1, s2)).1
            ∗ owns (c : Thread nD τ) arg3 fullShare (accStep1 x0 (s1, s2)).2
            ∗ owns (c : Thread nD τ) arg4 fullShare (accStep1 x0 (s1, s2)).1 ∗ owns (c : Thread nD τ) arg5 fullShare (accStep1 x0 (s1, s2)).2) -∗ K ⟨⟩))
      ⊢ wp frame (wpE (defs₀ (F := F)) Variants.none c none) E (cc1__bn_reduce_kernel i arg1 harg1 arg2 harg2 arg3 harg3 arg4 harg4 arg5 harg5) K := by
  simp only [cc1__bn_reduce_kernel_eq_skeleton]; unfold cc1__bn_reduce_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  subst hf1 hf2 hf3 hf4 hf5
  sl_exec (disch := first | exact hc0 | exact hc1)
  sl_step
  iapply Hk
  isplitl [H1]
  · iexists f1; isplitr; · ipureintro; rfl
    iexact H1
  isplitl [H2]
  · iexists _; isplitr
    swap; · iexact H2
    ipureintro
    refine (read_writes_cons_of_cover _ _ _ cover_rS1 _ _).trans ?_
    refine Eq.trans ?_ (canon_ld_of_cover rS1 cover_rS1 _)
    unfold accStep1
    dsimp only
    rw [← View.readCov_eq_canon_ld arg4.view _ rS1 (cover1_S1 _ rfl)]
    rfl
  isplitl [H3]
  · iexists _; isplitr
    swap; · iexact H3
    ipureintro
    refine (read_writes_cons_of_cover _ _ _ cover_rS1 _ _).trans ?_
    refine Eq.trans ?_ (canon_ld_of_cover rS1 cover_rS1 _)
    unfold accStep1
    dsimp only
    rw [← View.readCov_eq_canon_ld arg5.view _ rS1 (cover1_S1 _ rfl)]
    rfl
  isplitl [H4]
  · iexists _; isplitr
    swap; · iexact H4
    ipureintro
    exact read_writes_cons_of_cover _ _ _ cover_rS1 _ _
  · iexists _; isplitr
    swap; · iexact H5
    ipureintro
    exact read_writes_cons_of_cover _ _ _ cover_rS1 _ _

/-- Where the windows are idle (the configuration's table) and where the outputs are written back. -/
theorem liveAt1_0 : ∀ t : Fin cfg1.N, cfg1.idle 0 (grid1.coords t) = false := by decide +kernel
theorem idleAt1_1 : ∀ t : Fin cfg1.N, ¬cond1_1 (grid1.coords t) → cfg1.idle 1 (grid1.coords t) = true := by decide +kernel
theorem idleAt1_2 : ∀ t : Fin cfg1.N, ¬cond1_1 (grid1.coords t) → cfg1.idle 2 (grid1.coords t) = true := by decide +kernel
theorem noFlush1_1 : ∀ t : Fin cfg1.N, ¬cond1_1 (grid1.coords t) → (cfg1.win 1).flush t = false := by decide +kernel
theorem noFlush1_2 : ∀ t : Fin cfg1.N, ¬cond1_1 (grid1.coords t) → (cfg1.win 2).flush t = false := by decide +kernel
theorem liveAt1_1 : ∀ t : Fin cfg1.N, cond1_1 (grid1.coords t) → cfg1.idle 1 (grid1.coords t) = false := by decide +kernel
theorem liveAt1_2 : ∀ t : Fin cfg1.N, cond1_1 (grid1.coords t) → cfg1.idle 2 (grid1.coords t) = false := by decide +kernel

section Region1
variable (V : (c : Dev nD) → (b : Ref sig .tc) → Buf (Elt F) ((c : Thread nD τ).loc b))

/-! ## The windows' blocks, the accumulation over the points, the proof data -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point, fetched there or not, for any proof
    data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The scratch pair after `n` points: zero, then one accumulation per point, in point order. -/
def acc1 (c : Dev nD) : ℕ → Vec F S1x64 .f32 × Vec F S1x64 .f32
  | 0 => accZero1
  | n + 1 => if h : n < cfg1.N then accStep1 (iblk1 V c 0 ⟨n, h⟩) (acc1 c n) else acc1 c n

theorem acc1_zero (c : Dev nD) : acc1 V c 0 = accZero1 := rfl
theorem acc1_succ (c : Dev nD) (t : Fin cfg1.N) : acc1 V c (t.val + 1) = accStep1 (iblk1 V c 0 t) (acc1 V c t.val) := by
  rw [acc1, dif_pos t.isLt]

/-- The two scratch buffers owned at a pair of contents. -/
def scr1 (c : Dev nD) (s : Vec F S1x64 .f32 × Vec F S1x64 .f32) : sProp 𝕄 :=
  iprop(owns (c : Thread nD τ) scM1_0 fullShare s.1 ∗ owns (c : Thread nD τ) scM1_1 fullShare s.2)

/-- The region invariant before point `n`: the two scratch buffers at the accumulation so far (at anything before the
    first point, which overwrites them), the other scoped buffers no window stages, the generator register. -/
def Phi1 (c : Dev nD) (n : ℕ) : sProp 𝕄 :=
  iprop((∃ s, ⌜n ≠ 0 → s = acc1 V c n⌝ ∗ scr1 c s)
    ∗ Pipeline.scopedRestBut (Ix := Unit) (Name := ℕ) (U := UR sig nD τ) (Lvl := ℕ) (Val := Elt F) spec1 c [cc1_scratch0, cc1_scratch1]
    ∗ (∃ r, prngReg c r))

/-- The proof data of pipeline 1 on core `c`: the arrays as the region finds them; after the body at point `t` the
    input's buffer at its block and the two outputs' at the accumulation through `t` (consulted at the last point only:
    elsewhere the outputs are idle); the invariant `Phi1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (acc1 V c (t.val + 1)).1
    | ⟨2, _⟩ => (acc1 V c (t.val + 1)).2
  Φ t := Phi1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = (acc1 V c (t.val + 1)).1 := by dsimp only [dat1]
theorem after1_2 (c : Dev nD) (t : Fin cfg1.N) : (dat1 V c).after 2 t = (acc1 V c (t.val + 1)).2 := by dsimp only [dat1]

theorem before1_0 (c : Dev nD) (t : Fin cfg1.N) (d) : (dat1 V c).before 0 t d = iblk1 V c 0 t :=
  before1_0_of V (dat1 V c) (A_eq1 V c 0) (after1_0 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

theorem Phi1_castSucc (c : Dev nD) (t : Fin cfg1.N) : (dat1 V c).Φ t.castSucc = Phi1 V c t.val := by
  dsimp only [dat1]; simp only [Fin.coe_castSucc]

theorem Phi1_succ (c : Dev nD) (t : Fin cfg1.N) : (dat1 V c).Φ t.succ = Phi1 V c (t.val + 1) := by
  dsimp only [dat1]; simp only [Fin.val_succ]

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [Phi1_castSucc, Phi1_succ]
  rw [show (dat1 V c).leavesExact 0 t = owns (c : Thread nD τ) (st1_0 t) fullShare ((dat1 V c).after 0 t) from by
    unfold Dat.leavesExact; rw [liveAt1_0 t], after1_0]
  have hN : t.val < 10 := lt_of_lt_of_eq t.isLt (show cfg1.N = 10 from N_1)
  unfold Phi1 scr1
  by_cases h0 : t.val = 0
  · have hc0 : cond1_0 (grid1.coords t) := (hcond1_0 t).mpr h0
    have hc1 : ¬cond1_1 (grid1.coords t) := fun h => by have := (hcond1_1 t).mp h; omega
    rw [Dat.leavesExact_idle (dat1 V c) 1 t (idleAt1_1 t hc1) (noFlush1_1 t hc1),
      Dat.leavesExact_idle (dat1 V c) 2 t (idleAt1_2 t hc1) (noFlush1_2 t hc1)]
    iintro ⟨⟨⟨%s, -, HS0, HS1⟩, Hrest, Hg⟩, Ho, ⟨%d0, H0⟩, ⟨%d1, H1⟩, ⟨%d2, H2⟩⟩
    iapply (sound_kernel1_A c Set.univ _ _ _ _ _ _ _ _ _ _ _ hc0 hc1 (iblk1 V c 0 t) _ _ s.1 s.2 _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [HS0 HS1 Hrest Hg]
    · isplitl [HS0 HS1]
      · iexists (accStep1 (iblk1 V c 0 t) accZero1); isplitr
        · ipureintro; intro _; rw [acc1_succ V c t, h0]; rfl
        isplitl [HS0]; · iexact HS0
        iexact HS1
      isplitl [Hrest]; · iexact Hrest
      iexact Hg
    isplitl [Ho]; · iexact Ho
    isplitl [H0]; · iexact H0
    isplitl [H1]; · iexists _; iexact H1
    iexists _; iexact H2
  · have hc0 : ¬cond1_0 (grid1.coords t) := fun h => h0 ((hcond1_0 t).mp h)
    by_cases h9 : t.val = 9
    · have hc1 : cond1_1 (grid1.coords t) := (hcond1_1 t).mpr h9
      rw [show (dat1 V c).leavesExact 1 t = owns (c : Thread nD τ) (st1_1 t) fullShare ((dat1 V c).after 1 t) from by
        unfold Dat.leavesExact; rw [liveAt1_1 t hc1], after1_1]
      rw [show (dat1 V c).leavesExact 2 t = owns (c : Thread nD τ) (st1_2 t) fullShare ((dat1 V c).after 2 t) from by
        unfold Dat.leavesExact; rw [liveAt1_2 t hc1], after1_2]
      rw [acc1_succ V c t]
      iintro ⟨⟨⟨%s, %hs, HS0, HS1⟩, Hrest, Hg⟩, Ho, ⟨%d0, H0⟩, ⟨%d1, H1⟩, ⟨%d2, H2⟩⟩
      obtain rfl := hs h0
      iapply (sound_kernel1_C c Set.univ _ _ _ _ _ _ _ _ _ _ _ hc0 hc1 (iblk1 V c 0 t) _ _ (acc1 V c t.val).1 (acc1 V c t.val).2 _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hrest Hg]
      · isplitl [HS0 HS1]
        · iexists (accStep1 (iblk1 V c 0 t) (acc1 V c t.val)); isplitr
          · ipureintro; intro _; rfl
          isplitl [HS0]; · iexact HS0
          iexact HS1
        isplitl [Hrest]; · iexact Hrest
        iexact Hg
      isplitl [Ho]; · iexact Ho
      isplitl [H0]; · iexact H0
      isplitl [H1]; · iexact H1
      iexact H2
    · have hc1 : ¬cond1_1 (grid1.coords t) := fun h => h9 ((hcond1_1 t).mp h)
      rw [Dat.leavesExact_idle (dat1 V c) 1 t (idleAt1_1 t hc1) (noFlush1_1 t hc1),
        Dat.leavesExact_idle (dat1 V c) 2 t (idleAt1_2 t hc1) (noFlush1_2 t hc1)]
      rw [acc1_succ V c t]
      iintro ⟨⟨⟨%s, %hs, HS0, HS1⟩, Hrest, Hg⟩, Ho, ⟨%d0, H0⟩, ⟨%d1, H1⟩, ⟨%d2, H2⟩⟩
      obtain rfl := hs h0
      iapply (sound_kernel1_B c Set.univ _ _ _ _ _ _ _ _ _ _ _ hc0 hc1 (iblk1 V c 0 t) _ _ (acc1 V c t.val).1 (acc1 V c t.val).2 _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hrest Hg]
      · isplitl [HS0 HS1]
        · iexists (accStep1 (iblk1 V c 0 t) (acc1 V c t.val)); isplitr
          · ipureintro; intro _; rfl
          isplitl [HS0]; · iexact HS0
          iexact HS1
        isplitl [Hrest]; · iexact Hrest
        iexact Hg
      isplitl [Ho]; · iexact Ho
      isplitl [H0]; · iexact H0
      isplitl [H1]; · iexists _; iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant at the region's entry and exit -/

/-- The two scratch buffers are scoped buffers no window stages. -/
theorem scratch1_mem : ([cc1_scratch0, cc1_scratch1] : List (Ref sig .tc)).Forall fun b =>
    b.isScoped = true ∧ ∀ (w : Fin 3) (s : Fin (spec1 w).nbuf), ((spec1 w).stage s).view.ref ≠ b := by decide

/-- The scoped rest with the two scratch buffers split out, as memrefs owned at some contents. -/
theorem scopedRest1_split (c : Dev nD) :
    (Pipeline.scopedRest (Ix := Unit) (Name := ℕ) (U := UR sig nD τ) (Lvl := ℕ) (Val := Elt F) spec1 c : sProp 𝕄)
      = iprop(((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1]) := by
  rw [Pipeline.scopedRest_split_of_list spec1 c [cc1_scratch0, cc1_scratch1] scratch1_mem (by decide)]
  simp only [bigSepL_cons_cons, bigSepL_singleton, scM1_0, scM1_1, owns_whole]
  try rfl

theorem hin1 (c : Dev nD) :
    iprop((∃ r, prngReg c r) ∗ Pipeline.prefHeld (pcfgs (F := F) 1).pre c (fun _ => fullShare) ((cfgs 1).toPCfg_adm).1 ∗ Pipeline.scopedRest spec1 c)
      ⊢ ((dat1 V c).Φ 0 : sProp 𝕄) := by
  rw [show (dat1 V c).Φ 0 = Phi1 V c 0 from rfl, scopedRest1_split]
  unfold Phi1 scr1
  iintro ⟨Hp, -, ⟨⟨%d0, HS0⟩, ⟨%d1, HS1⟩⟩, Hrest⟩
  isplitl [HS0 HS1]
  · iexists ((d0, d1) : Vec F S1x64 .f32 × Vec F S1x64 .f32); isplitr
    · ipureintro; intro h; exact absurd rfl h
    isplitl [HS0]; · iexact HS0
    iexact HS1
  isplitl [Hrest]; · iexact Hrest
  iexact Hp

theorem hout1 (c : Dev nD) :
    ((dat1 V c).Φ (Fin.last cfg1.N) : sProp 𝕄)
      ⊢ iprop((∃ r, prngReg c r) ∗ Pipeline.ownSems0 (fun k : PEmpty => k.elim) c ∗ Pipeline.scopedRest spec1 c) := by
  rw [Pipeline.ownSems0_none, show (dat1 V c).Φ (Fin.last cfg1.N) = Phi1 V c cfg1.N from rfl, scopedRest1_split]
  unfold Phi1 scr1
  iintro ⟨⟨%s, -, HS0, HS1⟩, Hrest, Hg⟩
  isplitl [Hg]; · iexact Hg
  isplitr; · iempintro
  isplitl [HS0 HS1]
  · isplitl [HS0]; · iexists _; iexact HS0
    iexists _; iexact HS1
  iexact Hrest

/-! ## The arrays at the region's exit -/

/-- The two output windows' block index is zero on every axis, at every point. -/
theorem index1_1 : ∀ (t : Fin cfg1.N) (a : Fin (cfg1.win 1).shape.rank), (cfg1.win 1).index t a = 0 := by decide +kernel
theorem index1_2 : ∀ (t : Fin cfg1.N) (a : Fin (cfg1.win 2).shape.rank), (cfg1.win 2).index t a = 0 := by decide +kernel

/-- An index of the whole-array block of an output window is the array's index. -/
theorem blk1_1_emb (t : Fin cfg1.N) (j : S1x64.Idx) : (((cfg1.win 1).blk t).view.emb j : S1x64.Idx) = j := by
  funext a
  apply Fin.ext
  exact (cfg1.win 1).rect_emb_val_of_index_zero t a (index1_1 t a) j

theorem blk1_2_emb (t : Fin cfg1.N) (j : S1x64.Idx) : (((cfg1.win 2).blk t).view.emb j : S1x64.Idx) = j := by
  funext a
  apply Fin.ext
  exact (cfg1.win 2).rect_emb_val_of_index_zero t a (index1_2 t a) j

theorem t9_of_flush1_1 (t : Fin cfg1.N) (hf : (cfg1.win 1).flush t = true) : t.val + 1 = 10 := by
  have h := (flush1_1 t).mp hf
  have hN : t.val < 10 := lt_of_lt_of_eq t.isLt (show cfg1.N = 10 from N_1)
  omega

theorem t9_of_flush1_2 (t : Fin cfg1.N) (hf : (cfg1.win 2).flush t = true) : t.val + 1 = 10 := by
  have h := (flush1_2 t).mp hf
  have hN : t.val < 10 := lt_of_lt_of_eq t.isLt (show cfg1.N = 10 from N_1)
  omega

theorem final1_1 (c : Dev nD) : (dat1 V c).arrAt 1 cfg1.N = (acc1 V c 10).1 := by
  refine (dat1 V c).arrAt_eq_of_cover 1 (acc1 V c 10).1 (fun t hf => ?_) (fun i => ⟨t1_9, (flush1_1 t1_9).mpr rfl, ?_⟩)
  · show (cfg1.win 1).cut _ ((dat1 V c).after 1 t) = _
    rw [after1_1, t9_of_flush1_1 t hf]
    funext j
    show (acc1 V c 10).1 _ = (acc1 V c 10).1 (((cfg1.win 1).blk t).view.emb j)
    rw [blk1_1_emb t j]
  · refine Finset.mem_map.mpr ⟨i, Finset.mem_univ _, ?_⟩
    exact blk1_1_emb t1_9 i

theorem final1_2 (c : Dev nD) : (dat1 V c).arrAt 2 cfg1.N = (acc1 V c 10).2 := by
  refine (dat1 V c).arrAt_eq_of_cover 2 (acc1 V c 10).2 (fun t hf => ?_) (fun i => ⟨t1_9, (flush1_2 t1_9).mpr rfl, ?_⟩)
  · show (cfg1.win 2).cut _ ((dat1 V c).after 2 t) = _
    rw [after1_2, t9_of_flush1_2 t hf]
    funext j
    show (acc1 V c 10).2 _ = (acc1 V c 10).2 (((cfg1.win 2).blk t).view.emb j)
    rw [blk1_2_emb t j]
  · refine Finset.mem_map.mpr ⟨i, Finset.mem_univ _, ?_⟩
    exact blk1_2_emb t1_9 i

/-- The input array is never written. -/
theorem final1_0 (c : Dev nD) : (dat1 V c).arrAt 0 cfg1.N = V c (Pipeline.arrRef spec1 0) :=
  ((dat1 V c).arrAt_in 0 rfl _).trans (A_eq1 V c 0)

end Region1

end Cert.Kernel.Hand

end
-- ==== Proof.Bits.NormalizeRegion.lean ====
/-
  Pipeline 2 of the program (the normalisation of a row tile by the column statistics, scaled, shifted and clamped at zero), at the buffer contents `V` the region is entered with:
  each window's block at a grid point, what the body leaves in the output window's buffer as a
  pure function of the input blocks, the body's triple, and the proof data with its body obligation.
-/
import proofs.«135803_j78812649882125_2_alg».proof.Proof.Gen.Kernel.Launch
import proofs.«135803_j78812649882125_2_alg».proof.Proof.Gen.Kernel.Skeleton
import proofs.«135803_j78812649882125_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

abbrev r2_S10000x64 : Rect S10000x64 := Rect.unit (s := S10000x64) ![0, 0] S10000x64.size inb_S10000x64_S10000x64_0_0
abbrev r2_S1x64 : Rect S1x64 := Rect.unit (s := S1x64) ![0, 0] S1x64.size inb_S1x64_S1x64_0_0

/-- The output window's staging buffer after the body, from the input windows' blocks: its one store over the whole buffer. -/
def out2_5 (x0 : Vec F S10000x64 .f32) (x1 : Vec F S1x64 .f32) (x2 : Vec F S1x64 .f32) (x3 : Vec F S1x64 .f32) (x4 : Vec F S1x64 .f32) : Vec F S10000x64 .f32 :=
  View.canon [⟨r2_S10000x64, k2_pay1 (View.ld x0 r2_S10000x64) (View.ld x2 r2_S1x64) (View.ld x1 r2_S1x64) (View.ld x3 r2_S1x64) (View.ld x4 r2_S1x64)⟩]

/-- The store covers the buffer. -/
theorem cover2_5 (p0 : Vec F S10000x64 .f32) (y : S10000x64.Idx) :
    ∃ pc ∈ ([⟨r2_S10000x64, p0⟩] : List (View.Piece (Elt F) S10000x64 .f32)), y ∈ pc.1.set :=
  View.cover_of_tiled [⟨r2_S10000x64, p0⟩] S10000x64.size (by rfl) y

set_option maxHeartbeats 1000000 in
/-- The body on whole staging memrefs, the inputs' at known contents and the output's at anything, runs to the
    continuation holding the inputs' as they were and the output's at `out2_5` of the inputs'. -/
theorem sound_kernel2 (c : Dev nD) (E : Set ℕ) (i : grid2.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S10000x64 .f32) (harg6 : arg6.IsWhole)
    (x0 : Vec F S10000x64 .f32) (x1 : Vec F S1x64 .f32) (x2 : Vec F S1x64 .f32) (x3 : Vec F S1x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4)) -∗ K ⟨⟩))
      ⊢ wp frame (wpE (defs₀ (F := F)) Variants.none c none) E (cc2__bn_apply_kernel i arg1 harg1 arg2 harg2 arg3 harg3 arg4 harg4 arg5 harg5 arg6 harg6) K := by
  simp only [cc2__bn_apply_kernel_eq_skeleton]; unfold cc2__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-- The proof data of pipeline 2 on core `c`: the arrays as the region finds them; after the body at point `t`
    each input's buffer at its block and the output's at `out2_5` of the input blocks; the invariant is the
    scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so the body's triple applies; the invariant and
    the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.Bits.Linear2Region.lean ====
/-
  Pipeline 3 of the program (the second linear layer: a row tile of the hidden features times the whole weight matrix), at the buffer contents `V` the region is entered with:
  each window's block at a grid point, what the body leaves in the output window's buffer as a
  pure function of the input blocks, the body's triple, and the proof data with its body obligation.
-/
import proofs.«135803_j78812649882125_2_alg».proof.Proof.Gen.Kernel.Launch
import proofs.«135803_j78812649882125_2_alg».proof.Proof.Gen.Kernel.Skeleton
import proofs.«135803_j78812649882125_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

abbrev r3_S10000x64 : Rect S10000x64 := Rect.unit (s := S10000x64) ![0, 0] S10000x64.size inb_S10000x64_S10000x64_0_0
abbrev r3_S64x64 : Rect S64x64 := Rect.unit (s := S64x64) ![0, 0] S64x64.size inb_S64x64_S64x64_0_0

/-- The output window's staging buffer after the body, from the input windows' blocks: its one store over the whole buffer. -/
def out3_2 (x0 : Vec F S10000x64 .f32) (x1 : Vec F S64x64 .f32) : Vec F S10000x64 .f32 :=
  View.canon [⟨r3_S10000x64, k3_pay1 (View.ld x0 r3_S10000x64) (View.ld x1 r3_S64x64)⟩]

/-- The store covers the buffer. -/
theorem cover3_2 (p0 : Vec F S10000x64 .f32) (y : S10000x64.Idx) :
    ∃ pc ∈ ([⟨r3_S10000x64, p0⟩] : List (View.Piece (Elt F) S10000x64 .f32)), y ∈ pc.1.set :=
  View.cover_of_tiled [⟨r3_S10000x64, p0⟩] S10000x64.size (by rfl) y

set_option maxHeartbeats 1000000 in
/-- The body on whole staging memrefs, the inputs' at known contents and the output's at anything, runs to the
    continuation holding the inputs' as they were and the output's at `out3_2` of the inputs'. -/
theorem sound_kernel3 (c : Dev nD) (E : Set ℕ) (i : grid3.Coords) (arg1 : Memref sig .tc .vmem S10000x64 .f32) (harg1 : arg1.IsWhole) (arg2 : Memref sig .tc .vmem S64x64 .f32) (harg2 : arg2.IsWhole) (arg3 : Memref sig .tc .vmem S10000x64 .f32) (harg3 : arg3.IsWhole)
    (x0 : Vec F S10000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__matmul_kernel i arg1 harg1 arg2 harg2 arg3 harg3) K := by
  simp only [cc3__matmul_kernel_eq_skeleton]; unfold cc3__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The proof data of pipeline 3 on core `c`: the arrays as the region finds them; after the body at point `t`
    each input's buffer at its block and the output's at `out3_2` of the input blocks; the invariant is the
    scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so the body's triple applies; the invariant and
    the core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.Bits.ProgramRun.lean ====
/-
  The program's run as a list of segments: four stretches of host operations and four pipelined regions.
  The buffer contents at every boundary are a fold from the launch memory: a stretch applies its operations,
  a region replaces its arrays by what its write-backs leave. Each region is a record over the thread state
  "every unscoped buffer at the boundary's contents, the generator register at some state, nothing owed".
  The column-statistics region's body carries its running sums in scratch from point to point: its invariant
  names them, and is made from, and gives back, the scoped buffers and the generator register.
  The run's post: every unscoped buffer of every core holds the last boundary's contents.
-/
import proofs.«135803_j78812649882125_2_alg».proof.Proof.Bits.Linear1Region
import proofs.«135803_j78812649882125_2_alg».proof.Proof.Bits.StatsRegion
import proofs.«135803_j78812649882125_2_alg».proof.Proof.Bits.NormalizeRegion
import proofs.«135803_j78812649882125_2_alg».proof.Proof.Bits.Linear2Region
import proofs.«135803_j78812649882125_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- No pipeline has a prefetched table. -/
abbrev adm : (p : Fin 4) → (pcfgs (F := F) p).Adm := fun p => (cfgs p).toPCfg_adm

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At pipeline 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At pipeline 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At pipeline 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- At pipeline 3's exit: its arrays at what the pipeline leaves, every other buffer as entered. -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
abbrev V7 : (c : Dev nD) → (b : Ref sig .tc) → Buf (Elt F) ((c : Thread nD τ).loc b) := fun c b => W7 m ρ c b
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)

abbrev W8 : Dev nD → Valuation τ sig (Elt F) := fun c => StableHlo.after hostOps4 (W7 m ρ c)

/-! ## The arguments end as launched: no host operation and no region writes one -/

theorem W8_main_arg0 (c : Dev nD) : W8 m ρ c (Proc.devRef .tc main_arg0) = m ((c : Thread nD τ).loc main_arg0) :=
  calc W8 m ρ c (Proc.devRef .tc main_arg0)
    _ = W7 m ρ c (Proc.devRef .tc main_arg0) := StableHlo.after_of_writes_sub hostOps4 _ hostOps4_writes (by decide)
    _ = W6 m ρ c (Proc.devRef .tc main_arg0) := W7_of_ne m ρ c main_arg0 (by decide)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide)
    _ = m ((c : Thread nD τ).loc main_arg0) := rfl
theorem W8_main_arg1 (c : Dev nD) : W8 m ρ c (Proc.devRef .tc main_arg1) = m ((c : Thread nD τ).loc main_arg1) :=
  calc W8 m ρ c (Proc.devRef .tc main_arg1)
    _ = W7 m ρ c (Proc.devRef .tc main_arg1) := StableHlo.after_of_writes_sub hostOps4 _ hostOps4_writes (by decide)
    _ = W6 m ρ c (Proc.devRef .tc main_arg1) := W7_of_ne m ρ c main_arg1 (by decide)
    _ = W5 m ρ c (Proc.devRef .tc main_arg1) := W6_of_ne m ρ c main_arg1 (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W8_main_arg2 (c : Dev nD) : W8 m ρ c (Proc.devRef .tc main_arg2) = m ((c : Thread nD τ).loc main_arg2) :=
  calc W8 m ρ c (Proc.devRef .tc main_arg2)
    _ = W7 m ρ c (Proc.devRef .tc main_arg2) := StableHlo.after_of_writes_sub hostOps4 _ hostOps4_writes (by decide)
    _ = W6 m ρ c (Proc.devRef .tc main_arg2) := W7_of_ne m ρ c main_arg2 (by decide)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := (W2_arr m ρ c 1).trans (((dat0 (V1 m ρ) c).arrAt_in 1 rfl _).trans (A_eq0 (V1 m ρ) c 1))
    _ = W0 m ρ c (Proc.devRef .tc main_arg2) := StableHlo.after_of_writes_sub hostOps0 _ hostOps0_writes (by decide)
    _ = m ((c : Thread nD τ).loc main_arg2) := rfl
theorem W8_main_arg3 (c : Dev nD) : W8 m ρ c (Proc.devRef .tc main_arg3) = m ((c : Thread nD τ).loc main_arg3) :=
  calc W8 m ρ c (Proc.devRef .tc main_arg3)
    _ = W7 m ρ c (Proc.devRef .tc main_arg3) := StableHlo.after_of_writes_sub hostOps4 _ hostOps4_writes (by decide)
    _ = W6 m ρ c (Proc.devRef .tc main_arg3) := W7_of_ne m ρ c main_arg3 (by decide)
    _ = W5 m ρ c (Proc.devRef .tc main_arg3) := W6_of_ne m ρ c main_arg3 (by decide)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl
theorem W8_main_arg4 (c : Dev nD) : W8 m ρ c (Proc.devRef .tc main_arg4) = m ((c : Thread nD τ).loc main_arg4) :=
  calc W8 m ρ c (Proc.devRef .tc main_arg4)
    _ = W7 m ρ c (Proc.devRef .tc main_arg4) := StableHlo.after_of_writes_sub hostOps4 _ hostOps4_writes (by decide)
    _ = W6 m ρ c (Proc.devRef .tc main_arg4) := W7_of_ne m ρ c main_arg4 (by decide)
    _ = W5 m ρ c (Proc.devRef .tc main_arg4) := W6_of_ne m ρ c main_arg4 (by decide)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl
theorem W8_main_arg5 (c : Dev nD) : W8 m ρ c (Proc.devRef .tc main_arg5) = m ((c : Thread nD τ).loc main_arg5) :=
  calc W8 m ρ c (Proc.devRef .tc main_arg5)
    _ = W7 m ρ c (Proc.devRef .tc main_arg5) := StableHlo.after_of_writes_sub hostOps4 _ hostOps4_writes (by decide)
    _ = W6 m ρ c (Proc.devRef .tc main_arg5) := W7_of_ne m ρ c main_arg5 (by decide)
    _ = W5 m ρ c (Proc.devRef .tc main_arg5) := W6_of_ne m ρ c main_arg5 (by decide)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl
theorem W8_main_arg6 (c : Dev nD) : W8 m ρ c (Proc.devRef .tc main_arg6) = m ((c : Thread nD τ).loc main_arg6) :=
  calc W8 m ρ c (Proc.devRef .tc main_arg6)
    _ = W7 m ρ c (Proc.devRef .tc main_arg6) := StableHlo.after_of_writes_sub hostOps4 _ hostOps4_writes (by decide)
    _ = W6 m ρ c (Proc.devRef .tc main_arg6) := (W7_arr m ρ c 1).trans (((dat3 (V6 m ρ) c).arrAt_in 1 rfl _).trans (A_eq3 (V6 m ρ) c 1))
    _ = W5 m ρ c (Proc.devRef .tc main_arg6) := W6_of_ne m ρ c main_arg6 (by decide)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl
theorem W8_main_arg7 (c : Dev nD) : W8 m ρ c (Proc.devRef .tc main_arg7) = m ((c : Thread nD τ).loc main_arg7) :=
  calc W8 m ρ c (Proc.devRef .tc main_arg7)
    _ = W7 m ρ c (Proc.devRef .tc main_arg7) := StableHlo.after_of_writes_sub hostOps4 _ hostOps4_writes (by decide)
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := StableHlo.after_of_writes_sub hostOps2 _ hostOps2_writes (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

/-! ## The proof data family and the thread state -/

def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V6 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the register at some state. -/
abbrev Tₙ (c : Dev nD) : sProp 𝕄 := iprop(StableHlo.held (c : Thread nD τ) (Pipeline.ucRefs τ sig) (W8 m ρ c) ∗ ∃ r, prngReg c r)

/-! ## The regions as segments -/

set_option backward.isDefEq.respectTransparency.types false in
/-- Pipeline 0 over the thread state: entered from every unscoped buffer at `W1 m ρ`, left at `W2 m ρ`: its arrays
    split out of the unscoped buffers and put back at the exit contents; the generator register into the invariant
    and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun c t => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 1 over the thread state: entered from every unscoped buffer at `W3 m ρ`, left at `W4 m ρ`: its arrays
    split out of the unscoped buffers and put back at the exit contents; the generator register into the invariant
    and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun c t => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin1 (V3 m ρ) c
  hout c := hout1 (V3 m ρ) c
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 2 over the thread state: entered from every unscoped buffer at `W5 m ρ`, left at `W6 m ρ`: its arrays
    split out of the unscoped buffers and put back at the exit contents; the generator register into the invariant
    and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun c t => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 3 over the thread state: entered from every unscoped buffer at `W6 m ρ`, left at `W7 m ρ`: its arrays
    split out of the unscoped buffers and put back at the exit contents; the generator register into the invariant
    and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun c t => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .region (reg3 m ρ),
    .host (hseg hostOps4 hostOps4_sub hostOps4_fresh (W7 m ρ)) ]

theorem main_run (c : Dev nD) : main (F := F) c = Pipeline.Seg.run (segs m ρ) := (main_chain c).trans (by chain_rfl)

set_option backward.isDefEq.respectTransparency.types false in
/-- At the compiled mesh, from any memory with zero counters, every weakly fair execution of the program on the
    TensorCores terminates, nothing faulting, and in every final state each unscoped buffer of each core holds the
    last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (StableHlo.after hostOps4 (W7 m ρ c)) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

end Cert.Kernel.Hand

end
-- ==== Proof.LibTypedRefs.lean ====
/-
  Reading a straight line of host operations back, one stretch at a time.

  * The contents after two lists of operations run one after the other are the second list's fold from the first
    list's (`after_append`): a long line is read a stretch at a time, the few buffers a later stretch reads named
    before it reads them, instead of one term in which every shared intermediate is written out once per use.
  * An operation inside a called function reads and writes its buffers through a typed reference: the value is
    transported along the equation "the buffer's type is the value's type". At a literal reference whose declared type
    is the buffer's own the transport is the identity, in both directions (`ofBuf_self`, `toBuf_self`). Rewrite with
    these (by `rw`: they are stated at `T := r.ty`, which a syntactic matcher does not see through) BEFORE comparing the
    read-back term with a closed form: with a transport left around a selection or a comparison, deciding the
    selection's condition forces the operands — a scatter over every edge, say — at a symbolic index.
-/
import Idealize.ShloMosaic.Lib.StableHlo.Run

noncomputable section

namespace Idealize.ShloMosaic.StableHlo

variable {nD : Nat} {τ : Topo} {sig : RefSig} {Val : EltTy → Type}

/-- The contents after two lists run one after the other: the second list's fold from the first list's. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- Contents read through a literal reference at the buffer's own type are the contents. -/
theorem TRef.ofBuf_self (r : Ref sig .tc) (h : r.ty = r.ty) (hd : r.space ≠ .host) (hu : r.isScoped = false)
    (v : r.ty.Contents Val) : (TRef.of (T := r.ty) r h hd hu).ofBuf v = v := rfl

/-- Contents written through a literal reference at the buffer's own type are the contents. -/
theorem TRef.toBuf_self (r : Ref sig .tc) (h : r.ty = r.ty) (hd : r.space ≠ .host) (hu : r.isScoped = false)
    (v : r.ty.Contents Val) : (TRef.of (T := r.ty) r h hd hu).toBuf v = v := rfl

end Idealize.ShloMosaic.StableHlo

end
-- ==== Proof.LibSeqChain.lean ====
/-
  Straight lines of host operations run one after the other.

  * A property that holds of every element of two lists holds of every element of the two end to end.
  * A line followed by nothing is the line.
  * Any number of lines run one after the other are their concatenation run as one line
    (`chain_map_seq`). This is what lets a program that calls a function in the middle of a straight line be stated
    as a few items in a row — the operations before the call, the callee's body, the operations after it, each
    compared with the program an operation at a time — and only then glued into one line; an equation between the
    program and the one line that crosses the call is not compared that way (the callee's name stands on one side only).
-/
import Idealize.ShloMosaic.Lib.StableHlo.Run
import Idealize.ShloMosaic.Lib.Pipeline.Regions

noncomputable section

namespace Idealize.ShloMosaic.StableHlo

open Idealize.ShloMosaic Idealize.SL.Sem

variable {nD : Nat} {τ : Topo} {sig : RefSig} {Val : EltTy → Type} {Λ : Labels}

/-- A property of every element of two lists holds of every element of the two end to end. -/
theorem forall_append {α : Type} {p : α → Prop} {l₁ l₂ : List α} (h₁ : l₁.Forall p) (h₂ : l₂.Forall p) : (l₁ ++ l₂).Forall p :=
  List.forall_iff_forall_mem.mpr fun x hx => (List.mem_append.mp hx).elim (List.forall_iff_forall_mem.mp h₁ x)
    (List.forall_iff_forall_mem.mp h₂ x)

/-- A line followed by nothing is the line. -/
theorem seq_bind_pure (l : List (HloOp τ sig Val)) :
    ((seq l : Prog (TpuEff nD τ sig Val Λ .tc) PUnit) >>= fun _ => pure ⟨⟩) = seq l := by
  have h := seq_append (nD := nD) (Λ := Λ) l ([] : List (HloOp τ sig Val))
  rw [List.append_nil] at h
  exact h.symm

/-- Lines run one after the other are their concatenation run as one line. -/
theorem chain_map_seq (ls : List (List (HloOp τ sig Val))) :
    (Pipeline.chain (ls.map seq) : Prog (TpuEff nD τ sig Val Λ .tc) PUnit) = seq ls.flatten := by
  induction ls with
  | nil => rfl
  | cons l ls ih => simp only [List.map_cons, Pipeline.chain_cons, List.flatten_cons, seq_append, ih]

/-- Five lines run one after the other are their concatenation run as one. -/
theorem chain_five (a b c d e : List (HloOp τ sig Val)) :
    (Pipeline.chain [seq a, seq b, seq c, seq d, seq e] : Prog (TpuEff nD τ sig Val Λ .tc) PUnit)
      = seq (a ++ (b ++ (c ++ (d ++ e)))) := by
  have h := chain_map_seq (nD := nD) (Λ := Λ) [a, b, c, d, e]
  simpa only [List.map_cons, List.map_nil, List.flatten_cons, List.flatten_nil, List.append_nil] using h

end Idealize.ShloMosaic.StableHlo

end
-- ==== Proof.RefOps.lean ====
/-
  The reference's @main as lists of host operations, a stretch at a time, and the program as the line of them all.

  Each list is the program's own text: the operations of one stretch in order, a called function's body written at the
  buffers of the call (its typed references the call's literal buffers). The program's three windows are each the line
  of consecutive stretches, by unfolding; so @main is the line of all the stretches end to end.
-/
import proofs.«135803_j78812649882125_2_alg».proof.Proof.Gen.ReferenceIdeal
import Idealize.ShloMosaic.Lib.StableHlo.Run
import proofs.«135803_j78812649882125_2_alg».proof.Proof.LibTypedRefs
import proofs.«135803_j78812649882125_2_alg».proof.Proof.LibSeqChain

noncomputable section

namespace Cert.ReferenceIdeal.Hand

open Cert.ReferenceIdeal Idealize.ShloMosaic Idealize.ShloMosaic.TcCoe Idealize.SL.Sem Idealize.ShloMosaic.StableHlo
open Cert.ReferenceIdeal.Facts₀

variable {F : FTy → Type} [FloatOps F]

/-- The edge list's two rows and the nodes' normalizers. -/
def pre : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_cst (constant S_ .f32 0x3F800000#32),
    StableHlo.unary main_cst main_v4 (broadcastInDim S1600000 ![] bcast_S_S1600000 : (⟨S_, .f32⟩ : BufTy).Contents (Elt F) → (⟨S1600000, .f32⟩ : BufTy).Contents (Elt F)),
    StableHlo.nullary main_cst_0 (constant S_ .f32 0x00000000#32),
    StableHlo.unary main_cst_0 main_v5 (broadcastInDim S100000 ![] bcast_S_S100000 : (⟨S_, .f32⟩ : BufTy).Contents (Elt F) → (⟨S100000, .f32⟩ : BufTy).Contents (Elt F)),
    StableHlo.unary main_v3 main_v6 (broadcastInDim S1600000x1 ![0] bcast_S1600000_S1600000x1_0 : (⟨S1600000, .i32⟩ : BufTy).Contents (Elt F) → (⟨S1600000x1, .i32⟩ : BufTy).Contents (Elt F)),
    StableHlo.ternary main_v5 main_v6 main_v4 main_v7 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_1 (constant S_ .f32 0x3F800000#32),
    StableHlo.unary main_cst_1 main_v8 (broadcastInDim S100000 ![] bcast_S_S100000 : (⟨S_, .f32⟩ : BufTy).Contents (Elt F) → (⟨S100000, .f32⟩ : BufTy).Contents (Elt F)),
    StableHlo.binary main_v7 main_v8 main_v9 (addf : (⟨S100000, .f32⟩ : BufTy).Contents (Elt F) → (⟨S100000, .f32⟩ : BufTy).Contents (Elt F) → (⟨S100000, .f32⟩ : BufTy).Contents (Elt F)),
    StableHlo.unary main_v9 main_v10 (Host.rsqrt : (⟨S100000, .f32⟩ : BufTy).Contents (Elt F) → (⟨S100000, .f32⟩ : BufTy).Contents (Elt F)) ]

theorem pre_sub : (pre (F := F)).Forall fun op => op.bufs ⊆ tcRefs τ sig := by
  unfold pre
  exact ⟨unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., unary_bufs_sub ..⟩

theorem pre_fresh : (pre (F := F)).Forall fun op => op.fresh = ∅ := by
  unfold pre
  exact ⟨rfl, rfl, rfl, rfl, rfl, rfl, rfl, rfl, rfl, rfl, rfl, rfl, rfl, rfl⟩

/-- The first dense layer. -/
def lin1L : List (HloOp τ sig (Elt F)) :=
  [ StableHlo.binary main_arg0 main_arg2 main_v11 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)) ]

theorem lin1L_sub : (lin1L (F := F)).Forall fun op => op.bufs ⊆ tcRefs τ sig := by
  unfold lin1L
  exact binary_bufs_sub ..

theorem lin1L_fresh : (lin1L (F := F)).Forall fun op => op.fresh = ∅ := by
  unfold lin1L
  exact rfl

/-- The first neighbourhood sum. -/
def agg1 : List (HloOp τ sig (Elt F)) :=
  [ StableHlo.nullary main_c (constantI S_ 32 0#32),
    StableHlo.unary main_c main_v12 (broadcastInDim S1600000 ![] bcast_S_S1600000 : (⟨S_, .i32⟩ : BufTy).Contents (Elt F) → (⟨S1600000, .i32⟩ : BufTy).Contents (Elt F)),
    StableHlo.binary main_v1 main_v12 main_v13 (cmpi .slt : (⟨S1600000, .i32⟩ : BufTy).Contents (Elt F) → (⟨S1600000, .i32⟩ : BufTy).Contents (Elt F) → (⟨S1600000, .i1⟩ : BufTy).Contents (Elt F)),
    StableHlo.nullary main_c_2 (constantI S_ 32 100000#32),
    StableHlo.unary main_c_2 main_v14 (broadcastInDim S1600000 ![] bcast_S_S1600000 : (⟨S_, .i32⟩ : BufTy).Contents (Elt F) → (⟨S1600000, .i32⟩ : BufTy).Contents (Elt F)),
    StableHlo.binary main_v1 main_v14 main_v15 (addi : (⟨S1600000, .i32⟩ : BufTy).Contents (Elt F) → (⟨S1600000, .i32⟩ : BufTy).Contents (Elt F) → (⟨S1600000, .i32⟩ : BufTy).Contents (Elt F)),
    StableHlo.ternary main_v13 main_v15 main_v1 main_v16 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v16 main_v17 (broadcastInDim S1600000x1 ![0] bcast_S1600000_S1600000x1_0 : (⟨S1600000, .i32⟩ : BufTy).Contents (Elt F) → (⟨S1600000x1, .i32⟩ : BufTy).Contents (Elt F)),
    StableHlo.binary main_v10 main_v17 main_v18 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.nullary main_c_3 (constantI S_ 32 0#32),
    StableHlo.unary main_c_3 main_v19 (broadcastInDim S1600000 ![] bcast_S_S1600000 : (⟨S_, .i32⟩ : BufTy).Contents (Elt F) → (⟨S1600000, .i32⟩ : BufTy).Contents (Elt F)),
    StableHlo.binary main_v3 main_v19 main_v20 (cmpi .slt : (⟨S1600000, .i32⟩ : BufTy).Contents (Elt F) → (⟨S1600000, .i32⟩ : BufTy).Contents (Elt F) → (⟨S1600000, .i1⟩ : BufTy).Contents (Elt F)),
    StableHlo.nullary main_c_4 (constantI S_ 32 100000#32),
    StableHlo.unary main_c_4 main_v21 (broadcastInDim S1600000 ![] bcast_S_S1600000 : (⟨S_, .i32⟩ : BufTy).Contents (Elt F) → (⟨S1600000, .i32⟩ : BufTy).Contents (Elt F)),
    StableHlo.binary main_v3 main_v21 main_v22 (addi : (⟨S1600000, .i32⟩ : BufTy).Contents (Elt F) → (⟨S1600000, .i32⟩ : BufTy).Contents (Elt F) → (⟨S1600000, .i32⟩ : BufTy).Contents (Elt F)),
    StableHlo.ternary main_v20 main_v22 main_v3 main_v23 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v23 main_v24 (broadcastInDim S1600000x1 ![0] bcast_S1600000_S1600000x1_0 : (⟨S1600000, .i32⟩ : BufTy).Contents (Elt F) → (⟨S1600000x1, .i32⟩ : BufTy).Contents (Elt F)),
    StableHlo.binary main_v10 main_v24 main_v25 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v18 main_v25 main_v26 (mulf : (⟨S1600000, .f32⟩ : BufTy).Contents (Elt F) → (⟨S1600000, .f32⟩ : BufTy).Contents (Elt F) → (⟨S1600000, .f32⟩ : BufTy).Contents (Elt F)),
    StableHlo.nullary main_c_5 (constantI S_ 32 0#32),
    StableHlo.unary main_c_5 main_v27 (broadcastInDim S1600000 ![] bcast_S_S1600000 : (⟨S_, .i32⟩ : BufTy).Contents (Elt F) → (⟨S1600000, .i32⟩ : BufTy).Contents (Elt F)),
    StableHlo.binary main_v1 main_v27 main_v28 (cmpi .slt : (⟨S1600000, .i32⟩ : BufTy).Contents (Elt F) → (⟨S1600000, .i32⟩ : BufTy).Contents (Elt F) → (⟨S1600000, .i1⟩ : BufTy).Contents (Elt F)),
    StableHlo.nullary main_c_6 (constantI S_ 32 100000#32),
    StableHlo.unary main_c_6 main_v29 (broadcastInDim S1600000 ![] bcast_S_S1600000 : (⟨S_, .i32⟩ : BufTy).Contents (Elt F) → (⟨S1600000, .i32⟩ : BufTy).Contents (Elt F)),
    StableHlo.binary main_v1 main_v29 main_v30 (addi : (⟨S1600000, .i32⟩ : BufTy).Contents (Elt F) → (⟨S1600000, .i32⟩ : BufTy).Contents (Elt F) → (⟨S1600000, .i32⟩ : BufTy).Contents (Elt F)),
    StableHlo.ternary main_v28 main_v30 main_v1 main_v31 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v31 main_v32 (broadcastInDim S1600000x1 ![0] bcast_S1600000_S1600000x1_0 : (⟨S1600000, .i32⟩ : BufTy).Contents (Elt F) → (⟨S1600000x1, .i32⟩ : BufTy).Contents (Elt F)),
    StableHlo.binary main_v11 main_v32 main_v33 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.unary main_v26 main_v34 (broadcastInDim S1600000x1 ![0] bcast_S1600000_S1600000x1_0 : (⟨S1600000, .f32⟩ : BufTy).Contents (Elt F) → (⟨S1600000x1, .f32⟩ : BufTy).Contents (Elt F)),
    StableHlo.unary main_v34 main_v35 (broadcastInDim S1600000x64 ![0, 1] bcast_S1600000x1_S1600000x64_0_1 : (⟨S1600000x1, .f32⟩ : BufTy).Contents (Elt F) → (⟨S1600000x64, .f32⟩ : BufTy).Contents (Elt F)),
    StableHlo.binary main_v33 main_v35 main_v36 (mulf : (⟨S1600000x64, .f32⟩ : BufTy).Contents (Elt F) → (⟨S1600000x64, .f32⟩ : BufTy).Contents (Elt F) → (⟨S1600000x64, .f32⟩ : BufTy).Contents (Elt F)),
    StableHlo.nullary main_cst_7 (constant S_ .f32 0x00000000#32),
    StableHlo.unary main_cst_7 main_v37 (broadcastInDim S100000x64 ![] bcast_S_S100000x64 : (⟨S_, .f32⟩ : BufTy).Contents (Elt F) → (⟨S100000x64, .f32⟩ : BufTy).Contents (Elt F)),
    StableHlo.unary main_v3 main_v38 (broadcastInDim S1600000x1 ![0] bcast_S1600000_S1600000x1_0 : (⟨S1600000, .i32⟩ : BufTy).Contents (Elt F) → (⟨S1600000x1, .i32⟩ : BufTy).Contents (Elt F)),
    StableHlo.ternary main_v37 main_v38 main_v36 main_v39 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.binary main_v10 main_v10 main_v40 (mulf : (⟨S100000, .f32⟩ : BufTy).Contents (Elt F) → (⟨S100000, .f32⟩ : BufTy).Contents (Elt F) → (⟨S100000, .f32⟩ : BufTy).Contents (Elt F)),
    StableHlo.unary main_v40 main_v41 (broadcastInDim S100000x1 ![0] bcast_S100000_S100000x1_0 : (⟨S100000, .f32⟩ : BufTy).Contents (Elt F) → (⟨S100000x1, .f32⟩ : BufTy).Contents (Elt F)),
    StableHlo.unary main_v41 main_v42 (broadcastInDim S100000x64 ![0, 1] bcast_S100000x1_S100000x64_0_1 : (⟨S100000x1, .f32⟩ : BufTy).Contents (Elt F) → (⟨S100000x64, .f32⟩ : BufTy).Contents (Elt F)),
    StableHlo.binary main_v11 main_v42 main_v43 (mulf : (⟨S100000x64, .f32⟩ : BufTy).Contents (Elt F) → (⟨S100000x64, .f32⟩ : BufTy).Contents (Elt F) → (⟨S100000x64, .f32⟩ : BufTy).Contents (Elt F)),
    StableHlo.binary main_v39 main_v43 main_v44 (addf : (⟨S100000x64, .f32⟩ : BufTy).Contents (Elt F) → (⟨S100000x64, .f32⟩ : BufTy).Contents (Elt F) → (⟨S100000x64, .f32⟩ : BufTy).Contents (Elt F)),
    StableHlo.unary main_arg3 main_v45 (broadcastInDim S1x64 ![1] bcast_S64_S1x64_1 : (⟨S64, .f32⟩ : BufTy).Contents (Elt F) → (⟨S1x64, .f32⟩ : BufTy).Contents (Elt F)),
    StableHlo.unary main_v45 main_v46 (broadcastInDim S100000x64 ![0, 1] bcast_S1x64_S100000x64_0_1 : (⟨S1x64, .f32⟩ : BufTy).Contents (Elt F) → (⟨S100000x64, .f32⟩ : BufTy).Contents (Elt F)),
    StableHlo.binary main_v44 main_v46 main_v47 (addf : (⟨S100000x64, .f32⟩ : BufTy).Contents (Elt F) → (⟨S100000x64, .f32⟩ : BufTy).Contents (Elt F) → (⟨S100000x64, .f32⟩ : BufTy).Contents (Elt F)) ]

theorem agg1_sub : (agg1 (F := F)).Forall fun op => op.bufs ⊆ tcRefs τ sig := by
  unfold agg1
  exact ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub ..⟩

theorem agg1_fresh : (agg1 (F := F)).Forall fun op => op.fresh = ∅ := by
  unfold agg1
  exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The column sums of the first layer's output. -/
def statA : List (HloOp τ sig (Elt F)) :=
  [ StableHlo.nullary main_cst_8 (constant S_ .f32 0x00000000#32),
    StableHlo.binary main_v47 main_cst_8 main_v48 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)) ]

theorem statA_sub : (statA (F := F)).Forall fun op => op.bufs ⊆ tcRefs τ sig := by
  unfold statA
  exact ⟨nullary_bufs_sub .., binary_bufs_sub ..⟩

theorem statA_fresh : (statA (F := F)).Forall fun op => op.fresh = ∅ := by
  unfold statA
  exact ⟨rfl, rfl⟩

/-- The column means, and the integer zero the variance is called with. -/
def statB : List (HloOp τ sig (Elt F)) :=
  [ StableHlo.nullary main_cst_9 (constant S_ .f32 0x47C35000#32),
    StableHlo.unary main_cst_9 main_v49 (broadcastInDim S64 ![] bcast_S_S64 : (⟨S_, .f32⟩ : BufTy).Contents (Elt F) → (⟨S64, .f32⟩ : BufTy).Contents (Elt F)),
    StableHlo.binary main_v48 main_v49 main_v50 (Host.divf : (⟨S64, .f32⟩ : BufTy).Contents (Elt F) → (⟨S64, .f32⟩ : BufTy).Contents (Elt F) → (⟨S64, .f32⟩ : BufTy).Contents (Elt F)),
    StableHlo.nullary main_c_10 (constantI S_ 32 0#32) ]

theorem statB_sub : (statB (F := F)).Forall fun op => op.bufs ⊆ tcRefs τ sig := by
  unfold statB
  exact ⟨nullary_bufs_sub .., unary_bufs_sub .., binary_bufs_sub .., nullary_bufs_sub ..⟩

theorem statB_fresh : (statB (F := F)).Forall fun op => op.fresh = ∅ := by
  unfold statB
  exact ⟨rfl, rfl, rfl, rfl⟩

/-- The variance function's body, then the selection function's, at the call's buffers. -/
def varL : List (HloOp τ sig (Elt F)) :=
  [ StableHlo.TRef.nullary main_call0.cst (constant S_ .f32 0x00000000#32),
    StableHlo.TRef.binary (StableHlo.TRef.of main_v47 : StableHlo.TRef sig ⟨S100000x64, .f32⟩) main_call0.cst main_call0.v0 (fun x v => Host.reduceAdd x v reducesTo_S100000x64_S64_d0 h_S_),
    StableHlo.TRef.unary main_call0.v0 main_call0.v1 (broadcastInDim S1x64 ![1] bcast_S64_S1x64_1),
    StableHlo.TRef.nullary main_call0.cst_0 (constant S_ .f32 0x47C35000#32),
    StableHlo.TRef.unary main_call0.cst_0 main_call0.v2 (broadcastInDim S1x64 ![] bcast_S_S1x64),
    StableHlo.TRef.binary main_call0.v1 main_call0.v2 main_call0.v3 Host.divf,
    StableHlo.TRef.unary main_call0.v3 main_call0.v4 (broadcastInDim S100000x64 ![0, 1] bcast_S1x64_S100000x64_0_1),
    StableHlo.TRef.binary (StableHlo.TRef.of main_v47 : StableHlo.TRef sig ⟨S100000x64, .f32⟩) main_call0.v4 main_call0.v5 subf,
    StableHlo.TRef.binary main_call0.v5 main_call0.v5 main_call0.v6 mulf,
    StableHlo.TRef.unary (StableHlo.TRef.of main_c_10 : StableHlo.TRef sig ⟨S_, .i32⟩) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x64_S64_d0 h_S_),
    StableHlo.TRef.unary main_call0.v8 main_call0.v10 (broadcastInDim S64 ![] bcast_S_S64),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0_call0.v0 id,
    StableHlo.TRef.unary main_call0_call0.v0 main_call0_call0.v1 (broadcastInDim S64 ![] bcast_S_S64),
    StableHlo.TRef.ternary main_call0.v12 main_call0.v11 main_call0_call0.v1 main_call0_call0.v2 (fun p a b => select (broadcastInDim S64 ![] bcast_S_S64 p) a b) ]

theorem varL_sub : (varL (F := F)).Forall fun op => op.bufs ⊆ tcRefs τ sig := by
  unfold varL
  exact ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

theorem varL_fresh : (varL (F := F)).Forall fun op => op.fresh = ∅ := by
  unfold varL
  exact ⟨rfl, rfl, rfl, rfl, rfl, rfl, rfl, rfl, rfl, rfl, rfl, rfl, rfl, rfl, rfl, rfl, rfl, rfl, rfl, rfl, rfl, rfl⟩

/-- The normalization, scale and shift. -/
def bnA : List (HloOp τ sig (Elt F)) :=
  [ StableHlo.unary main_v50 main_v52 (broadcastInDim S1x64 ![1] bcast_S64_S1x64_1 : (⟨S64, .f32⟩ : BufTy).Contents (Elt F) → (⟨S1x64, .f32⟩ : BufTy).Contents (Elt F)),
    StableHlo.unary main_v52 main_v53 (broadcastInDim S100000x64 ![0, 1] bcast_S1x64_S100000x64_0_1 : (⟨S1x64, .f32⟩ : BufTy).Contents (Elt F) → (⟨S100000x64, .f32⟩ : BufTy).Contents (Elt F)),
    StableHlo.binary main_v47 main_v53 main_v54 (subf : (⟨S100000x64, .f32⟩ : BufTy).Contents (Elt F) → (⟨S100000x64, .f32⟩ : BufTy).Contents (Elt F) → (⟨S100000x64, .f32⟩ : BufTy).Contents (Elt F)),
    StableHlo.nullary main_cst_11 (constant S_ .f32 0x3727C5AC#32),
    StableHlo.unary main_cst_11 main_v55 (broadcastInDim S64 ![] bcast_S_S64 : (⟨S_, .f32⟩ : BufTy).Contents (Elt F) → (⟨S64, .f32⟩ : BufTy).Contents (Elt F)),
    StableHlo.binary main_v51 main_v55 main_v56 (addf : (⟨S64, .f32⟩ : BufTy).Contents (Elt F) → (⟨S64, .f32⟩ : BufTy).Contents (Elt F) → (⟨S64, .f32⟩ : BufTy).Contents (Elt F)),
    StableHlo.unary main_v56 main_v57 (Host.rsqrt : (⟨S64, .f32⟩ : BufTy).Contents (Elt F) → (⟨S64, .f32⟩ : BufTy).Contents (Elt F)),
    StableHlo.unary main_v57 main_v58 (broadcastInDim S1x64 ![1] bcast_S64_S1x64_1 : (⟨S64, .f32⟩ : BufTy).Contents (Elt F) → (⟨S1x64, .f32⟩ : BufTy).Contents (Elt F)),
    StableHlo.unary main_v58 main_v59 (broadcastInDim S100000x64 ![0, 1] bcast_S1x64_S100000x64_0_1 : (⟨S1x64, .f32⟩ : BufTy).Contents (Elt F) → (⟨S100000x64, .f32⟩ : BufTy).Contents (Elt F)),
    StableHlo.binary main_v54 main_v59 main_v60 (mulf : (⟨S100000x64, .f32⟩ : BufTy).Contents (Elt F) → (⟨S100000x64, .f32⟩ : BufTy).Contents (Elt F) → (⟨S100000x64, .f32⟩ : BufTy).Contents (Elt F)),
    StableHlo.unary main_arg4 main_v61 (broadcastInDim S1x64 ![1] bcast_S64_S1x64_1 : (⟨S64, .f32⟩ : BufTy).Contents (Elt F) → (⟨S1x64, .f32⟩ : BufTy).Contents (Elt F)),
    StableHlo.unary main_v61 main_v62 (broadcastInDim S100000x64 ![0, 1] bcast_S1x64_S100000x64_0_1 : (⟨S1x64, .f32⟩ : BufTy).Contents (Elt F) → (⟨S100000x64, .f32⟩ : BufTy).Contents (Elt F)),
    StableHlo.binary main_v60 main_v62 main_v63 (mulf : (⟨S100000x64, .f32⟩ : BufTy).Contents (Elt F) → (⟨S100000x64, .f32⟩ : BufTy).Contents (Elt F) → (⟨S100000x64, .f32⟩ : BufTy).Contents (Elt F)),
    StableHlo.unary main_arg5 main_v64 (broadcastInDim S1x64 ![1] bcast_S64_S1x64_1 : (⟨S64, .f32⟩ : BufTy).Contents (Elt F) → (⟨S1x64, .f32⟩ : BufTy).Contents (Elt F)),
    StableHlo.unary main_v64 main_v65 (broadcastInDim S100000x64 ![0, 1] bcast_S1x64_S100000x64_0_1 : (⟨S1x64, .f32⟩ : BufTy).Contents (Elt F) → (⟨S100000x64, .f32⟩ : BufTy).Contents (Elt F)),
    StableHlo.binary main_v63 main_v65 main_v66 (addf : (⟨S100000x64, .f32⟩ : BufTy).Contents (Elt F) → (⟨S100000x64, .f32⟩ : BufTy).Contents (Elt F) → (⟨S100000x64, .f32⟩ : BufTy).Contents (Elt F)) ]

theorem bnA_sub : (bnA (F := F)).Forall fun op => op.bufs ⊆ tcRefs τ sig := by
  unfold bnA
  exact ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩

theorem bnA_fresh : (bnA (F := F)).Forall fun op => op.fresh = ∅ := by
  unfold bnA
  exact ⟨rfl, rfl, rfl, rfl, rfl, rfl, rfl, rfl, rfl, rfl, rfl, rfl, rfl, rfl, rfl, rfl⟩

/-- The positive-part function's body at the call's buffers. -/
def reluL : List (HloOp τ sig (Elt F)) :=
  [ StableHlo.TRef.nullary main_call1.cst (constant S_ .f32 0x00000000#32),
    StableHlo.TRef.unary main_call1.cst main_call1.v0 (broadcastInDim S100000x64 ![] bcast_S_S100000x64),
    StableHlo.TRef.binary (StableHlo.TRef.of main_v66 : StableHlo.TRef sig ⟨S100000x64, .f32⟩) main_call1.v0 main_call1.v1 maximumf ]

theorem reluL_sub : (reluL (F := F)).Forall fun op => op.bufs ⊆ tcRefs τ sig := by
  unfold reluL
  exact ⟨nullary_bufs_sub .., unary_bufs_sub .., binary_bufs_sub ..⟩

theorem reluL_fresh : (reluL (F := F)).Forall fun op => op.fresh = ∅ := by
  unfold reluL
  exact ⟨rfl, rfl, rfl⟩

/-- The second dense layer. -/
def lin2L : List (HloOp τ sig (Elt F)) :=
  [ StableHlo.binary main_v67 main_arg6 main_v68 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) ]

theorem lin2L_sub : (lin2L (F := F)).Forall fun op => op.bufs ⊆ tcRefs τ sig := by
  unfold lin2L
  exact binary_bufs_sub ..

theorem lin2L_fresh : (lin2L (F := F)).Forall fun op => op.fresh = ∅ := by
  unfold lin2L
  exact rfl

/-- The second neighbourhood sum, up to the squared normalizers as a column. -/
def agg2A : List (HloOp τ sig (Elt F)) :=
  [ StableHlo.nullary main_c_12 (constantI S_ 32 0#32),
    StableHlo.unary main_c_12 main_v69 (broadcastInDim S1600000 ![] bcast_S_S1600000 : (⟨S_, .i32⟩ : BufTy).Contents (Elt F) → (⟨S1600000, .i32⟩ : BufTy).Contents (Elt F)),
    StableHlo.binary main_v1 main_v69 main_v70 (cmpi .slt : (⟨S1600000, .i32⟩ : BufTy).Contents (Elt F) → (⟨S1600000, .i32⟩ : BufTy).Contents (Elt F) → (⟨S1600000, .i1⟩ : BufTy).Contents (Elt F)),
    StableHlo.nullary main_c_13 (constantI S_ 32 100000#32),
    StableHlo.unary main_c_13 main_v71 (broadcastInDim S1600000 ![] bcast_S_S1600000 : (⟨S_, .i32⟩ : BufTy).Contents (Elt F) → (⟨S1600000, .i32⟩ : BufTy).Contents (Elt F)),
    StableHlo.binary main_v1 main_v71 main_v72 (addi : (⟨S1600000, .i32⟩ : BufTy).Contents (Elt F) → (⟨S1600000, .i32⟩ : BufTy).Contents (Elt F) → (⟨S1600000, .i32⟩ : BufTy).Contents (Elt F)),
    StableHlo.ternary main_v70 main_v72 main_v1 main_v73 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v73 main_v74 (broadcastInDim S1600000x1 ![0] bcast_S1600000_S1600000x1_0 : (⟨S1600000, .i32⟩ : BufTy).Contents (Elt F) → (⟨S1600000x1, .i32⟩ : BufTy).Contents (Elt F)),
    StableHlo.binary main_v10 main_v74 main_v75 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.nullary main_c_14 (constantI S_ 32 0#32),
    StableHlo.unary main_c_14 main_v76 (broadcastInDim S1600000 ![] bcast_S_S1600000 : (⟨S_, .i32⟩ : BufTy).Contents (Elt F) → (⟨S1600000, .i32⟩ : BufTy).Contents (Elt F)),
    StableHlo.binary main_v3 main_v76 main_v77 (cmpi .slt : (⟨S1600000, .i32⟩ : BufTy).Contents (Elt F) → (⟨S1600000, .i32⟩ : BufTy).Contents (Elt F) → (⟨S1600000, .i1⟩ : BufTy).Contents (Elt F)),
    StableHlo.nullary main_c_15 (constantI S_ 32 100000#32),
    StableHlo.unary main_c_15 main_v78 (broadcastInDim S1600000 ![] bcast_S_S1600000 : (⟨S_, .i32⟩ : BufTy).Contents (Elt F) → (⟨S1600000, .i32⟩ : BufTy).Contents (Elt F)),
    StableHlo.binary main_v3 main_v78 main_v79 (addi : (⟨S1600000, .i32⟩ : BufTy).Contents (Elt F) → (⟨S1600000, .i32⟩ : BufTy).Contents (Elt F) → (⟨S1600000, .i32⟩ : BufTy).Contents (Elt F)),
    StableHlo.ternary main_v77 main_v79 main_v3 main_v80 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v80 main_v81 (broadcastInDim S1600000x1 ![0] bcast_S1600000_S1600000x1_0 : (⟨S1600000, .i32⟩ : BufTy).Contents (Elt F) → (⟨S1600000x1, .i32⟩ : BufTy).Contents (Elt F)),
    StableHlo.binary main_v10 main_v81 main_v82 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v75 main_v82 main_v83 (mulf : (⟨S1600000, .f32⟩ : BufTy).Contents (Elt F) → (⟨S1600000, .f32⟩ : BufTy).Contents (Elt F) → (⟨S1600000, .f32⟩ : BufTy).Contents (Elt F)),
    StableHlo.nullary main_c_16 (constantI S_ 32 0#32),
    StableHlo.unary main_c_16 main_v84 (broadcastInDim S1600000 ![] bcast_S_S1600000 : (⟨S_, .i32⟩ : BufTy).Contents (Elt F) → (⟨S1600000, .i32⟩ : BufTy).Contents (Elt F)),
    StableHlo.binary main_v1 main_v84 main_v85 (cmpi .slt : (⟨S1600000, .i32⟩ : BufTy).Contents (Elt F) → (⟨S1600000, .i32⟩ : BufTy).Contents (Elt F) → (⟨S1600000, .i1⟩ : BufTy).Contents (Elt F)),
    StableHlo.nullary main_c_17 (constantI S_ 32 100000#32),
    StableHlo.unary main_c_17 main_v86 (broadcastInDim S1600000 ![] bcast_S_S1600000 : (⟨S_, .i32⟩ : BufTy).Contents (Elt F) → (⟨S1600000, .i32⟩ : BufTy).Contents (Elt F)),
    StableHlo.binary main_v1 main_v86 main_v87 (addi : (⟨S1600000, .i32⟩ : BufTy).Contents (Elt F) → (⟨S1600000, .i32⟩ : BufTy).Contents (Elt F) → (⟨S1600000, .i32⟩ : BufTy).Contents (Elt F)),
    StableHlo.ternary main_v85 main_v87 main_v1 main_v88 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v88 main_v89 (broadcastInDim S1600000x1 ![0] bcast_S1600000_S1600000x1_0 : (⟨S1600000, .i32⟩ : BufTy).Contents (Elt F) → (⟨S1600000x1, .i32⟩ : BufTy).Contents (Elt F)),
    StableHlo.binary main_v68 main_v89 main_v90 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.unary main_v83 main_v91 (broadcastInDim S1600000x1 ![0] bcast_S1600000_S1600000x1_0 : (⟨S1600000, .f32⟩ : BufTy).Contents (Elt F) → (⟨S1600000x1, .f32⟩ : BufTy).Contents (Elt F)),
    StableHlo.unary main_v91 main_v92 (broadcastInDim S1600000x64 ![0, 1] bcast_S1600000x1_S1600000x64_0_1 : (⟨S1600000x1, .f32⟩ : BufTy).Contents (Elt F) → (⟨S1600000x64, .f32⟩ : BufTy).Contents (Elt F)),
    StableHlo.binary main_v90 main_v92 main_v93 (mulf : (⟨S1600000x64, .f32⟩ : BufTy).Contents (Elt F) → (⟨S1600000x64, .f32⟩ : BufTy).Contents (Elt F) → (⟨S1600000x64, .f32⟩ : BufTy).Contents (Elt F)),
    StableHlo.nullary main_cst_18 (constant S_ .f32 0x00000000#32),
    StableHlo.unary main_cst_18 main_v94 (broadcastInDim S100000x64 ![] bcast_S_S100000x64 : (⟨S_, .f32⟩ : BufTy).Contents (Elt F) → (⟨S100000x64, .f32⟩ : BufTy).Contents (Elt F)),
    StableHlo.unary main_v3 main_v95 (broadcastInDim S1600000x1 ![0] bcast_S1600000_S1600000x1_0 : (⟨S1600000, .i32⟩ : BufTy).Contents (Elt F) → (⟨S1600000x1, .i32⟩ : BufTy).Contents (Elt F)),
    StableHlo.ternary main_v94 main_v95 main_v93 main_v96 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.binary main_v10 main_v10 main_v97 (mulf : (⟨S100000, .f32⟩ : BufTy).Contents (Elt F) → (⟨S100000, .f32⟩ : BufTy).Contents (Elt F) → (⟨S100000, .f32⟩ : BufTy).Contents (Elt F)),
    StableHlo.unary main_v97 main_v98 (broadcastInDim S100000x1 ![0] bcast_S100000_S100000x1_0 : (⟨S100000, .f32⟩ : BufTy).Contents (Elt F) → (⟨S100000x1, .f32⟩ : BufTy).Contents (Elt F)) ]

theorem agg2A_sub : (agg2A (F := F)).Forall fun op => op.bufs ⊆ tcRefs τ sig := by
  unfold agg2A
  exact ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., unary_bufs_sub ..⟩

theorem agg2A_fresh : (agg2A (F := F)).Forall fun op => op.fresh = ∅ := by
  unfold agg2A
  exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The rest of the second neighbourhood sum. -/
def agg2B : List (HloOp τ sig (Elt F)) :=
  [ StableHlo.unary main_v98 main_v99 (broadcastInDim S100000x64 ![0, 1] bcast_S100000x1_S100000x64_0_1 : (⟨S100000x1, .f32⟩ : BufTy).Contents (Elt F) → (⟨S100000x64, .f32⟩ : BufTy).Contents (Elt F)),
    StableHlo.binary main_v68 main_v99 main_v100 (mulf : (⟨S100000x64, .f32⟩ : BufTy).Contents (Elt F) → (⟨S100000x64, .f32⟩ : BufTy).Contents (Elt F) → (⟨S100000x64, .f32⟩ : BufTy).Contents (Elt F)),
    StableHlo.binary main_v96 main_v100 main_v101 (addf : (⟨S100000x64, .f32⟩ : BufTy).Contents (Elt F) → (⟨S100000x64, .f32⟩ : BufTy).Contents (Elt F) → (⟨S100000x64, .f32⟩ : BufTy).Contents (Elt F)),
    StableHlo.unary main_arg7 main_v102 (broadcastInDim S1x64 ![1] bcast_S64_S1x64_1 : (⟨S64, .f32⟩ : BufTy).Contents (Elt F) → (⟨S1x64, .f32⟩ : BufTy).Contents (Elt F)),
    StableHlo.unary main_v102 main_v103 (broadcastInDim S100000x64 ![0, 1] bcast_S1x64_S100000x64_0_1 : (⟨S1x64, .f32⟩ : BufTy).Contents (Elt F) → (⟨S100000x64, .f32⟩ : BufTy).Contents (Elt F)),
    StableHlo.binary main_v101 main_v103 main_v104 (addf : (⟨S100000x64, .f32⟩ : BufTy).Contents (Elt F) → (⟨S100000x64, .f32⟩ : BufTy).Contents (Elt F) → (⟨S100000x64, .f32⟩ : BufTy).Contents (Elt F)) ]

theorem agg2B_sub : (agg2B (F := F)).Forall fun op => op.bufs ⊆ tcRefs τ sig := by
  unfold agg2B
  exact ⟨unary_bufs_sub .., binary_bufs_sub .., binary_bufs_sub .., unary_bufs_sub .., unary_bufs_sub .., binary_bufs_sub ..⟩

theorem agg2B_fresh : (agg2B (F := F)).Forall fun op => op.fresh = ∅ := by
  unfold agg2B
  exact ⟨rfl, rfl, rfl, rfl, rfl, rfl⟩

/-- The first window is the line of its stretches. -/
theorem part0_eq (d : Dev nD) : main_part0 (F := F) d = seq (pre ++ (lin1L ++ (agg1 ++ statA))) := rfl

/-- The second window is the line of its stretches, the two called functions' bodies among them. -/
theorem part1_eq (d : Dev nD) :
    main_part1 (F := F) d = seq (statB ++ (varL ++ (bnA ++ (reluL ++ (lin2L ++ agg2A))))) := rfl

/-- The third window is the last stretch. -/
theorem part2_eq (d : Dev nD) : main_part2 (F := F) d = seq agg2B := rfl

/-- All of @main's operations, in order. -/
def allOps : List (HloOp τ sig (Elt F)) :=
  pre ++ (lin1L ++ (agg1 ++ (statA ++ (statB ++ (varL ++ (bnA ++ (reluL ++ (lin2L ++ (agg2A ++ (agg2B))))))))))

/-- @main is the line of all its operations. -/
theorem main_eq (d : Dev nD) : main (F := F) d = seq allOps := by
  show (main_part0 d >>= fun _ => main_part1 d >>= fun _ => main_part2 d) = _
  rw [part0_eq, part1_eq, part2_eq, ← seq_append, ← seq_append]
  simp only [allOps, List.append_assoc]

theorem allOps_sub : (allOps (F := F)).Forall fun op => op.bufs ⊆ tcRefs τ sig :=
  forall_append pre_sub (forall_append lin1L_sub (forall_append agg1_sub (forall_append statA_sub (forall_append statB_sub (forall_append varL_sub (forall_append bnA_sub (forall_append reluL_sub (forall_append lin2L_sub (forall_append agg2A_sub (agg2B_sub))))))))))

theorem allOps_fresh : (allOps (F := F)).Forall fun op => op.fresh = ∅ :=
  forall_append pre_fresh (forall_append lin1L_fresh (forall_append agg1_fresh (forall_append statA_fresh (forall_append statB_fresh (forall_append varL_fresh (forall_append bnA_fresh (forall_append reluL_fresh (forall_append lin2L_fresh (forall_append agg2A_fresh (agg2B_fresh))))))))))

theorem scopedRefs_eq : (Finset.univ.filter fun b : Ref sig .tc => b.isScoped) = ∅ := by decide
theorem scopedSems_eq : (Finset.univ.filter fun sm : SemLoc sig => sm.isScoped .tc) = ∅ := by decide

/-- From any memory with zero counters every weakly fair execution of @main terminates, each buffer ending at the
    fold of all the operations over its launch contents. -/
theorem run_all (m : (ℓ : Loc nD τ sig) → Buf (Elt F) ℓ) (ρ : Dev nD → PrngReg) :
    θ_run defs (onTc (τ := τ) (main (F := F))) ⟨m, fun _ => 0, ρ⟩ fun r => ∀ (d : Dev nD) (b : Ref sig .tc),
      r.2.mem ((d.tc : Thread nD τ).loc b) = after allOps (launchContents m d) (Proc.devRef .tc b) :=
  run_seq scopedRefs_eq scopedSems_eq defs main (fun _ => allOps) main_eq (fun _ => allOps_sub) m ρ
    (fun _ => List.forall_iff_forall_mem.mp allOps_fresh)

end Cert.ReferenceIdeal.Hand

end
-- ==== Proof.RefRun.lean ====
/-
  The reference's run read back: the result buffer after all of @main's operations is the composition of the named
  stages of the argument arrays, and the argument buffers are unchanged.

  Each stretch of operations is read back by itself, from ANY contents: the buffer it computes holds the stretch's stage
  of the buffers it reads, and every buffer it does not write keeps its contents. The whole line is then the stretches
  one after the other, each reading the few buffers an earlier one named.
-/
import proofs.«135803_j78812649882125_2_alg».proof.Proof.RefStages
import proofs.«135803_j78812649882125_2_alg».proof.Proof.RefOps

noncomputable section

namespace Cert.ReferenceIdeal.Hand

open Cert.ReferenceIdeal Idealize.ShloMosaic Idealize.ShloMosaic.TcCoe Idealize.SL.Sem Idealize.ShloMosaic.StableHlo
open Cert.ReferenceIdeal.Facts₀

/-- An operation that writes one buffer, a member of a list, writes inside the list. -/
theorem writes_sub_of_mem {Val : EltTy → Type} {W : List (Ref sig .tc)} {op : HloOp τ sig Val} (y : Ref sig .tc)
    (hw : op.writes = {Proc.devRef .tc y}) (hy : y ∈ W) :
    op.writes ⊆ (W.map (Proc.devRef (τ := τ) .tc)).toFinset := by
  rw [hw, Finset.singleton_subset_iff, List.mem_toFinset]
  exact List.mem_map_of_mem hy

/-- The contents at the ideal instance. -/
abbrev Vl : Type := Valuation τ sig (Elt Ideal)

/-! ## What each stretch leaves alone -/

/-- The buffers the stretch writes. -/
def preW : List (Ref sig .tc) :=
  [main_v0, main_v1, main_v2, main_v3, main_cst, main_v4, main_cst_0, main_v5, main_v6, main_v7, main_cst_1, main_v8, main_v9, main_v10]

theorem pre_writes : (pre (F := Ideal)).Forall fun op => op.writes ⊆ (preW.map (Proc.devRef (τ := τ) .tc)).toFinset := by
  unfold pre
  exact ⟨writes_sub_of_mem main_v0 rfl (by decide),
    writes_sub_of_mem main_v1 rfl (by decide),
    writes_sub_of_mem main_v2 rfl (by decide),
    writes_sub_of_mem main_v3 rfl (by decide),
    writes_sub_of_mem main_cst rfl (by decide),
    writes_sub_of_mem main_v4 rfl (by decide),
    writes_sub_of_mem main_cst_0 rfl (by decide),
    writes_sub_of_mem main_v5 rfl (by decide),
    writes_sub_of_mem main_v6 rfl (by decide),
    writes_sub_of_mem main_v7 rfl (by decide),
    writes_sub_of_mem main_cst_1 rfl (by decide),
    writes_sub_of_mem main_v8 rfl (by decide),
    writes_sub_of_mem main_v9 rfl (by decide),
    writes_sub_of_mem main_v10 rfl (by decide)⟩

theorem pre_frame (V : Vl) {r : Ref sig .tc} (hr : r ∉ preW) :
    after pre V (no_index (Proc.devRef .tc r)) = V (Proc.devRef .tc r) :=
  after_of_writes_sub pre V pre_writes hr

/-- The buffers the stretch writes. -/
def lin1LW : List (Ref sig .tc) :=
  [main_v11]

theorem lin1L_writes : (lin1L (F := Ideal)).Forall fun op => op.writes ⊆ (lin1LW.map (Proc.devRef (τ := τ) .tc)).toFinset := by
  unfold lin1L
  exact writes_sub_of_mem main_v11 rfl (by decide)

theorem lin1L_frame (V : Vl) {r : Ref sig .tc} (hr : r ∉ lin1LW) :
    after lin1L V (no_index (Proc.devRef .tc r)) = V (Proc.devRef .tc r) :=
  after_of_writes_sub lin1L V lin1L_writes hr

/-- The buffers the stretch writes. -/
def agg1W : List (Ref sig .tc) :=
  [main_c, main_v12, main_v13, main_c_2, main_v14, main_v15, main_v16, main_v17, main_v18, main_c_3, main_v19, main_v20, main_c_4, main_v21, main_v22, main_v23, main_v24, main_v25, main_v26, main_c_5, main_v27, main_v28, main_c_6, main_v29, main_v30, main_v31, main_v32, main_v33, main_v34, main_v35, main_v36, main_cst_7, main_v37, main_v38, main_v39, main_v40, main_v41, main_v42, main_v43, main_v44, main_v45, main_v46, main_v47]

theorem agg1_writes : (agg1 (F := Ideal)).Forall fun op => op.writes ⊆ (agg1W.map (Proc.devRef (τ := τ) .tc)).toFinset := by
  unfold agg1
  exact ⟨writes_sub_of_mem main_c rfl (by decide),
    writes_sub_of_mem main_v12 rfl (by decide),
    writes_sub_of_mem main_v13 rfl (by decide),
    writes_sub_of_mem main_c_2 rfl (by decide),
    writes_sub_of_mem main_v14 rfl (by decide),
    writes_sub_of_mem main_v15 rfl (by decide),
    writes_sub_of_mem main_v16 rfl (by decide),
    writes_sub_of_mem main_v17 rfl (by decide),
    writes_sub_of_mem main_v18 rfl (by decide),
    writes_sub_of_mem main_c_3 rfl (by decide),
    writes_sub_of_mem main_v19 rfl (by decide),
    writes_sub_of_mem main_v20 rfl (by decide),
    writes_sub_of_mem main_c_4 rfl (by decide),
    writes_sub_of_mem main_v21 rfl (by decide),
    writes_sub_of_mem main_v22 rfl (by decide),
    writes_sub_of_mem main_v23 rfl (by decide),
    writes_sub_of_mem main_v24 rfl (by decide),
    writes_sub_of_mem main_v25 rfl (by decide),
    writes_sub_of_mem main_v26 rfl (by decide),
    writes_sub_of_mem main_c_5 rfl (by decide),
    writes_sub_of_mem main_v27 rfl (by decide),
    writes_sub_of_mem main_v28 rfl (by decide),
    writes_sub_of_mem main_c_6 rfl (by decide),
    writes_sub_of_mem main_v29 rfl (by decide),
    writes_sub_of_mem main_v30 rfl (by decide),
    writes_sub_of_mem main_v31 rfl (by decide),
    writes_sub_of_mem main_v32 rfl (by decide),
    writes_sub_of_mem main_v33 rfl (by decide),
    writes_sub_of_mem main_v34 rfl (by decide),
    writes_sub_of_mem main_v35 rfl (by decide),
    writes_sub_of_mem main_v36 rfl (by decide),
    writes_sub_of_mem main_cst_7 rfl (by decide),
    writes_sub_of_mem main_v37 rfl (by decide),
    writes_sub_of_mem main_v38 rfl (by decide),
    writes_sub_of_mem main_v39 rfl (by decide),
    writes_sub_of_mem main_v40 rfl (by decide),
    writes_sub_of_mem main_v41 rfl (by decide),
    writes_sub_of_mem main_v42 rfl (by decide),
    writes_sub_of_mem main_v43 rfl (by decide),
    writes_sub_of_mem main_v44 rfl (by decide),
    writes_sub_of_mem main_v45 rfl (by decide),
    writes_sub_of_mem main_v46 rfl (by decide),
    writes_sub_of_mem main_v47 rfl (by decide)⟩

theorem agg1_frame (V : Vl) {r : Ref sig .tc} (hr : r ∉ agg1W) :
    after agg1 V (no_index (Proc.devRef .tc r)) = V (Proc.devRef .tc r) :=
  after_of_writes_sub agg1 V agg1_writes hr

/-- The buffers the stretch writes. -/
def statAW : List (Ref sig .tc) :=
  [main_cst_8, main_v48]

theorem statA_writes : (statA (F := Ideal)).Forall fun op => op.writes ⊆ (statAW.map (Proc.devRef (τ := τ) .tc)).toFinset := by
  unfold statA
  exact ⟨writes_sub_of_mem main_cst_8 rfl (by decide),
    writes_sub_of_mem main_v48 rfl (by decide)⟩

theorem statA_frame (V : Vl) {r : Ref sig .tc} (hr : r ∉ statAW) :
    after statA V (no_index (Proc.devRef .tc r)) = V (Proc.devRef .tc r) :=
  after_of_writes_sub statA V statA_writes hr

/-- The buffers the stretch writes. -/
def statBW : List (Ref sig .tc) :=
  [main_cst_9, main_v49, main_v50, main_c_10]

theorem statB_writes : (statB (F := Ideal)).Forall fun op => op.writes ⊆ (statBW.map (Proc.devRef (τ := τ) .tc)).toFinset := by
  unfold statB
  exact ⟨writes_sub_of_mem main_cst_9 rfl (by decide),
    writes_sub_of_mem main_v49 rfl (by decide),
    writes_sub_of_mem main_v50 rfl (by decide),
    writes_sub_of_mem main_c_10 rfl (by decide)⟩

theorem statB_frame (V : Vl) {r : Ref sig .tc} (hr : r ∉ statBW) :
    after statB V (no_index (Proc.devRef .tc r)) = V (Proc.devRef .tc r) :=
  after_of_writes_sub statB V statB_writes hr

/-- The buffers the stretch writes. -/
def varLW : List (Ref sig .tc) :=
  [main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v51]

theorem varL_writes : (varL (F := Ideal)).Forall fun op => op.writes ⊆ (varLW.map (Proc.devRef (τ := τ) .tc)).toFinset := by
  unfold varL
  exact ⟨writes_sub_of_mem main_call0_cst rfl (by decide),
    writes_sub_of_mem main_call0_v0 rfl (by decide),
    writes_sub_of_mem main_call0_v1 rfl (by decide),
    writes_sub_of_mem main_call0_cst_0 rfl (by decide),
    writes_sub_of_mem main_call0_v2 rfl (by decide),
    writes_sub_of_mem main_call0_v3 rfl (by decide),
    writes_sub_of_mem main_call0_v4 rfl (by decide),
    writes_sub_of_mem main_call0_v5 rfl (by decide),
    writes_sub_of_mem main_call0_v6 rfl (by decide),
    writes_sub_of_mem main_call0_v7 rfl (by decide),
    writes_sub_of_mem main_call0_cst_1 rfl (by decide),
    writes_sub_of_mem main_call0_v8 rfl (by decide),
    writes_sub_of_mem main_call0_cst_2 rfl (by decide),
    writes_sub_of_mem main_call0_v9 rfl (by decide),
    writes_sub_of_mem main_call0_v10 rfl (by decide),
    writes_sub_of_mem main_call0_v11 rfl (by decide),
    writes_sub_of_mem main_call0_cst_3 rfl (by decide),
    writes_sub_of_mem main_call0_v12 rfl (by decide),
    writes_sub_of_mem main_call0_cst_4 rfl (by decide),
    writes_sub_of_mem main_call0_call0_v0 rfl (by decide),
    writes_sub_of_mem main_call0_call0_v1 rfl (by decide),
    writes_sub_of_mem main_v51 rfl (by decide)⟩

theorem varL_frame (V : Vl) {r : Ref sig .tc} (hr : r ∉ varLW) :
    after varL V (no_index (Proc.devRef .tc r)) = V (Proc.devRef .tc r) :=
  after_of_writes_sub varL V varL_writes hr

/-- The buffers the stretch writes. -/
def bnAW : List (Ref sig .tc) :=
  [main_v52, main_v53, main_v54, main_cst_11, main_v55, main_v56, main_v57, main_v58, main_v59, main_v60, main_v61, main_v62, main_v63, main_v64, main_v65, main_v66]

theorem bnA_writes : (bnA (F := Ideal)).Forall fun op => op.writes ⊆ (bnAW.map (Proc.devRef (τ := τ) .tc)).toFinset := by
  unfold bnA
  exact ⟨writes_sub_of_mem main_v52 rfl (by decide),
    writes_sub_of_mem main_v53 rfl (by decide),
    writes_sub_of_mem main_v54 rfl (by decide),
    writes_sub_of_mem main_cst_11 rfl (by decide),
    writes_sub_of_mem main_v55 rfl (by decide),
    writes_sub_of_mem main_v56 rfl (by decide),
    writes_sub_of_mem main_v57 rfl (by decide),
    writes_sub_of_mem main_v58 rfl (by decide),
    writes_sub_of_mem main_v59 rfl (by decide),
    writes_sub_of_mem main_v60 rfl (by decide),
    writes_sub_of_mem main_v61 rfl (by decide),
    writes_sub_of_mem main_v62 rfl (by decide),
    writes_sub_of_mem main_v63 rfl (by decide),
    writes_sub_of_mem main_v64 rfl (by decide),
    writes_sub_of_mem main_v65 rfl (by decide),
    writes_sub_of_mem main_v66 rfl (by decide)⟩

theorem bnA_frame (V : Vl) {r : Ref sig .tc} (hr : r ∉ bnAW) :
    after bnA V (no_index (Proc.devRef .tc r)) = V (Proc.devRef .tc r) :=
  after_of_writes_sub bnA V bnA_writes hr

/-- The buffers the stretch writes. -/
def reluLW : List (Ref sig .tc) :=
  [main_call1_cst, main_call1_v0, main_v67]

theorem reluL_writes : (reluL (F := Ideal)).Forall fun op => op.writes ⊆ (reluLW.map (Proc.devRef (τ := τ) .tc)).toFinset := by
  unfold reluL
  exact ⟨writes_sub_of_mem main_call1_cst rfl (by decide),
    writes_sub_of_mem main_call1_v0 rfl (by decide),
    writes_sub_of_mem main_v67 rfl (by decide)⟩

theorem reluL_frame (V : Vl) {r : Ref sig .tc} (hr : r ∉ reluLW) :
    after reluL V (no_index (Proc.devRef .tc r)) = V (Proc.devRef .tc r) :=
  after_of_writes_sub reluL V reluL_writes hr

/-- The buffers the stretch writes. -/
def lin2LW : List (Ref sig .tc) :=
  [main_v68]

theorem lin2L_writes : (lin2L (F := Ideal)).Forall fun op => op.writes ⊆ (lin2LW.map (Proc.devRef (τ := τ) .tc)).toFinset := by
  unfold lin2L
  exact writes_sub_of_mem main_v68 rfl (by decide)

theorem lin2L_frame (V : Vl) {r : Ref sig .tc} (hr : r ∉ lin2LW) :
    after lin2L V (no_index (Proc.devRef .tc r)) = V (Proc.devRef .tc r) :=
  after_of_writes_sub lin2L V lin2L_writes hr

/-- The buffers the stretch writes. -/
def agg2AW : List (Ref sig .tc) :=
  [main_c_12, main_v69, main_v70, main_c_13, main_v71, main_v72, main_v73, main_v74, main_v75, main_c_14, main_v76, main_v77, main_c_15, main_v78, main_v79, main_v80, main_v81, main_v82, main_v83, main_c_16, main_v84, main_v85, main_c_17, main_v86, main_v87, main_v88, main_v89, main_v90, main_v91, main_v92, main_v93, main_cst_18, main_v94, main_v95, main_v96, main_v97, main_v98]

theorem agg2A_writes : (agg2A (F := Ideal)).Forall fun op => op.writes ⊆ (agg2AW.map (Proc.devRef (τ := τ) .tc)).toFinset := by
  unfold agg2A
  exact ⟨writes_sub_of_mem main_c_12 rfl (by decide),
    writes_sub_of_mem main_v69 rfl (by decide),
    writes_sub_of_mem main_v70 rfl (by decide),
    writes_sub_of_mem main_c_13 rfl (by decide),
    writes_sub_of_mem main_v71 rfl (by decide),
    writes_sub_of_mem main_v72 rfl (by decide),
    writes_sub_of_mem main_v73 rfl (by decide),
    writes_sub_of_mem main_v74 rfl (by decide),
    writes_sub_of_mem main_v75 rfl (by decide),
    writes_sub_of_mem main_c_14 rfl (by decide),
    writes_sub_of_mem main_v76 rfl (by decide),
    writes_sub_of_mem main_v77 rfl (by decide),
    writes_sub_of_mem main_c_15 rfl (by decide),
    writes_sub_of_mem main_v78 rfl (by decide),
    writes_sub_of_mem main_v79 rfl (by decide),
    writes_sub_of_mem main_v80 rfl (by decide),
    writes_sub_of_mem main_v81 rfl (by decide),
    writes_sub_of_mem main_v82 rfl (by decide),
    writes_sub_of_mem main_v83 rfl (by decide),
    writes_sub_of_mem main_c_16 rfl (by decide),
    writes_sub_of_mem main_v84 rfl (by decide),
    writes_sub_of_mem main_v85 rfl (by decide),
    writes_sub_of_mem main_c_17 rfl (by decide),
    writes_sub_of_mem main_v86 rfl (by decide),
    writes_sub_of_mem main_v87 rfl (by decide),
    writes_sub_of_mem main_v88 rfl (by decide),
    writes_sub_of_mem main_v89 rfl (by decide),
    writes_sub_of_mem main_v90 rfl (by decide),
    writes_sub_of_mem main_v91 rfl (by decide),
    writes_sub_of_mem main_v92 rfl (by decide),
    writes_sub_of_mem main_v93 rfl (by decide),
    writes_sub_of_mem main_cst_18 rfl (by decide),
    writes_sub_of_mem main_v94 rfl (by decide),
    writes_sub_of_mem main_v95 rfl (by decide),
    writes_sub_of_mem main_v96 rfl (by decide),
    writes_sub_of_mem main_v97 rfl (by decide),
    writes_sub_of_mem main_v98 rfl (by decide)⟩

theorem agg2A_frame (V : Vl) {r : Ref sig .tc} (hr : r ∉ agg2AW) :
    after agg2A V (no_index (Proc.devRef .tc r)) = V (Proc.devRef .tc r) :=
  after_of_writes_sub agg2A V agg2A_writes hr

/-- The buffers the stretch writes. -/
def agg2BW : List (Ref sig .tc) :=
  [main_v99, main_v100, main_v101, main_v102, main_v103, main_v104]

theorem agg2B_writes : (agg2B (F := Ideal)).Forall fun op => op.writes ⊆ (agg2BW.map (Proc.devRef (τ := τ) .tc)).toFinset := by
  unfold agg2B
  exact ⟨writes_sub_of_mem main_v99 rfl (by decide),
    writes_sub_of_mem main_v100 rfl (by decide),
    writes_sub_of_mem main_v101 rfl (by decide),
    writes_sub_of_mem main_v102 rfl (by decide),
    writes_sub_of_mem main_v103 rfl (by decide),
    writes_sub_of_mem main_v104 rfl (by decide)⟩

theorem agg2B_frame (V : Vl) {r : Ref sig .tc} (hr : r ∉ agg2BW) :
    after agg2B V (no_index (Proc.devRef .tc r)) = V (Proc.devRef .tc r) :=
  after_of_writes_sub agg2B V agg2B_writes hr

/-! ## What each stretch computes -/

theorem pre_v1 (V : Vl) :
    after pre V (no_index (Proc.devRef .tc main_v1)) = src (V (Proc.devRef .tc main_arg1)) := by
  unfold pre
  after_results_simp
  rfl

theorem pre_v3 (V : Vl) :
    after pre V (no_index (Proc.devRef .tc main_v3)) = dst (V (Proc.devRef .tc main_arg1)) := by
  unfold pre
  after_results_simp
  rfl

theorem pre_v10 (V : Vl) :
    after pre V (no_index (Proc.devRef .tc main_v10)) = dis (V (Proc.devRef .tc main_arg1)) := by
  unfold pre
  after_results_simp
  rfl

theorem lin1_v11 (V : Vl) :
    after lin1L V (no_index (Proc.devRef .tc main_v11)) = lin1 (V (Proc.devRef .tc main_arg0)) (V (Proc.devRef .tc main_arg2)) := by
  unfold lin1L
  after_results_simp
  rfl

theorem agg1_v47 (V : Vl) :
    after agg1 V (no_index (Proc.devRef .tc main_v47)) = aggregateOn (V (Proc.devRef .tc main_v11)) (V (Proc.devRef .tc main_arg3)) (V (Proc.devRef .tc main_v1)) (V (Proc.devRef .tc main_v3)) (V (Proc.devRef .tc main_v10)) := by
  unfold agg1
  after_results_simp
  rfl

theorem stat_v50 (V : Vl) :
    after statB (after statA V) (no_index (Proc.devRef .tc main_v50)) = mean (V (Proc.devRef .tc main_v47)) := by
  unfold statA statB
  after_results_simp
  rfl

theorem stat_v51 (V : Vl) :
    after varL (after statB (after statA V)) (no_index (Proc.devRef .tc main_v51)) = var (V (Proc.devRef .tc main_v47)) := by
  unfold statA statB varL
  after_results_simp
  rfl

theorem bn_v67 (V : Vl) :
    after reluL (after bnA V) (no_index (Proc.devRef .tc main_v67)) = bn (V (Proc.devRef .tc main_v47)) (V (Proc.devRef .tc main_v50)) (V (Proc.devRef .tc main_v51)) (V (Proc.devRef .tc main_arg4)) (V (Proc.devRef .tc main_arg5)) := by
  unfold bnA reluL
  after_results_simp
  rfl

theorem lin2_v68 (V : Vl) :
    after lin2L V (no_index (Proc.devRef .tc main_v68)) = lin2 (V (Proc.devRef .tc main_v67)) (V (Proc.devRef .tc main_arg6)) := by
  unfold lin2L
  after_results_simp
  rfl

theorem agg2_v104 (V : Vl) :
    after agg2B (after agg2A V) (no_index (Proc.devRef .tc main_v104)) = aggregateOn (V (Proc.devRef .tc main_v68)) (V (Proc.devRef .tc main_arg7)) (V (Proc.devRef .tc main_v1)) (V (Proc.devRef .tc main_v3)) (V (Proc.devRef .tc main_v10)) := by
  unfold agg2A agg2B
  after_results_simp
  rfl

/-! ## The whole line -/

/-- After all of @main's operations the result buffer holds the stages' composition of the argument buffers. -/
theorem all_v104 (V : Vl) :
    after allOps V (Proc.devRef .tc main_v104)
      = out (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  unfold allOps
  simp only [after_append]
  simp (disch := decide) only [agg2_v104, lin2_v68, bn_v67, stat_v50, stat_v51, agg1_v47, lin1_v11, pre_v1, pre_v3, pre_v10,
    pre_frame, lin1L_frame, agg1_frame, statA_frame, statB_frame, varL_frame, bnA_frame, reluL_frame, lin2L_frame, agg2A_frame, agg2B_frame]
  rfl

/-- No operation of @main writes argument 0's buffer. -/
theorem all_arg0 (V : Vl) : after allOps V (Proc.devRef .tc main_arg0) = V (Proc.devRef .tc main_arg0) := by
  unfold allOps
  simp only [after_append]
  simp (disch := decide) only [pre_frame, lin1L_frame, agg1_frame, statA_frame, statB_frame, varL_frame, bnA_frame, reluL_frame, lin2L_frame, agg2A_frame, agg2B_frame]

/-- No operation of @main writes argument 1's buffer. -/
theorem all_arg1 (V : Vl) : after allOps V (Proc.devRef .tc main_arg1) = V (Proc.devRef .tc main_arg1) := by
  unfold allOps
  simp only [after_append]
  simp (disch := decide) only [pre_frame, lin1L_frame, agg1_frame, statA_frame, statB_frame, varL_frame, bnA_frame, reluL_frame, lin2L_frame, agg2A_frame, agg2B_frame]

/-- No operation of @main writes argument 2's buffer. -/
theorem all_arg2 (V : Vl) : after allOps V (Proc.devRef .tc main_arg2) = V (Proc.devRef .tc main_arg2) := by
  unfold allOps
  simp only [after_append]
  simp (disch := decide) only [pre_frame, lin1L_frame, agg1_frame, statA_frame, statB_frame, varL_frame, bnA_frame, reluL_frame, lin2L_frame, agg2A_frame, agg2B_frame]

/-- No operation of @main writes argument 3's buffer. -/
theorem all_arg3 (V : Vl) : after allOps V (Proc.devRef .tc main_arg3) = V (Proc.devRef .tc main_arg3) := by
  unfold allOps
  simp only [after_append]
  simp (disch := decide) only [pre_frame, lin1L_frame, agg1_frame, statA_frame, statB_frame, varL_frame, bnA_frame, reluL_frame, lin2L_frame, agg2A_frame, agg2B_frame]

/-- No operation of @main writes argument 4's buffer. -/
theorem all_arg4 (V : Vl) : after allOps V (Proc.devRef .tc main_arg4) = V (Proc.devRef .tc main_arg4) := by
  unfold allOps
  simp only [after_append]
  simp (disch := decide) only [pre_frame, lin1L_frame, agg1_frame, statA_frame, statB_frame, varL_frame, bnA_frame, reluL_frame, lin2L_frame, agg2A_frame, agg2B_frame]

/-- No operation of @main writes argument 5's buffer. -/
theorem all_arg5 (V : Vl) : after allOps V (Proc.devRef .tc main_arg5) = V (Proc.devRef .tc main_arg5) := by
  unfold allOps
  simp only [after_append]
  simp (disch := decide) only [pre_frame, lin1L_frame, agg1_frame, statA_frame, statB_frame, varL_frame, bnA_frame, reluL_frame, lin2L_frame, agg2A_frame, agg2B_frame]

/-- No operation of @main writes argument 6's buffer. -/
theorem all_arg6 (V : Vl) : after allOps V (Proc.devRef .tc main_arg6) = V (Proc.devRef .tc main_arg6) := by
  unfold allOps
  simp only [after_append]
  simp (disch := decide) only [pre_frame, lin1L_frame, agg1_frame, statA_frame, statB_frame, varL_frame, bnA_frame, reluL_frame, lin2L_frame, agg2A_frame, agg2B_frame]

/-- No operation of @main writes argument 7's buffer. -/
theorem all_arg7 (V : Vl) : after allOps V (Proc.devRef .tc main_arg7) = V (Proc.devRef .tc main_arg7) := by
  unfold allOps
  simp only [after_append]
  simp (disch := decide) only [pre_frame, lin1L_frame, agg1_frame, statA_frame, statB_frame, varL_frame, bnA_frame, reluL_frame, lin2L_frame, agg2A_frame, agg2B_frame]

/-- On every device, from any memory with zero counters: every weakly fair execution of the reference's @main
    terminates, its result the stages' composition `out` of the argument arrays, the arguments unchanged. -/
theorem run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v104) = out (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)) :=
  (θ_run _ _ _).mono (fun _ h c => ⟨(h c main_v104).trans (all_v104 _),
      (h c main_arg0).trans (all_arg0 _),
      (h c main_arg1).trans (all_arg1 _),
      (h c main_arg2).trans (all_arg2 _),
      (h c main_arg3).trans (all_arg3 _),
      (h c main_arg4).trans (all_arg4 _),
      (h c main_arg5).trans (all_arg5 _),
      (h c main_arg6).trans (all_arg6 _),
      (h c main_arg7).trans (all_arg7 _)⟩)
    (run_all m ρ)

end Cert.ReferenceIdeal.Hand

end
-- ==== Proof.RefFinite.lean ====
/-
  The first layer's output has only real entries when the inputs do.

  At the ideal instance a float is an extended real. An entry is REAL when it is neither infinity. The operations of
  the first layer keep entries real:

  * a broadcast and a gather only move entries: each result entry is some operand entry;
  * a product of matrices is, entry by entry, a finite sum of products of entries;
  * an accumulating scatter is, entry by entry, the accumulator's entry plus a finite sum of update entries;
  * sums and products of reals are real.

  The nodes' normalizers need one more fact: the inverse square root of a POSITIVE real is a real. A normalizer is the
  inverse square root of (the number of edges landing on the node) + 1, a real that is at least one.
-/
import proofs.«135803_j78812649882125_2_alg».proof.Proof.RefStages
import proofs.«135803_j78812649882125_2_alg».proof.Proof.LibSegLinear
import Idealize.ShloMosaic.PureOps.Ideal.Laws
import Idealize.ShloMosaic.Lib.ValueIdx

noncomputable section

open scoped BigOperators

namespace Cert.ReferenceIdeal.Hand

open Cert.ReferenceIdeal Idealize.ShloMosaic Idealize.ShloMosaic.ValueIdx Idealize.ShloMosaic.SegLinear
  Idealize.ShloMosaic.FiniteEntries
open Cert.ReferenceIdeal.Facts₀

/-! ## Operations that keep entries real -/

/-- A broadcast's entries are operand entries. -/
theorem isReal_broadcastInDim {s t : Shape} {dims : Fin s.rank → Fin t.rank} (h : s.BroadcastsInDim t dims)
    {x : s.Idx → EReal} (hx : ∀ k, IsReal (x k)) (j : t.Idx) : IsReal (broadcastInDim t dims h x j) := hx _

/-- A gather's entries are operand entries. -/
theorem isReal_gather {s si t : Shape} {w : Nat} (d : GatherDims s si t) {x : s.Idx → EReal} (idx : IVec si w)
    (hx : ∀ k, IsReal (x k)) (j : t.Idx) : IsReal (Host.gather d x idx j) := hx _

/-- An accumulating scatter's entry is the accumulator's plus a finite sum of update entries. -/
theorem isReal_scatterAdd {s si su : Shape} {w : Nat} (d : ScatterDims s si su) {x : s.Idx → EReal} (idx : IVec si w)
    {upd : su.Idx → EReal} (hx : ∀ k, IsReal (x k)) (hu : ∀ k, IsReal (upd k)) (i : s.Idx) :
    IsReal (Host.scatterAdd (F := Ideal) (φ := .f32) d x idx upd i) := by
  have h : Host.scatterAdd (F := Ideal) (φ := .f32) d x idx upd i = Ideal.hostScatterAdd d x idx upd i := rfl
  rw [h]
  unfold Ideal.hostScatterAdd
  exact (hx i).add (isReal_sum _ _ fun j _ => hu j)

/-- A matrix product's entry is a finite sum of products of entries. -/
theorem isReal_dotGeneral {sl sr so : Shape} (d : DotDims sl sr so) (prec : Option ContractPrecision)
    {l : sl.Idx → EReal} {r : sr.Idx → EReal} (hl : ∀ k, IsReal (l k)) (hr : ∀ k, IsReal (r k)) (j : so.Idx) :
    IsReal (Host.dotGeneral (F := Ideal) (φ₁ := .f32) (φ₂ := .f32) d prec l r j) := by
  show IsReal (FloatOps.dotGeneral (F := Ideal) (φ₁ := .f32) (φ₂ := .f32) d prec .single l r j)
  rw [Ideal.dotGeneral_apply]
  exact isReal_sum _ _ fun k _ => (hl _).mul (hr _)

/-- The zero word is zero. -/
theorem zero_word : Ideal.ofBits .f32 0x00000000#32 = 0 := by
  simp [Ideal.ofBits, Ideal.ieee]

/-- The word of one is one. -/
theorem one_word : Ideal.ofBits .f32 0x3F800000#32 = 1 := by
  simp [Ideal.ofBits, Ideal.ieee, -EReal.coe_mul]
  norm_num

/-! ## The inverse square root of a positive real -/

/-- An extended real that is a positive real. -/
def IsPos (x : EReal) : Prop := ∃ r : ℝ, 0 < r ∧ x = (r : EReal)

/-- The inverse square root of a positive real is a real. -/
theorem isReal_rsqrt_of_pos {x : EReal} (h : IsPos x) : IsReal (Ideal.rsqrt x) := by
  obtain ⟨r, hr, rfl⟩ := h
  show IsReal (if r < 0 then ⊥ else if r = 0 then ⊤ else (((Real.sqrt r)⁻¹ : ℝ) : EReal))
  rw [if_neg (not_lt.mpr hr.le), if_neg hr.ne']
  exact isReal_coe _

/-- A count plus one, begun at zero, is a positive real. -/
theorem isPos_count {ι : Type} (S : Finset ι) : IsPos (((0 : EReal) + ∑ _j ∈ S, (1 : EReal)) + 1) := by
  refine ⟨(S.card : ℝ) + 1, by positivity, ?_⟩
  have h1 : ∑ _j ∈ S, (1 : EReal) = ((S.card : ℝ) : EReal) := by
    have h2 : ∑ _j ∈ S, (1 : ℝ) = (S.card : ℝ) := by simp
    rw [← h2, coe_sum]
    rfl
  rw [h1, zero_add, EReal.coe_add]
  rfl

/-- A broadcast constant reads the constant's value everywhere. -/
theorem bcast_constant_apply {s t : Shape} {dims : Fin s.rank → Fin t.rank} (h : s.BroadcastsInDim t dims) (φ : FTy)
    (b : BitVec φ.bits) (j : t.Idx) :
    broadcastInDim t dims h (constant (F := Ideal) s φ b) j = Ideal.ofBits φ b := rfl

/-- The host's inverse square root, entry by entry. -/
theorem hostRsqrt_apply {s : Shape} (x : FVec Ideal s .f32) (i : s.Idx) :
    Host.rsqrt (F := Ideal) x i = Ideal.rsqrt (x i) := rfl

/-! ## The stages -/

/-- Every normalizer is a real. -/
theorem dis_real (ei : Arr S2x1600000 .i32) : ∀ i, IsReal (dis ei i) := by
  intro i
  unfold dis disOn
  rw [hostRsqrt_apply, addf_apply]
  refine isReal_rsqrt_of_pos ?_
  have h : ∀ (x : Arr S100000 .f32) (idx : Arr S1600000x1 .i32) (upd : Arr S1600000 .f32),
      Host.scatterAdd (F := Ideal) (φ := .f32) scatter_S100000_S1600000x1_S1600000_n_0_0_1 x idx upd i
        = Ideal.hostScatterAdd scatter_S100000_S1600000x1_S1600000_n_0_0_1 x idx upd i := fun _ _ _ => rfl
  rw [h]
  unfold Ideal.hostScatterAdd
  simp only [bcast_constant_apply, zero_word, one_word]
  exact isPos_count _

/-- The first dense layer of real inputs is real. -/
theorem lin1_real (x : Arr S100000x128 .f32) (w : Arr S128x64 .f32) (hx : ∀ i, IsReal (x i)) (hw : ∀ i, IsReal (w i)) :
    ∀ i, IsReal (lin1 x w i) := fun i => isReal_dotGeneral _ _ hx hw i

/-- A neighbourhood sum of real rows, real bias and real normalizers is real. -/
theorem aggregateOn_real (hlin : Arr S100000x64 .f32) (b : Arr S64 .f32) (s t : Arr S1600000 .i32)
    (dv : Arr S100000 .f32) (hh : ∀ i, IsReal (hlin i)) (hb : ∀ i, IsReal (b i)) (hd : ∀ i, IsReal (dv i)) :
    ∀ i, IsReal (aggregateOn hlin b s t dv i) := by
  intro i
  unfold aggregateOn
  rw [addf_apply, addf_apply, mulf_apply]
  refine ((isReal_scatterAdd _ _ (fun k => ?_) (fun k => ?_) i).add ((hh i).mul ?_)).add ?_
  · rw [bcast_constant_apply, zero_word]; exact isReal_zero
  · rw [mulf_apply]
    refine (isReal_gather _ _ hh k).mul
      (isReal_broadcastInDim _ (fun k1 => isReal_broadcastInDim _ (fun k2 => ?_) k1) k)
    rw [mulf_apply]
    exact (isReal_gather _ _ hd k2).mul (isReal_gather _ _ hd k2)
  · exact isReal_broadcastInDim _
      (fun k1 => isReal_broadcastInDim _ (fun k2 => by rw [mulf_apply]; exact (hd k2).mul (hd k2)) k1) i
  · exact isReal_broadcastInDim _ (fun k1 => isReal_broadcastInDim _ hb k1) i

/-- The first layer's output is real when the features, the weights and the bias are. -/
theorem h1_real (x : Arr S100000x128 .f32) (ei : Arr S2x1600000 .i32) (w1 : Arr S128x64 .f32) (b1 : Arr S64 .f32)
    (hx : ∀ i, IsReal (x i)) (hw : ∀ i, IsReal (w1 i)) (hb : ∀ i, IsReal (b1 i)) :
    ∀ i, IsReal (h1 x ei w1 b1 i) :=
  aggregateOn_real _ _ _ _ _ (lin1_real x w1 hx hw) hb (dis_real ei)

end Cert.ReferenceIdeal.Hand

end
-- ==== Proof.PreReal.lean ====
import proofs.«135803_j78812649882125_2_alg».proof.Defs
import proofs.«135803_j78812649882125_2_alg».proof.Proof.Gen.Pre_finite_inputs
import proofs.«135803_j78812649882125_2_alg».proof.Proof.LibSegLinear
import Idealize.ShloMosaic.Lib.ReduceAll
import Idealize.ShloMosaic.Lib.Affine

set_option maxRecDepth 16384

noncomputable section

namespace Cert.KernelIdeal.Hand

open Idealize.ShloMosaic Idealize.ShloMosaic.TcCoe Idealize.ShloMosaic.ValueIdx
open Idealize.ShloMosaic.SegLinear Idealize.ShloMosaic.FiniteEntries

/-! # From the precondition to the reals: every entry of the float inputs the first layer reads is a real number -/

/-- The precondition — each float input's `all(|a| < +∞)`, conjoined — gives, input by input, that every entry is a real. -/
theorem pre_real (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    (∀ i : S100000x128.Idx, IsReal ((m ((c.tc : Thread nD τ).loc main_arg0) : FVec Ideal S100000x128 .f32) i))
      ∧ (∀ i : S128x64.Idx, IsReal ((m ((c.tc : Thread nD τ).loc main_arg2) : FVec Ideal S128x64 .f32) i))
      ∧ (∀ i : S64.Idx, IsReal ((m ((c.tc : Thread nD τ).loc main_arg3) : FVec Ideal S64 .f32) i)) := by
  have h0 := congrFun (h c) ix0
  unfold Cert.Pre_finite_inputs.fn Cert.Pre_finite_inputs.fn_part1 at h0
  dsimp only at h0
  unfold Idealize.ShloMosaic.andi at h0
  simp only [IntOp.andi_eq_one] at h0
  obtain ⟨⟨⟨⟨⟨⟨e0, e2⟩, e3⟩, -⟩, -⟩, -⟩, -⟩ := h0
  exact ⟨fun i => real_of_all _ _ _ _ _ e0 i, fun i => real_of_all _ _ _ _ _ e2 i, fun i => real_of_all _ _ _ _ _ e3 i⟩

end Cert.KernelIdeal.Hand

end
-- ==== Proof.lean ====
/-
  The certificate's claim: the kernel — two dense layers, each followed by a normalized neighbourhood sum over the
  edge list, with a batch normalisation between them whose column statistics one region accumulates over ten row
  tiles — and its reference compute the same function on the extended reals, for finite inputs.

  The three frames are the programs' runs with the results dropped. The kernel's run is a list of eight segments,
  four stretches of host operations and four pipelined regions; the reference's is one line of host operations.
  The idealization rewrote nothing, so nothing is to preserve. For the values: the two sides apply the same host
  operations to the dense layers' outputs, a row tile of a matrix product is the product of the row tile, the
  column sums over ten tiles are the column sums, and for real entries the mean of the squares less the square of
  the mean, clamped at zero, is the mean of the squared deviations — which is where finiteness of the inputs is used:
  it makes every entry of the first layer's output a real number.
-/
import proofs.«135803_j78812649882125_2_alg».proof.Defs
import proofs.«135803_j78812649882125_2_alg».proof.Proof.Gen.Kernel
import proofs.«135803_j78812649882125_2_alg».proof.Proof.Gen.KernelIdeal
import proofs.«135803_j78812649882125_2_alg».proof.Proof.Gen.ReferenceIdeal
import proofs.«135803_j78812649882125_2_alg».proof.Proof.Gen.Pre_finite_inputs
import proofs.«135803_j78812649882125_2_alg».proof.Proof.KernelValue
import proofs.«135803_j78812649882125_2_alg».proof.Proof.Bits.ProgramRun
import proofs.«135803_j78812649882125_2_alg».proof.Proof.RefRun
import proofs.«135803_j78812649882125_2_alg».proof.Proof.RefFinite
import proofs.«135803_j78812649882125_2_alg».proof.Proof.PreReal
import Idealize.ShloMosaic.Adequacy
import Idealize.ShloMosaic.Init

noncomputable section

namespace Cert.Proof

open Idealize.ShloMosaic Idealize.SL.Sem Idealize.ShloMosaic.SegLinear

/-- The word-level kernel runs and leaves its arguments as launched. -/
theorem frame_kernel : Cert.frame_Kernel (hKernel := Cert.Kernel.Gen.facts) (hPre_finite_inputs := Cert.Pre_finite_inputs.Gen.facts) :=
  fun m ρ _ => (θ_run (Cert.Kernel.defs (F := Bits)) _ _).mono (fun r h c =>
    ⟨(h c _ (Cert.Kernel.Hand.mem_uc Cert.Kernel.main_arg0 (by decide))).trans (Cert.Kernel.Hand.W8_main_arg0 m ρ c),
      (h c _ (Cert.Kernel.Hand.mem_uc Cert.Kernel.main_arg1 (by decide))).trans (Cert.Kernel.Hand.W8_main_arg1 m ρ c),
      (h c _ (Cert.Kernel.Hand.mem_uc Cert.Kernel.main_arg2 (by decide))).trans (Cert.Kernel.Hand.W8_main_arg2 m ρ c),
      (h c _ (Cert.Kernel.Hand.mem_uc Cert.Kernel.main_arg3 (by decide))).trans (Cert.Kernel.Hand.W8_main_arg3 m ρ c),
      (h c _ (Cert.Kernel.Hand.mem_uc Cert.Kernel.main_arg4 (by decide))).trans (Cert.Kernel.Hand.W8_main_arg4 m ρ c),
      (h c _ (Cert.Kernel.Hand.mem_uc Cert.Kernel.main_arg5 (by decide))).trans (Cert.Kernel.Hand.W8_main_arg5 m ρ c),
      (h c _ (Cert.Kernel.Hand.mem_uc Cert.Kernel.main_arg6 (by decide))).trans (Cert.Kernel.Hand.W8_main_arg6 m ρ c),
      (h c _ (Cert.Kernel.Hand.mem_uc Cert.Kernel.main_arg7 (by decide))).trans (Cert.Kernel.Hand.W8_main_arg7 m ρ c)⟩) (Cert.Kernel.Hand.run (F := Bits) m ρ)

/-- The idealized kernel runs and leaves its arguments as launched. -/
theorem frame_kernelIdeal : Cert.frame_KernelIdeal (hKernelIdeal := Cert.KernelIdeal.Gen.facts) (hPre_finite_inputs := Cert.Pre_finite_inputs.Gen.facts) :=
  fun m ρ _ => (θ_run (Cert.KernelIdeal.defs (F := Ideal)) _ _).mono (fun r h c =>
    ⟨(h c _ (Cert.KernelIdeal.Hand.mem_uc Cert.KernelIdeal.main_arg0 (by decide))).trans (Cert.KernelIdeal.Hand.W8_main_arg0 m ρ c),
      (h c _ (Cert.KernelIdeal.Hand.mem_uc Cert.KernelIdeal.main_arg1 (by decide))).trans (Cert.KernelIdeal.Hand.W8_main_arg1 m ρ c),
      (h c _ (Cert.KernelIdeal.Hand.mem_uc Cert.KernelIdeal.main_arg2 (by decide))).trans (Cert.KernelIdeal.Hand.W8_main_arg2 m ρ c),
      (h c _ (Cert.KernelIdeal.Hand.mem_uc Cert.KernelIdeal.main_arg3 (by decide))).trans (Cert.KernelIdeal.Hand.W8_main_arg3 m ρ c),
      (h c _ (Cert.KernelIdeal.Hand.mem_uc Cert.KernelIdeal.main_arg4 (by decide))).trans (Cert.KernelIdeal.Hand.W8_main_arg4 m ρ c),
      (h c _ (Cert.KernelIdeal.Hand.mem_uc Cert.KernelIdeal.main_arg5 (by decide))).trans (Cert.KernelIdeal.Hand.W8_main_arg5 m ρ c),
      (h c _ (Cert.KernelIdeal.Hand.mem_uc Cert.KernelIdeal.main_arg6 (by decide))).trans (Cert.KernelIdeal.Hand.W8_main_arg6 m ρ c),
      (h c _ (Cert.KernelIdeal.Hand.mem_uc Cert.KernelIdeal.main_arg7 (by decide))).trans (Cert.KernelIdeal.Hand.W8_main_arg7 m ρ c)⟩) (Cert.KernelIdeal.Hand.run (F := Ideal) m ρ)

/-- The idealized reference runs and leaves its arguments as launched. -/
theorem frame_referenceIdeal : Cert.frame_ReferenceIdeal (hReferenceIdeal := Cert.ReferenceIdeal.Gen.facts) (hPre_finite_inputs := Cert.Pre_finite_inputs.Gen.facts) :=
  fun m ρ _ => (θ_run _ _ _).mono (fun _ h c => (h c).2) (Cert.ReferenceIdeal.Hand.run m ρ)

/-- From memories agreeing on the arguments, of which the kernel's are finite, both idealized programs end with the
    reference's function of the arguments in their results. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hreal : ∀ (c : Dev Cert.KernelIdeal.nD) i, IsReal (Cert.ReferenceIdeal.Hand.h1 (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) i) := fun c => by
    obtain ⟨h0, h2, h3⟩ := Cert.KernelIdeal.Hand.pre_real m hpre c
    exact Cert.ReferenceIdeal.Hand.h1_real _ _ _ _ h0 h2 h3
  refine ⟨fun c => Cert.ReferenceIdeal.Hand.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run (Cert.KernelIdeal.defs (F := Ideal)) _ _).mono (fun r h c =>
      ⟨(h c _ (Cert.KernelIdeal.Hand.mem_uc Cert.KernelIdeal.main_v100 (by decide))).trans (Cert.KernelIdeal.Hand.W8_out m ρ c (hreal c)),
      (h c _ (Cert.KernelIdeal.Hand.mem_uc Cert.KernelIdeal.main_arg0 (by decide))).trans (Cert.KernelIdeal.Hand.W8_main_arg0 m ρ c),
      (h c _ (Cert.KernelIdeal.Hand.mem_uc Cert.KernelIdeal.main_arg1 (by decide))).trans (Cert.KernelIdeal.Hand.W8_main_arg1 m ρ c),
      (h c _ (Cert.KernelIdeal.Hand.mem_uc Cert.KernelIdeal.main_arg2 (by decide))).trans (Cert.KernelIdeal.Hand.W8_main_arg2 m ρ c),
      (h c _ (Cert.KernelIdeal.Hand.mem_uc Cert.KernelIdeal.main_arg3 (by decide))).trans (Cert.KernelIdeal.Hand.W8_main_arg3 m ρ c),
      (h c _ (Cert.KernelIdeal.Hand.mem_uc Cert.KernelIdeal.main_arg4 (by decide))).trans (Cert.KernelIdeal.Hand.W8_main_arg4 m ρ c),
      (h c _ (Cert.KernelIdeal.Hand.mem_uc Cert.KernelIdeal.main_arg5 (by decide))).trans (Cert.KernelIdeal.Hand.W8_main_arg5 m ρ c),
      (h c _ (Cert.KernelIdeal.Hand.mem_uc Cert.KernelIdeal.main_arg6 (by decide))).trans (Cert.KernelIdeal.Hand.W8_main_arg6 m ρ c),
      (h c _ (Cert.KernelIdeal.Hand.mem_uc Cert.KernelIdeal.main_arg7 (by decide))).trans (Cert.KernelIdeal.Hand.W8_main_arg7 m ρ c)⟩) (Cert.KernelIdeal.Hand.run (F := Ideal) m ρ)
  · refine (θ_run (Cert.ReferenceIdeal.defs (F := Ideal)) _ _).mono (fun r h c => ⟨?_, (h c).2⟩) (Cert.ReferenceIdeal.Hand.run m' ρ')
    obtain ⟨e0, e1, e2, e3, e4, e5, e6, e7⟩ := hagree c
    rw [(h c).1, e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
